-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1 : Shape := ⟨2, ![50000, 1]⟩
abbrev S10000x1 : Shape := ⟨2, ![10000, 1]⟩
abbrev S500000x85 : Shape := ⟨2, ![500000, 85]⟩
abbrev S2x1x64 : Shape := ⟨3, ![2, 1, 64]⟩
abbrev S2x85x64 : Shape := ⟨3, ![2, 85, 64]⟩
abbrev S2x64 : Shape := ⟨2, ![2, 64]⟩
abbrev S4x64x64 : Shape := ⟨3, ![4, 64, 64]⟩
abbrev S4x64 : Shape := ⟨2, ![4, 64]⟩
abbrev S128x2 : Shape := ⟨2, ![128, 2]⟩
abbrev S2 : Shape := ⟨1, ![2]⟩
abbrev S500000 : Shape := ⟨1, ![500000]⟩
abbrev S_ : Shape := ⟨0, ![]⟩

class Facts : Prop where
  bcast_S_S50000x1 : S_.BroadcastsInDim S50000x1 (![] : Fin 0 → Fin S50000x1.rank)
  reducesTo_S50000x1_S_d0_1 : S50000x1.ReducesTo [0, 1] S_
  h_S_ : 0 < S_.numel
  bcast_S_S10000x1 : S_.BroadcastsInDim S10000x1 (![] : Fin 0 → Fin S10000x1.rank)
  reducesTo_S10000x1_S_d0_1 : S10000x1.ReducesTo [0, 1] S_
  bcast_S_S500000x85 : S_.BroadcastsInDim S500000x85 (![] : Fin 0 → Fin S500000x85.rank)
  reducesTo_S500000x85_S_d0_1 : S500000x85.ReducesTo [0, 1] S_
  bcast_S_S2x1x64 : S_.BroadcastsInDim S2x1x64 (![] : Fin 0 → Fin S2x1x64.rank)
  reducesTo_S2x1x64_S_d0_1_2 : S2x1x64.ReducesTo [0, 1, 2] S_
  bcast_S_S2x85x64 : S_.BroadcastsInDim S2x85x64 (![] : Fin 0 → Fin S2x85x64.rank)
  reducesTo_S2x85x64_S_d0_1_2 : S2x85x64.ReducesTo [0, 1, 2] S_
  bcast_S_S2x64 : S_.BroadcastsInDim S2x64 (![] : Fin 0 → Fin S2x64.rank)
  reducesTo_S2x64_S_d0_1 : S2x64.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S4x64 .f32) (main_arg12 : FVec F S128x2 .f32) (main_arg13 : FVec F S2 .f32) (main_v48 : IVec S_ 1) (main_v49 : FVec F S4x64x64 .f32) (main_v50 : FVec F S4x64x64 .f32) : IVec S_ 1 :=
  let main_v51 : IVec S4x64x64 1 := cmpf .olt main_v49 main_v50
  let main_c_19 : IVec S_ 1 := constantI S_ 1 1#1
  let main_v52 : IVec S_ 1 := (fun x v => Host.reduce IntOp.andi x v reducesTo_S4x64x64_S_d0_1_2 h_S_) main_v51 main_c_19
  let main_v53 : IVec S_ 1 := andi main_v48 main_v52
  let main_v54 : FVec F S4x64 .f32 := Host.absf main_arg11
  let main_cst_20 : FVec F S_ .f32 := constant S_ .f32 0x7F800000#32
  let main_v55 : FVec F S4x64 .f32 := broadcastInDim S4x64 ![] bcast_S_S4x64 main_cst_20
  let main_v56 : IVec S4x64 1 := cmpf .olt main_v54 main_v55
  let main_c_21 : IVec S_ 1 := constantI S_ 1 1#1
  let main_v57 : IVec S_ 1 := (fun x v => Host.reduce IntOp.andi x v reducesTo_S4x64_S_d0_1 h_S_) main_v56 main_c_21
  let main_v58 : IVec S_ 1 := andi main_v53 main_v57
  let main_v59 : FVec F S128x2 .f32 := Host.absf main_arg12
  let main_cst_22 : FVec F S_ .f32 := constant S_ .f32 0x7F800000#32
  let main_v60 : FVec F S128x2 .f32 := broadcastInDim S128x2 ![] bcast_S_S128x2 main_cst_22
  let main_v61 : IVec S128x2 1 := cmpf .olt main_v59 main_v60
  let main_c_23 : IVec S_ 1 := constantI S_ 1 1#1
  let main_v62 : IVec S_ 1 := (fun x v => Host.reduce IntOp.andi x v reducesTo_S128x2_S_d0_1 h_S_) main_v61 main_c_23
  let main_v63 : IVec S_ 1 := andi main_v58 main_v62
  let main_v64 : FVec F S2 .f32 := Host.absf main_arg13
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_v63 main_v67

def fn_part2 {F : FTy → Type} [FloatOps F] (main_arg7 : FVec F S2x1x64 .f32) (main_arg8 : FVec F S2x64 .f32) (main_arg9 : FVec F S4x64x64 .f32) (main_arg10 : FVec F S4x64x64 .f32) (main_arg11 : FVec F S4x64 .f32) (main_arg12 : FVec F S128x2 .f32) (main_arg13 : FVec F S2 .f32) (main_v33 : IVec S_ 1) : IVec S_ 1 :=
  let main_v34 : FVec F S2x1x64 .f32 := Host.absf main_arg7
  let main_cst_12 : FVec F S_ .f32 := constant S_ .f32 0x7F800000#32
  let main_v35 : FVec F S2x1x64 .f32 := broadcastInDim S2x1x64 ![] bcast_S_S2x1x64 main_cst_12
  let main_v36 : IVec S2x1x64 1 := cmpf .olt main_v34 main_v35
  let main_c_13 : IVec S_ 1 := constantI S_ 1 1#1
  let main_v37 : IVec S_ 1 := (fun x v => Host.reduce IntOp.andi x v reducesTo_S2x1x64_S_d0_1_2 h_S_) main_v36 main_c_13
  let main_v38 : IVec S_ 1 := andi main_v33 main_v37
  let main_v39 : FVec F S2x64 .f32 := Host.absf main_arg8
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  let main_v44 : FVec F S4x64x64 .f32 := Host.absf main_arg9
  let main_cst_16 : FVec F S_ .f32 := constant S_ .f32 0x7F800000#32
  let main_v45 : FVec F S4x64x64 .f32 := broadcastInDim S4x64x64 ![] bcast_S_S4x64x64 main_cst_16
  let main_v46 : IVec S4x64x64 1 := cmpf .olt main_v44 main_v45
  let main_c_17 : IVec S_ 1 := constantI S_ 1 1#1
  let main_v47 : IVec S_ 1 := (fun x v => Host.reduce IntOp.andi x v reducesTo_S4x64x64_S_d0_1_2 h_S_) main_v46 main_c_17
  let main_v48 : IVec S_ 1 := andi main_v43 main_v47
  let main_v49 : FVec F S4x64x64 .f32 := Host.absf main_arg10
  let main_cst_18 : FVec F S_ .f32 := constant S_ .f32 0x7F800000#32
  let main_v50 : FVec F S4x64x64 .f32 := broadcastInDim S4x64x64 ![] bcast_S_S4x64x64 main_cst_18
  fn_part3 (F := F) main_arg11 main_arg12 main_arg13 main_v48 main_v49 main_v50

def fn_part1 {F : FTy → Type} [FloatOps F] (main_arg4 : FVec F S2x85x64 .f32) (main_arg5 : FVec F S2x64 .f32) (main_arg6 : FVec F S2x85x64 .f32) (main_arg7 : FVec F S2x1x64 .f32) (main_arg8 : FVec F S2x64 .f32) (main_arg9 : FVec F S4x64x64 .f32) (main_arg10 : FVec F S4x64x64 .f32) (main_arg11 : FVec F S4x64 .f32) (main_arg12 : FVec F S128x2 .f32) (main_arg13 : FVec F S2 .f32) (main_v13 : IVec S_ 1) (main_v16 : IVec S2x1x64 1) : IVec S_ 1 :=
  let main_c_5 : IVec S_ 1 := constantI S_ 1 1#1
  let main_v17 : IVec S_ 1 := (fun x v => Host.reduce IntOp.andi x v reducesTo_S2x1x64_S_d0_1_2 h_S_) main_v16 main_c_5
  let main_v18 : IVec S_ 1 := andi main_v13 main_v17
  let main_v19 : FVec F S2x85x64 .f32 := Host.absf main_arg4
  let main_cst_6 : FVec F S_ .f32 := constant S_ .f32 0x7F800000#32
  let main_v20 : FVec F S2x85x64 .f32 := broadcastInDim S2x85x64 ![] bcast_S_S2x85x64 main_cst_6
  let main_v21 : IVec S2x85x64 1 := cmpf .olt main_v19 main_v20
  let main_c_7 : IVec S_ 1 := constantI S_ 1 1#1
  let main_v22 : IVec S_ 1 := (fun x v => Host.reduce IntOp.andi x v reducesTo_S2x85x64_S_d0_1_2 h_S_) main_v21 main_c_7
  let main_v23 : IVec S_ 1 := andi main_v18 main_v22
  let main_v24 : FVec F S2x64 .f32 := Host.absf main_arg5
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S2x85x64 .f32 := Host.absf main_arg6
  let main_cst_10 : FVec F S_ .f32 := constant S_ .f32 0x7F800000#32
  let main_v30 : FVec F S2x85x64 .f32 := broadcastInDim S2x85x64 ![] bcast_S_S2x85x64 main_cst_10
  let main_v31 : IVec S2x85x64 1 := cmpf .olt main_v29 main_v30
  let main_c_11 : IVec S_ 1 := constantI S_ 1 1#1
  let main_v32 : IVec S_ 1 := (fun x v => Host.reduce IntOp.andi x v reducesTo_S2x85x64_S_d0_1_2 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S50000x1 .f32) (main_arg1 : FVec F S10000x1 .f32) (main_arg2 : FVec F S500000x85 .f32) (main_arg3 : FVec F S2x1x64 .f32) (main_arg4 : FVec F S2x85x64 .f32) (main_arg5 : FVec F S2x64 .f32) (main_arg6 : FVec F S2x85x64 .f32) (main_arg7 : FVec F S2x1x64 .f32) (main_arg8 : FVec F S2x64 .f32) (main_arg9 : FVec F S4x64x64 .f32) (main_arg10 : FVec F S4x64x64 .f32) (main_arg11 : FVec F S4x64 .f32) (main_arg12 : FVec F S128x2 .f32) (main_arg13 : FVec F S2 .f32) (main_arg14 : IVec S500000 32) (main_arg15 : IVec S500000 32) (main_arg16 : IVec S500000 32) (main_arg17 : IVec S500000 32) : IVec S_ 1 :=
  let main_v0 : FVec F S50000x1 .f32 := Host.absf main_arg0
  let main_cst : FVec F S_ .f32 := constant S_ .f32 0x7F800000#32
  let main_v1 : FVec F S50000x1 .f32 := broadcastInDim S50000x1 ![] bcast_S_S50000x1 main_cst
  let main_v2 : IVec S50000x1 1 := cmpf .olt main_v0 main_v1
  let main_c : IVec S_ 1 := constantI S_ 1 1#1
  let main_v3 : IVec S_ 1 := (fun x v => Host.reduce IntOp.andi x v reducesTo_S50000x1_S_d0_1 h_S_) main_v2 main_c
  let main_v4 : FVec F S10000x1 .f32 := Host.absf main_arg1
  let main_cst_0 : FVec F S_ .f32 := constant S_ .f32 0x7F800000#32
  let main_v5 : FVec F S10000x1 .f32 := broadcastInDim S10000x1 ![] bcast_S_S10000x1 main_cst_0
  let main_v6 : IVec S10000x1 1 := cmpf .olt main_v4 main_v5
  let main_c_1 : IVec S_ 1 := constantI S_ 1 1#1
  let main_v7 : IVec S_ 1 := (fun x v => Host.reduce IntOp.andi x v reducesTo_S10000x1_S_d0_1 h_S_) main_v6 main_c_1
  let main_v8 : IVec S_ 1 := andi main_v3 main_v7
  let main_v9 : FVec F S500000x85 .f32 := Host.absf main_arg2
  let main_cst_2 : FVec F S_ .f32 := constant S_ .f32 0x7F800000#32
  let main_v10 : FVec F S500000x85 .f32 := broadcastInDim S500000x85 ![] bcast_S_S500000x85 main_cst_2
  let main_v11 : IVec S500000x85 1 := cmpf .olt main_v9 main_v10
  let main_c_3 : IVec S_ 1 := constantI S_ 1 1#1
  let main_v12 : IVec S_ 1 := (fun x v => Host.reduce IntOp.andi x v reducesTo_S500000x85_S_d0_1 h_S_) main_v11 main_c_3
  let main_v13 : IVec S_ 1 := andi main_v8 main_v12
  let main_v14 : FVec F S2x1x64 .f32 := Host.absf main_arg3
  let main_cst_4 : FVec F S_ .f32 := constant S_ .f32 0x7F800000#32
  let main_v15 : FVec F S2x1x64 .f32 := broadcastInDim S2x1x64 ![] bcast_S_S2x1x64 main_cst_4
  let main_v16 : IVec S2x1x64 1 := cmpf .olt main_v14 main_v15
  fn_part1 (F := F) main_arg4 main_arg5 main_arg6 main_arg7 main_arg8 main_arg9 main_arg10 main_arg11 main_arg12 main_arg13 main_v13 main_v16
-- ==== Kernel.lean ====
abbrev S50000x1 : Shape := ⟨2, ![50000, 1]⟩
abbrev S10000x1 : Shape := ⟨2, ![10000, 1]⟩
abbrev S500000x85 : Shape := ⟨2, ![500000, 85]⟩
abbrev S2x1x64 : Shape := ⟨3, ![2, 1, 64]⟩
abbrev S2x85x64 : Shape := ⟨3, ![2, 85, 64]⟩
abbrev S2x64 : Shape := ⟨2, ![2, 64]⟩
abbrev S4x64x64 : Shape := ⟨3, ![4, 64, 64]⟩
abbrev S4x64 : Shape := ⟨2, ![4, 64]⟩
abbrev S128x2 : Shape := ⟨2, ![128, 2]⟩
abbrev S2 : Shape := ⟨1, ![2]⟩
abbrev S500000 : Shape := ⟨1, ![500000]⟩
abbrev S_ : Shape := ⟨0, ![]⟩
abbrev S500000x1 : Shape := ⟨2, ![500000, 1]⟩
abbrev S50000x85 : Shape := ⟨2, ![50000, 85]⟩
abbrev S10000x85 : Shape := ⟨2, ![10000, 85]⟩
abbrev S1x85x64 : Shape := ⟨3, ![1, 85, 64]⟩
abbrev S85x64 : Shape := ⟨2, ![85, 64]⟩
abbrev S1x1x64 : Shape := ⟨3, ![1, 1, 64]⟩
abbrev S1x64 : Shape := ⟨2, ![1, 64]⟩
abbrev S64 : Shape := ⟨1, ![64]⟩
abbrev S50000x64 : Shape := ⟨2, ![50000, 64]⟩
abbrev S2000x85 : Shape := ⟨2, ![2000, 85]⟩
abbrev S2000x1 : Shape := ⟨2, ![2000, 1]⟩
abbrev S2000x64 : Shape := ⟨2, ![2000, 64]⟩
abbrev S10000x64 : Shape := ⟨2, ![10000, 64]⟩
abbrev S500000x64 : Shape := ⟨2, ![500000, 64]⟩
abbrev S2x128 : Shape := ⟨2, ![2, 128]⟩
abbrev S1x64x64 : Shape := ⟨3, ![1, 64, 64]⟩
abbrev S64x64 : Shape := ⟨2, ![64, 64]⟩
abbrev S1x2 : Shape := ⟨2, ![1, 2]⟩
abbrev S500000x2 : Shape := ⟨2, ![500000, 2]⟩
abbrev S4000x1 : Shape := ⟨2, ![4000, 1]⟩
abbrev S4000x85 : Shape := ⟨2, ![4000, 85]⟩
abbrev S4000x64 : Shape := ⟨2, ![4000, 64]⟩
abbrev S4000x2 : Shape := ⟨2, ![4000, 2]⟩
abbrev S4000x128 : Shape := ⟨2, ![4000, 128]⟩
abbrev S1x128 : Shape := ⟨2, ![1, 128]⟩
abbrev S4000 : Shape := ⟨1, ![4000]⟩

abbrev nBuf : Space → Nat
  | .hbm => 146
  | .vmem => 42
  | .smem => 0
  | _ => 0

abbrev hbmTy0_0 (i : Nat) : BufTy := match i % 128 with
  | 0 => ⟨S50000x1, .f32⟩
  | 1 => ⟨S10000x1, .f32⟩
  | 2 => ⟨S500000x85, .f32⟩
  | 3 => ⟨S2x1x64, .f32⟩
  | 4 => ⟨S2x85x64, .f32⟩
  | 5 => ⟨S2x64, .f32⟩
  | 6 => ⟨S2x85x64, .f32⟩
  | 7 => ⟨S2x1x64, .f32⟩
  | 8 => ⟨S2x64, .f32⟩
  | 9 => ⟨S4x64x64, .f32⟩
  | 10 => ⟨S4x64x64, .f32⟩
  | 11 => ⟨S4x64, .f32⟩
  | 12 => ⟨S128x2, .f32⟩
  | 13 => ⟨S2, .f32⟩
  | 14 => ⟨S500000, .i32⟩
  | 15 => ⟨S500000, .i32⟩
  | 16 => ⟨S500000, .i32⟩
  | 17 => ⟨S500000, .i32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S500000x1, .i32⟩
  | 26 => ⟨S500000x1, .f32⟩
  | 27 => ⟨S_, .f32⟩
  | 28 => ⟨S500000x1, .f32⟩
  | 29 => ⟨S500000x1, .i32⟩
  | 30 => ⟨S500000x1, .f32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000x1, .f32⟩
  | 40 => ⟨S_, .f32⟩
  | 41 => ⟨S500000x1, .f32⟩
  | 42 => ⟨S500000x1, .i32⟩
  | 43 => ⟨S500000x1, .f32⟩
  | 44 => ⟨S_, .i32⟩
  | 45 => ⟨S500000, .i32⟩
  | 46 => ⟨S500000, .i1⟩
  | 47 => ⟨S_, .i32⟩
  | 48 => ⟨S500000, .i32⟩
  | 49 => ⟨S500000, .i32⟩
  | 50 => ⟨S500000, .i32⟩
  | 51 => ⟨S500000x1, .i32⟩
  | 52 => ⟨S500000x85, .f32⟩
  | 53 => ⟨S_, .f32⟩
  | 54 => ⟨S50000x85, .f32⟩
  | 55 => ⟨S500000x1, .i32⟩
  | 56 => ⟨S50000x85, .f32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S500000x1, .i32⟩
  | 65 => ⟨S500000x85, .f32⟩
  | 66 => ⟨S_, .f32⟩
  | 67 => ⟨S10000x85, .f32⟩
  | 68 => ⟨S500000x1, .i32⟩
  | 69 => ⟨S10000x85, .f32⟩
  | 70 => ⟨S1x85x64, .f32⟩
  | 71 => ⟨S85x64, .f32⟩
  | 72 => ⟨S1x1x64, .f32⟩
  | 73 => ⟨S1x64, .f32⟩
  | 74 => ⟨S1x64, .f32⟩
  | 75 => ⟨S64, .f32⟩
  | 76 => ⟨S1x64, .f32⟩
  | 77 => ⟨S50000x64, .bf16⟩
  | 78 => ⟨S1x85x64, .f32⟩
  | 79 => ⟨S85x64, .f32⟩
  | 80 => ⟨S1x1x64, .f32⟩
  | 81 => ⟨S1x64, .f32⟩
  | 82 => ⟨S1x64, .f32⟩
  | 83 => ⟨S64, .f32⟩
  | 84 => ⟨S1x64, .f32⟩
  | 85 => ⟨S10000x64, .bf16⟩
  | 86 => ⟨S_, .i32⟩
  | 87 => ⟨S500000, .i32⟩
  | 88 => ⟨S500000, .i1⟩
  | 89 => ⟨S_, .i32⟩
  | 90 => ⟨S500000, .i32⟩
  | 91 => ⟨S500000, .i32⟩
  | 92 => ⟨S500000, .i32⟩
  | 93 => ⟨S500000x1, .i32⟩
  | 94 => ⟨S500000x64, .bf16⟩
  | 95 => ⟨S500000x64, .f32⟩
  | 96 => ⟨S_, .f32⟩
  | 97 => ⟨S500000x64, .f32⟩
  | 98 => ⟨S500000x1, .i32⟩
  | 99 => ⟨S500000x64, .f32⟩
  | 100 => ⟨S_, .i32⟩
  | 101 => ⟨S500000, .i32⟩
  | 102 => ⟨S500000, .i1⟩
  | 103 => ⟨S_, .i32⟩
  | 104 => ⟨S500000, .i32⟩
  | 105 => ⟨S500000, .i32⟩
  | 106 => ⟨S500000, .i32⟩
  | 107 => ⟨S500000x1, .i32⟩
  | 108 => ⟨S500000x64, .bf16⟩
  | 109 => ⟨S500000x64, .f32⟩
  | 110 => ⟨S_, .f32⟩
  | 111 => ⟨S500000x64, .f32⟩
  | 112 => ⟨S500000x1, .i32⟩
  | 113 => ⟨S500000x64, .f32⟩
  | 114 => ⟨S1x85x64, .f32⟩
  | 115 => ⟨S85x64, .f32⟩
  | 116 => ⟨S1x85x64, .f32⟩
  | 117 => ⟨S85x64, .f32⟩
  | 118 => ⟨S85x64, .f32⟩
  | 119 => ⟨S1x64, .f32⟩
  | 120 => ⟨S64, .f32⟩
  | 121 => ⟨S1x64, .f32⟩
  | 122 => ⟨S64, .f32⟩
  | 123 => ⟨S64, .f32⟩
  | 124 => ⟨S1x64, .f32⟩
  | 125 => ⟨S2x128, .f32⟩
  | 126 => ⟨S1x1x64, .f32⟩
  | 127 => ⟨S1x64, .f32⟩
  | _ => ⟨S50000x1, .f32⟩

abbrev hbmTy0_1 (i : Nat) : BufTy := match i % 128 with
  | 0 => ⟨S1x1x64, .f32⟩
  | 1 => ⟨S1x64, .f32⟩
  | 2 => ⟨S1x64x64, .f32⟩
  | 3 => ⟨S64x64, .f32⟩
  | 4 => ⟨S1x64x64, .f32⟩
  | 5 => ⟨S64x64, .f32⟩
  | 6 => ⟨S1x64, .f32⟩
  | 7 => ⟨S64, .f32⟩
  | 8 => ⟨S1x64, .f32⟩
  | 9 => ⟨S1x64x64, .f32⟩
  | 10 => ⟨S64x64, .f32⟩
  | 11 => ⟨S1x64x64, .f32⟩
  | 12 => ⟨S64x64, .f32⟩
  | 13 => ⟨S1x64, .f32⟩
  | 14 => ⟨S64, .f32⟩
  | 15 => ⟨S1x64, .f32⟩
  | 16 => ⟨S1x2, .f32⟩
  | 17 => ⟨S500000x2, .f32⟩
  | _ => ⟨S50000x1, .f32⟩

abbrev hbmTy (i : Nat) : BufTy := match i / 128 with
  | 0 => hbmTy0_0 i
  | 1 => hbmTy0_1 i
  | _ => ⟨S50000x1, .f32⟩

abbrev bufTy : (tb : Table) → Fin (tcTables nBuf tb) → BufTy
  | .hbm, ⟨i, _⟩ => hbmTy i
  | .local _ .vmem, ⟨0, _⟩ => ⟨S2000x85, .f32⟩
  | .local _ .vmem, ⟨1, _⟩ => ⟨S2000x85, .f32⟩
  | .local _ .vmem, ⟨2, _⟩ => ⟨S2000x1, .f32⟩
  | .local _ .vmem, ⟨3, _⟩ => ⟨S2000x1, .f32⟩
  | .local _ .vmem, ⟨4, _⟩ => ⟨S85x64, .f32⟩
  | .local _ .vmem, ⟨5, _⟩ => ⟨S1x64, .f32⟩
  | .local _ .vmem, ⟨6, _⟩ => ⟨S1x64, .f32⟩
  | .local _ .vmem, ⟨7, _⟩ => ⟨S2000x64, .bf16⟩
  | .local _ .vmem, ⟨8, _⟩ => ⟨S2000x64, .bf16⟩
  | .local _ .vmem, ⟨9, _⟩ => ⟨S2000x85, .f32⟩
  | .local _ .vmem, ⟨10, _⟩ => ⟨S2000x85, .f32⟩
  | .local _ .vmem, ⟨11, _⟩ => ⟨S2000x1, .f32⟩
  | .local _ .vmem, ⟨12, _⟩ => ⟨S2000x1, .f32⟩
  | .local _ .vmem, ⟨13, _⟩ => ⟨S85x64, .f32⟩
  | .local _ .vmem, ⟨14, _⟩ => ⟨S1x64, .f32⟩
  | .local _ .vmem, ⟨15, _⟩ => ⟨S1x64, .f32⟩
  | .local _ .vmem, ⟨16, _⟩ => ⟨S2000x64, .bf16⟩
  | .local _ .vmem, ⟨17, _⟩ => ⟨S2000x64, .bf16⟩
  | .local _ .vmem, ⟨18, _⟩ => ⟨S4000x1, .f32⟩
  | .local _ .vmem, ⟨19, _⟩ => ⟨S4000x1, .f32⟩
  | .local _ .vmem, ⟨20, _⟩ => ⟨S4000x1, .f32⟩
  | .local _ .vmem, ⟨21, _⟩ => ⟨S4000x1, .f32⟩
  | .local _ .vmem, ⟨22, _⟩ => ⟨S4000x85, .f32⟩
  | .local _ .vmem, ⟨23, _⟩ => ⟨S4000x85, .f32⟩
  | .local _ .vmem, ⟨24, _⟩ => ⟨S4000x64, .f32⟩
  | .local _ .vmem, ⟨25, _⟩ => ⟨S4000x64, .f32⟩
  | .local _ .vmem, ⟨26, _⟩ => ⟨S4000x64, .f32⟩
  | .local _ .vmem, ⟨27, _⟩ => ⟨S4000x64, .f32⟩
  | .local _ .vmem, ⟨28, _⟩ => ⟨S1x64, .f32⟩
  | .local _ .vmem, ⟨29, _⟩ => ⟨S1x64, .f32⟩
  | .local _ .vmem, ⟨30, _⟩ => ⟨S85x64, .f32⟩
  | .local _ .vmem, ⟨31, _⟩ => ⟨S1x64, .f32⟩
  | .local _ .vmem, ⟨32, _⟩ => ⟨S64x64, .f32⟩
  | .local _ .vmem, ⟨33, _⟩ => ⟨S64x64, .f32⟩
  | .local _ .vmem, ⟨34, _⟩ => ⟨S1x64, .f32⟩
  | .local _ .vmem, ⟨35, _⟩ => ⟨S64x64, .f32⟩
  | .local _ .vmem, ⟨36, _⟩ => ⟨S64x64, .f32⟩
  | .local _ .vmem, ⟨37, _⟩ => ⟨S1x64, .f32⟩
  | .local _ .vmem, ⟨38, _⟩ => ⟨S2x128, .f32⟩
  | .local _ .vmem, ⟨39, _⟩ => ⟨S1x2, .f32⟩
  | .local _ .vmem, ⟨40, _⟩ => ⟨S4000x2, .f32⟩
  | .local _ .vmem, ⟨41, _⟩ => ⟨S4000x2, .f32⟩
  | _, _ => ⟨S50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_c_1 : Ref sig .tc := ⟨.hbm, 31, rfl⟩
abbrev main_v10 : Ref sig .tc := ⟨.hbm, 32, rfl⟩
abbrev main_v11 : Ref sig .tc := ⟨.hbm, 33, rfl⟩
abbrev main_c_2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_4 : Ref sig .tc := ⟨.hbm, 44, rfl⟩
abbrev main_v20 : Ref sig .tc := ⟨.hbm, 45, rfl⟩
abbrev main_v21 : Ref sig .tc := ⟨.hbm, 46, rfl⟩
abbrev main_c_5 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_6 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_7 : Ref sig .tc := ⟨.hbm, 57, rfl⟩
abbrev main_v30 : Ref sig .tc := ⟨.hbm, 58, rfl⟩
abbrev main_v31 : Ref sig .tc := ⟨.hbm, 59, rfl⟩
abbrev main_c_8 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_9 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_10 : Ref sig .tc := ⟨.hbm, 86, rfl⟩
abbrev main_v56 : Ref sig .tc := ⟨.hbm, 87, rfl⟩
abbrev main_v57 : Ref sig .tc := ⟨.hbm, 88, rfl⟩
abbrev main_c_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_12 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_13 : Ref sig .tc := ⟨.hbm, 100, rfl⟩
abbrev main_v67 : Ref sig .tc := ⟨.hbm, 101, rfl⟩
abbrev main_v68 : Ref sig .tc := ⟨.hbm, 102, rfl⟩
abbrev main_c_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_15 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg10_0 : Ref sig .tc := ⟨.vmem, 33, rfl⟩
abbrev cc2_stg11_0 : Ref sig .tc := ⟨.vmem, 34, rfl⟩
abbrev cc2_stg12_0 : Ref sig .tc := ⟨.vmem, 35, rfl⟩
abbrev cc2_stg13_0 : Ref sig .tc := ⟨.vmem, 36, rfl⟩
abbrev cc2_stg14_0 : Ref sig .tc := ⟨.vmem, 37, rfl⟩
abbrev cc2_stg15_0 : Ref sig .tc := ⟨.vmem, 38, rfl⟩
abbrev cc2_stg16_0 : Ref sig .tc := ⟨.vmem, 39, rfl⟩
abbrev cc2_stg17_0 : Ref sig .tc := ⟨.vmem, 40, rfl⟩
abbrev cc2_stg17_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem9_0 : DmaSem sig := 32
abbrev cc2_sem10_0 : DmaSem sig := 33
abbrev cc2_sem11_0 : DmaSem sig := 34
abbrev cc2_sem12_0 : DmaSem sig := 35
abbrev cc2_sem13_0 : DmaSem sig := 36
abbrev cc2_sem14_0 : DmaSem sig := 37
abbrev cc2_sem15_0 : DmaSem sig := 38
abbrev cc2_sem16_0 : DmaSem sig := 39
abbrev cc2_sem17_0 : DmaSem sig := 40
abbrev cc2_sem17_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x85 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S85x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x85 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S85x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x85 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S85x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S64x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S64x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x64 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S2x128 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S1x2 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 2 → Memref sig .tc .vmem S4000x2 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S_S50000x85 : S_.BroadcastsInDim S50000x85 (![] : Fin 0 → Fin S50000x85.rank)
  bcast_S_S10000x85 : S_.BroadcastsInDim S10000x85 (![] : Fin 0 → Fin S10000x85.rank)
  slices_S2x85x64_S1x85x64_0_0_0 : S2x85x64.Slices ![0, 0, 0] S1x85x64
  shapeCasts_S1x85x64_S85x64 : S1x85x64.ShapeCasts S85x64
  slices_S2x1x64_S1x1x64_0_0_0 : S2x1x64.Slices ![0, 0, 0] S1x1x64
  shapeCasts_S1x1x64_S1x64 : S1x1x64.ShapeCasts S1x64
  slices_S2x64_S1x64_0_0 : S2x64.Slices ![0, 0] S1x64
  shapeCasts_S1x64_S64 : S1x64.ShapeCasts S64
  shapeCasts_S64_S1x64 : S64.ShapeCasts S1x64
  inb_S2000x85_S2000x85_0_0 : ∀ a, (![0, 0] : Fin 2 → Nat) a + S2000x85.size a ≤ S2000x85.size a
  h_S2000x85 : 0 < S2000x85.numel
  shapeCasts_S2000x85_S2000x85 : S2000x85.ShapeCasts S2000x85
  bitsLt_bf16_f32 : FTy.bits .bf16 < FTy.bits .f32
  inb_S85x64_S85x64_0_0 : ∀ a, (![0, 0] : Fin 2 → Nat) a + S85x64.size a ≤ S85x64.size a
  h_S85x64 : 0 < S85x64.numel
  shapeCasts_S85x64_S85x64 : S85x64.ShapeCasts S85x64
  inb_S2000x1_S2000x1_0_0 : ∀ a, (![0, 0] : Fin 2 → Nat) a + S2000x1.size a ≤ S2000x1.size a
  h_S2000x1 : 0 < S2000x1.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S2000x1_S2000x64 : S2000x1.Broadcasts S2000x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  slices_S2x85x64_S1x85x64_1_0_0 : S2x85x64.Slices ![1, 0, 0] S1x85x64
  slices_S2x1x64_S1x1x64_1_0_0 : S2x1x64.Slices ![1, 0, 0] S1x1x64
  slices_S2x64_S1x64_1_0 : S2x64.Slices ![1, 0] S1x64
  bcast_S_S500000x64 : S_.BroadcastsInDim S500000x64 (![] : Fin 0 → Fin S500000x64.rank)
  transposes_S128x2_S2x128_1_0 : S128x2.Transposes [1, 0] S2x128
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  slices_S4x64x64_S1x64x64_1_0_0 : S4x64x64.Slices ![1, 0, 0] S1x64x64
  slices_S4x64_S1x64_1_0 : S4x64.Slices ![1, 0] S1x64
  shapeCasts_S2_S1x2 : S2.ShapeCasts S1x2
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x85_S4000x85_0_0 : ∀ a, (![0, 0] : Fin 2 → Nat) a + S4000x85.size a ≤ S4000x85.size a
  h_S4000x85 : 0 < S4000x85.numel
  broadcasts_S4000x1_S4000x64 : S4000x1.Broadcasts S4000x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  concatenates_S4000x64_S4000x64_S4000x128_d1 : Shape.Concatenates [S4000x64, S4000x64] S4000x128 1
  inb_S2x128_S2x128_0_0 : ∀ a, (![0, 0] : Fin 2 → Nat) a + S2x128.size a ≤ S2x128.size a
  h_S2x128 : 0 < S2x128.numel
  shapeCasts_S2x128_S2x128 : S2x128.ShapeCasts S2x128
  slices_S2x128_o0_0_S1x128 : S2x128.Slices ![0, 0] S1x128
  slices_S2x128_o1_0_S1x128 : S2x128.Slices ![1, 0] S1x128
  broadcasts_S1x128_S4000x128 : S1x128.Broadcasts S4000x128
  reduces_S4000x128_S4000 : S4000x128.Reduces [1] S4000
  shapeCasts_S4000_S4000x1 : S4000.ShapeCasts S4000x1
  concatenates_S4000x1_S4000x1_S4000x2_d1 : Shape.Concatenates [S4000x1, S4000x1] S4000x2 1
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  inb_S4000x2_S4000x2_0_0 : ∀ a, (![0, 0] : Fin 2 → Nat) a + S4000x2.size a ≤ S4000x2.size a
  h_S4000x2 : 0 < S4000x2.numel
  gather_S50000x1_S500000x1_S500000x1_1_0_n_n_0_1_11_wf : GatherDims.WF S50000x1 S500000x1 S500000x1 [1] [0] [] [0] [] 1 ![1, 1]
  scatter_S500000x1_S500000x1_S500000x1_1_0_0_1_wf : ScatterDims.WF S500000x1 S500000x1 S500000x1 [1] [0] [0] 1
  gather_S10000x1_S500000x1_S500000x1_1_0_n_n_0_1_11_wf : GatherDims.WF S10000x1 S500000x1 S500000x1 [1] [0] [] [0] [] 1 ![1, 1]
  gather_S500000x85_S500000x1_S500000x85_1_0_n_n_0_1_185_wf : GatherDims.WF S500000x85 S500000x1 S500000x85 [1] [0] [] [0] [] 1 ![1, 85]
  scatter_S50000x85_S500000x1_S500000x85_1_0_0_1_wf : ScatterDims.WF S50000x85 S500000x1 S500000x85 [1] [0] [0] 1
  scatter_S10000x85_S500000x1_S500000x85_1_0_0_1_wf : ScatterDims.WF S10000x85 S500000x1 S500000x85 [1] [0] [0] 1
  dot_S2000x85_S85x64_S2000x64_1_0_0_1_n_n_wf : DotDims.WF S2000x85 S85x64 S2000x64 [1] [0] [0] [1] [] []
  gather_S50000x64_S500000x1_S500000x64_1_0_n_n_0_1_164_wf : GatherDims.WF S50000x64 S500000x1 S500000x64 [1] [0] [] [0] [] 1 ![1, 64]
  scatter_S500000x64_S500000x1_S500000x64_1_0_0_1_wf : ScatterDims.WF S500000x64 S500000x1 S500000x64 [1] [0] [0] 1
  gather_S10000x64_S500000x1_S500000x64_1_0_n_n_0_1_164_wf : GatherDims.WF S10000x64 S500000x1 S500000x64 [1] [0] [] [0] [] 1 ![1, 64]
  dot_S4000x85_S85x64_S4000x64_1_0_0_1_n_n_wf : DotDims.WF S4000x85 S85x64 S4000x64 [1] [0] [0] [1] [] []
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x85.size a ≤ S50000x85.size a
  hwx0_0 : ∀ i : grid0.Coords, EltTy.bits .f32 = 32 ∨ (Rect.block (s := S50000x85) S2000x85.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S85x64.size a ≤ S85x64.size a
  hwx0_2 : ∀ i : grid0.Coords, EltTy.bits .f32 = 32 ∨ (Rect.block (s := S85x64) S85x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S50000x64.size a
  hwx0_5 : ∀ i : grid0.Coords, EltTy.bits .bf16 = 32 ∨ (Rect.block (s := S50000x64) S2000x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x85.size a ≤ S10000x85.size a
  hwx1_0 : ∀ i : grid1.Coords, EltTy.bits .f32 = 32 ∨ (Rect.block (s := S10000x85) S2000x85.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S10000x1.size a
  hwx1_1 : ∀ i : grid1.Coords, EltTy.bits .f32 = 32 ∨ (Rect.block (s := S10000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S85x64.size a ≤ S85x64.size a
  hwx1_2 : ∀ i : grid1.Coords, EltTy.bits .f32 = 32 ∨ (Rect.block (s := S85x64) S85x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S10000x64.size a
  hwx1_5 : ∀ i : grid1.Coords, EltTy.bits .bf16 = 32 ∨ (Rect.block (s := S10000x64) S2000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x1.size a ≤ S500000x1.size a
  hwx2_0 : ∀ i : grid2.Coords, EltTy.bits .f32 = 32 ∨ (Rect.block (s := S500000x1) S4000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S500000x1.size a
  hwx2_1 : ∀ i : grid2.Coords, EltTy.bits .f32 = 32 ∨ (Rect.block (s := S500000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x85.size a ≤ S500000x85.size a
  hwx2_2 : ∀ i : grid2.Coords, EltTy.bits .f32 = 32 ∨ (Rect.block (s := S500000x85) S4000x85.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S500000x64.size a
  hwx2_3 : ∀ i : grid2.Coords, EltTy.bits .f32 = 32 ∨ (Rect.block (s := S500000x64) S4000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S500000x64.size a
  hwx2_4 : ∀ i : grid2.Coords, EltTy.bits .f32 = 32 ∨ (Rect.block (s := S500000x64) S4000x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S85x64.size a ≤ S85x64.size a
  hwx2_7 : ∀ i : grid2.Coords, EltTy.bits .f32 = 32 ∨ (Rect.block (s := S85x64) S85x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x64.size a ≤ S64x64.size a
  hwx2_9 : ∀ i : grid2.Coords, EltTy.bits .f32 = 32 ∨ (Rect.block (s := S64x64) S64x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S64x64.size a ≤ S64x64.size a
  hwx2_10 : ∀ i : grid2.Coords, EltTy.bits .f32 = 32 ∨ (Rect.block (s := S64x64) S64x64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x64.size a ≤ S1x64.size a
  hwx2_11 : ∀ i : grid2.Coords, EltTy.bits .f32 = 32 ∨ (Rect.block (s := S1x64) S1x64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S64x64.size a ≤ S64x64.size a
  hwx2_12 : ∀ i : grid2.Coords, EltTy.bits .f32 = 32 ∨ (Rect.block (s := S64x64) S64x64.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S64x64.size a ≤ S64x64.size a
  hwx2_13 : ∀ i : grid2.Coords, EltTy.bits .f32 = 32 ∨ (Rect.block (s := S64x64) S64x64.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x64.size a ≤ S1x64.size a
  hwx2_14 : ∀ i : grid2.Coords, EltTy.bits .f32 = 32 ∨ (Rect.block (s := S1x64) S1x64.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S2x128.size a ≤ S2x128.size a
  hwx2_15 : ∀ i : grid2.Coords, EltTy.bits .f32 = 32 ∨ (Rect.block (s := S2x128) S2x128.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S1x2.size a ≤ S1x2.size a
  hwx2_16 : ∀ i : grid2.Coords, EltTy.bits .f32 = 32 ∨ (Rect.block (s := S1x2) S1x2.size (cc2_transform_16 i) (hinb2_16 i)).WholeWords (EltTy.packing .f32)
  hstage2_17 : ∀ j, (stage2_17 j).IsWhole
  nbuf2_17 : grid2.bufCount reads2_17 false = 2
  hreads2_17 : ∀ i i' : grid2.Coords, (∀ a, reads2_17 a = true → i a = i' a) → cc2_transform_17 i = cc2_transform_17 i'
  hinb2_17 : ∀ (i : grid2.Coords) a, (cc2_transform_17 i a + 1) * S4000x2.size a ≤ S500000x2.size a
  hwx2_17 : ∀ i : grid2.Coords, EltTy.bits .f32 = 32 ∨ (Rect.block (s := S500000x2) S4000x2.size (cc2_transform_17 i) (hinb2_17 i)).WholeWords (EltTy.packing .f32)

variable [Facts₀]

def gather_S50000x1_S500000x1_S500000x1_1_0_n_n_0_1_11 : GatherDims S50000x1 S500000x1 S500000x1 where
  offsetDims := [1]
  collapsedSliceDims := [0]
  operandBatchingDims := []
  startIndicesBatchingDims := []
  startIndexMap := [0]
  indexVectorDim := 1
  sliceSizes := ![1, 1]
  wf := gather_S50000x1_S500000x1_S500000x1_1_0_n_n_0_1_11_wf
def scatter_S500000x1_S500000x1_S500000x1_1_0_0_1 : ScatterDims S500000x1 S500000x1 S500000x1 where
  updateWindowDims := [1]
  insertedWindowDims := [0]
  scatterDimsToOperandDims := [0]
  indexVectorDim := 1
  wf := scatter_S500000x1_S500000x1_S500000x1_1_0_0_1_wf
def gather_S10000x1_S500000x1_S500000x1_1_0_n_n_0_1_11 : GatherDims S10000x1 S500000x1 S500000x1 where
  offsetDims := [1]
  collapsedSliceDims := [0]
  operandBatchingDims := []
  startIndicesBatchingDims := []
  startIndexMap := [0]
  indexVectorDim := 1
  sliceSizes := ![1, 1]
  wf := gather_S10000x1_S500000x1_S500000x1_1_0_n_n_0_1_11_wf
def gather_S500000x85_S500000x1_S500000x85_1_0_n_n_0_1_185 : GatherDims S500000x85 S500000x1 S500000x85 where
  offsetDims := [1]
  collapsedSliceDims := [0]
  operandBatchingDims := []
  startIndicesBatchingDims := []
  startIndexMap := [0]
  indexVectorDim := 1
  sliceSizes := ![1, 85]
  wf := gather_S500000x85_S500000x1_S500000x85_1_0_n_n_0_1_185_wf
def scatter_S50000x85_S500000x1_S500000x85_1_0_0_1 : ScatterDims S50000x85 S500000x1 S500000x85 where
  updateWindowDims := [1]
  insertedWindowDims := [0]
  scatterDimsToOperandDims := [0]
  indexVectorDim := 1
  wf := scatter_S50000x85_S500000x1_S500000x85_1_0_0_1_wf
def scatter_S10000x85_S500000x1_S500000x85_1_0_0_1 : ScatterDims S10000x85 S500000x1 S500000x85 where
  updateWindowDims := [1]
  insertedWindowDims := [0]
  scatterDimsToOperandDims := [0]
  indexVectorDim := 1
  wf := scatter_S10000x85_S500000x1_S500000x85_1_0_0_1_wf
def dot_S2000x85_S85x64_S2000x64_1_0_0_1_n_n : DotDims S2000x85 S85x64 S2000x64 where
  lhsContracting := [1]
  rhsContracting := [0]
  lhsNonContracting := [0]
  rhsNonContracting := [1]
  lhsBatch := []
  rhsBatch := []
  wf := dot_S2000x85_S85x64_S2000x64_1_0_0_1_n_n_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def scatter_S500000x64_S500000x1_S500000x64_1_0_0_1 : ScatterDims S500000x64 S500000x1 S500000x64 where
  updateWindowDims := [1]
  insertedWindowDims := [0]
  scatterDimsToOperandDims := [0]
  indexVectorDim := 1
  wf := scatter_S500000x64_S500000x1_S500000x64_1_0_0_1_wf
def gather_S10000x64_S500000x1_S500000x64_1_0_n_n_0_1_164 : GatherDims S10000x64 S500000x1 S500000x64 where
  offsetDims := [1]
  collapsedSliceDims := [0]
  operandBatchingDims := []
  startIndicesBatchingDims := []
  startIndexMap := [0]
  indexVectorDim := 1
  sliceSizes := ![1, 64]
  wf := gather_S10000x64_S500000x1_S500000x64_1_0_n_n_0_1_164_wf
def dot_S4000x85_S85x64_S4000x64_1_0_0_1_n_n : DotDims S4000x85 S85x64 S4000x64 where
  lhsContracting := [1]
  rhsContracting := [0]
  lhsNonContracting := [0]
  rhsNonContracting := [1]
  lhsBatch := []
  rhsBatch := []
  wf := dot_S4000x85_S85x64_S4000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_v29) S2000x85.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S85x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v46) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v47) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S2000x85.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S85x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v9) S4000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S4000x85.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v66) S4000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v77) S4000x64.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v91) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v93) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v82) S85x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v88) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v95) S64x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v97) S64x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v100) S1x64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v102) S64x64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v104) S64x64.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v107) S1x64.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v89) S2x128.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v108) S1x2.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_v109) S4000x2.size cc2_transform_17 reads2_17 true false 2 stage2_17 sem2_17
    hrank2 hreads2_17 hinb2_17 nbuf2_17 (Memref.isWhole_whole _) hwx2_17 hstage2_17

abbrev win2 : Fin 18 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | ⟨_ + 18, h⟩ => absurd h (Nat.not_lt.2 (Nat.le_add_left _ _))
abbrev spec2 : Fin 18 → Pipeline.WinSpec sig grid2.rank := fun w => (win2 w).toWinSpec

class Facts : Prop extends Facts₀ where

variable [Facts]
-- ==== ReferenceIdeal.lean ====
abbrev S50000x1 : Shape := ⟨2, ![50000, 1]⟩
abbrev S10000x1 : Shape := ⟨2, ![10000, 1]⟩
abbrev S500000x85 : Shape := ⟨2, ![500000, 85]⟩
abbrev S2x1x64 : Shape := ⟨3, ![2, 1, 64]⟩
abbrev S2x85x64 : Shape := ⟨3, ![2, 85, 64]⟩
abbrev S2x64 : Shape := ⟨2, ![2, 64]⟩
abbrev S4x64x64 : Shape := ⟨3, ![4, 64, 64]⟩
abbrev S4x64 : Shape := ⟨2, ![4, 64]⟩
abbrev S128x2 : Shape := ⟨2, ![128, 2]⟩
abbrev S2 : Shape := ⟨1, ![2]⟩
abbrev S500000 : Shape := ⟨1, ![500000]⟩
abbrev S1x1x64 : Shape := ⟨3, ![1, 1, 64]⟩
abbrev S1x64 : Shape := ⟨2, ![1, 64]⟩
abbrev S1x85x64 : Shape := ⟨3, ![1, 85, 64]⟩
abbrev S85x64 : Shape := ⟨2, ![85, 64]⟩
abbrev S64 : Shape := ⟨1, ![64]⟩
abbrev S_ : Shape := ⟨0, ![]⟩
abbrev S500000x1 : Shape := ⟨2, ![500000, 1]⟩
abbrev S500000x64 : Shape := ⟨2, ![500000, 64]⟩
abbrev S50000x85 : Shape := ⟨2, ![50000, 85]⟩
abbrev S50000x64 : Shape := ⟨2, ![50000, 64]⟩
abbrev S10000x85 : Shape := ⟨2, ![10000, 85]⟩
abbrev S10000x64 : Shape := ⟨2, ![10000, 64]⟩
abbrev S1x64x64 : Shape := ⟨3, ![1, 64, 64]⟩
abbrev S64x64 : Shape := ⟨2, ![64, 64]⟩
abbrev S500000x1x64 : Shape := ⟨3, ![500000, 1, 64]⟩
abbrev S500000x2x64 : Shape := ⟨3, ![500000, 2, 64]⟩
abbrev S500000x128 : Shape := ⟨2, ![500000, 128]⟩
abbrev S500000x2 : Shape := ⟨2, ![500000, 2]⟩
abbrev S1x2 : Shape := ⟨2, ![1, 2]⟩

abbrev nBuf : Space → Nat
  | .hbm => 189
  | .vmem => 0
  | .smem => 0
  | _ => 0

abbrev hbmTy0_0 (i : Nat) : BufTy := match i % 128 with
  | 0 => ⟨S50000x1, .f32⟩
  | 1 => ⟨S10000x1, .f32⟩
  | 2 => ⟨S500000x85, .f32⟩
  | 3 => ⟨S2x1x64, .f32⟩
  | 4 => ⟨S2x85x64, .f32⟩
  | 5 => ⟨S2x64, .f32⟩
  | 6 => ⟨S2x85x64, .f32⟩
  | 7 => ⟨S2x1x64, .f32⟩
  | 8 => ⟨S2x64, .f32⟩
  | 9 => ⟨S4x64x64, .f32⟩
  | 10 => ⟨S4x64x64, .f32⟩
  | 11 => ⟨S4x64, .f32⟩
  | 12 => ⟨S128x2, .f32⟩
  | 13 => ⟨S2, .f32⟩
  | 14 => ⟨S500000, .i32⟩
  | 15 => ⟨S500000, .i32⟩
  | 16 => ⟨S500000, .i32⟩
  | 17 => ⟨S500000, .i32⟩
  | 18 => ⟨S1x1x64, .f32⟩
  | 19 => ⟨S1x64, .f32⟩
  | 20 => ⟨S1x85x64, .f32⟩
  | 21 => ⟨S85x64, .f32⟩
  | 22 => ⟨S1x64, .f32⟩
  | 23 => ⟨S64, .f32⟩
  | 24 => ⟨S_, .i32⟩
  | 25 => ⟨S500000, .i32⟩
  | 26 => ⟨S500000, .i1⟩
  | 27 => ⟨S_, .i32⟩
  | 28 => ⟨S500000, .i32⟩
  | 29 => ⟨S500000, .i32⟩
  | 30 => ⟨S500000, .i32⟩
  | 31 => ⟨S500000x1, .i32⟩
  | 32 => ⟨S500000x1, .f32⟩
  | 33 => ⟨S_, .f32⟩
  | 34 => ⟨S500000x1, .f32⟩
  | 35 => ⟨S500000x1, .i32⟩
  | 36 => ⟨S500000x1, .f32⟩
  | 37 => ⟨S500000x64, .f32⟩
  | 38 => ⟨S500000x64, .f32⟩
  | 39 => ⟨S500000x64, .f32⟩
  | 40 => ⟨S1x64, .f32⟩
  | 41 => ⟨S500000x64, .f32⟩
  | 42 => ⟨S500000x64, .f32⟩
  | 43 => ⟨S1x1x64, .f32⟩
  | 44 => ⟨S1x64, .f32⟩
  | 45 => ⟨S1x85x64, .f32⟩
  | 46 => ⟨S85x64, .f32⟩
  | 47 => ⟨S1x64, .f32⟩
  | 48 => ⟨S64, .f32⟩
  | 49 => ⟨S_, .i32⟩
  | 50 => ⟨S500000, .i32⟩
  | 51 => ⟨S500000, .i1⟩
  | 52 => ⟨S_, .i32⟩
  | 53 => ⟨S500000, .i32⟩
  | 54 => ⟨S500000, .i32⟩
  | 55 => ⟨S500000, .i32⟩
  | 56 => ⟨S500000x1, .i32⟩
  | 57 => ⟨S500000x1, .f32⟩
  | 58 => ⟨S_, .f32⟩
  | 59 => ⟨S500000x1, .f32⟩
  | 60 => ⟨S500000x1, .i32⟩
  | 61 => ⟨S500000x1, .f32⟩
  | 62 => ⟨S500000x64, .f32⟩
  | 63 => ⟨S500000x64, .f32⟩
  | 64 => ⟨S500000x64, .f32⟩
  | 65 => ⟨S1x64, .f32⟩
  | 66 => ⟨S500000x64, .f32⟩
  | 67 => ⟨S500000x64, .f32⟩
  | 68 => ⟨S500000x64, .f32⟩
  | 69 => ⟨S1x85x64, .f32⟩
  | 70 => ⟨S85x64, .f32⟩
  | 71 => ⟨S1x1x64, .f32⟩
  | 72 => ⟨S1x64, .f32⟩
  | 73 => ⟨S1x64, .f32⟩
  | 74 => ⟨S64, .f32⟩
  | 75 => ⟨S_, .i32⟩
  | 76 => ⟨S500000, .i32⟩
  | 77 => ⟨S500000, .i1⟩
  | 78 => ⟨S_, .i32⟩
  | 79 => ⟨S500000, .i32⟩
  | 80 => ⟨S500000, .i32⟩
  | 81 => ⟨S500000, .i32⟩
  | 82 => ⟨S500000x1, .i32⟩
  | 83 => ⟨S500000x85, .f32⟩
  | 84 => ⟨S_, .f32⟩
  | 85 => ⟨S50000x85, .f32⟩
  | 86 => ⟨S500000x1, .i32⟩
  | 87 => ⟨S50000x85, .f32⟩
  | 88 => ⟨S50000x64, .f32⟩
  | 89 => ⟨S50000x64, .f32⟩
  | 90 => ⟨S50000x64, .f32⟩
  | 91 => ⟨S1x64, .f32⟩
  | 92 => ⟨S50000x64, .f32⟩
  | 93 => ⟨S50000x64, .f32⟩
  | 94 => ⟨S1x85x64, .f32⟩
  | 95 => ⟨S85x64, .f32⟩
  | 96 => ⟨S1x1x64, .f32⟩
  | 97 => ⟨S1x64, .f32⟩
  | 98 => ⟨S1x64, .f32⟩
  | 99 => ⟨S64, .f32⟩
  | 100 => ⟨S_, .i32⟩
  | 101 => ⟨S500000, .i32⟩
  | 102 => ⟨S500000, .i1⟩
  | 103 => ⟨S_, .i32⟩
  | 104 => ⟨S500000, .i32⟩
  | 105 => ⟨S500000, .i32⟩
  | 106 => ⟨S500000, .i32⟩
  | 107 => ⟨S500000x1, .i32⟩
  | 108 => ⟨S500000x85, .f32⟩
  | 109 => ⟨S_, .f32⟩
  | 110 => ⟨S10000x85, .f32⟩
  | 111 => ⟨S500000x1, .i32⟩
  | 112 => ⟨S10000x85, .f32⟩
  | 113 => ⟨S10000x64, .f32⟩
  | 114 => ⟨S10000x64, .f32⟩
  | 115 => ⟨S10000x64, .f32⟩
  | 116 => ⟨S1x64, .f32⟩
  | 117 => ⟨S10000x64, .f32⟩
  | 118 => ⟨S10000x64, .f32⟩
  | 119 => ⟨S_, .f32⟩
  | 120 => ⟨S500000x64, .f32⟩
  | 121 => ⟨S500000x64, .f32⟩
  | 122 => ⟨S_, .f32⟩
  | 123 => ⟨S50000x64, .f32⟩
  | 124 => ⟨S50000x64, .f32⟩
  | 125 => ⟨S_, .f32⟩
  | 126 => ⟨S10000x64, .f32⟩
  | 127 => ⟨S10000x64, .f32⟩
  | _ => ⟨S50000x1, .f32⟩

abbrev hbmTy0_1 (i : Nat) : BufTy := match i % 128 with
  | 0 => ⟨S1x64x64, .f32⟩
  | 1 => ⟨S64x64, .f32⟩
  | 2 => ⟨S1x64x64, .f32⟩
  | 3 => ⟨S64x64, .f32⟩
  | 4 => ⟨S1x64, .f32⟩
  | 5 => ⟨S64, .f32⟩
  | 6 => ⟨S_, .i32⟩
  | 7 => ⟨S500000, .i32⟩
  | 8 => ⟨S500000, .i1⟩
  | 9 => ⟨S_, .i32⟩
  | 10 => ⟨S500000, .i32⟩
  | 11 => ⟨S500000, .i32⟩
  | 12 => ⟨S500000, .i32⟩
  | 13 => ⟨S500000x1, .i32⟩
  | 14 => ⟨S500000x64, .f32⟩
  | 15 => ⟨S_, .f32⟩
  | 16 => ⟨S500000x64, .f32⟩
  | 17 => ⟨S500000x1, .i32⟩
  | 18 => ⟨S500000x64, .f32⟩
  | 19 => ⟨S500000x64, .f32⟩
  | 20 => ⟨S500000x64, .f32⟩
  | 21 => ⟨S500000x64, .f32⟩
  | 22 => ⟨S1x64, .f32⟩
  | 23 => ⟨S500000x64, .f32⟩
  | 24 => ⟨S500000x64, .f32⟩
  | 25 => ⟨S1x64x64, .f32⟩
  | 26 => ⟨S64x64, .f32⟩
  | 27 => ⟨S1x64x64, .f32⟩
  | 28 => ⟨S64x64, .f32⟩
  | 29 => ⟨S1x64, .f32⟩
  | 30 => ⟨S64, .f32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000x64, .f32⟩
  | 40 => ⟨S_, .f32⟩
  | 41 => ⟨S500000x64, .f32⟩
  | 42 => ⟨S500000x1, .i32⟩
  | 43 => ⟨S500000x64, .f32⟩
  | 44 => ⟨S500000x64, .f32⟩
  | 45 => ⟨S500000x64, .f32⟩
  | 46 => ⟨S500000x64, .f32⟩
  | 47 => ⟨S1x64, .f32⟩
  | 48 => ⟨S500000x64, .f32⟩
  | 49 => ⟨S500000x64, .f32⟩
  | 50 => ⟨S500000x1x64, .f32⟩
  | 51 => ⟨S500000x1x64, .f32⟩
  | 52 => ⟨S500000x2x64, .f32⟩
  | 53 => ⟨S_, .f32⟩
  | 54 => ⟨S500000x2x64, .f32⟩
  | 55 => ⟨S500000x2x64, .f32⟩
  | 56 => ⟨S500000x128, .f32⟩
  | 57 => ⟨S500000x2, .f32⟩
  | 58 => ⟨S1x2, .f32⟩
  | 59 => ⟨S500000x2, .f32⟩
  | 60 => ⟨S500000x2, .f32⟩
  | _ => ⟨S50000x1, .f32⟩

abbrev hbmTy (i : Nat) : BufTy := match i / 128 with
  | 0 => hbmTy0_0 i
  | 1 => hbmTy0_1 i
  | _ => ⟨S50000x1, .f32⟩

abbrev bufTy : (tb : Table) → Fin (tcTables nBuf tb) → BufTy
  | .hbm, ⟨i, _⟩ => hbmTy i
  | _, _ => ⟨S50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c : Ref sig .tc := ⟨.hbm, 24, rfl⟩
abbrev main_v6 : Ref sig .tc := ⟨.hbm, 25, rfl⟩
abbrev main_v7 : Ref sig .tc := ⟨.hbm, 26, rfl⟩
abbrev main_c_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_1 : Ref sig .tc := ⟨.hbm, 49, rfl⟩
abbrev main_v28 : Ref sig .tc := ⟨.hbm, 50, rfl⟩
abbrev main_v29 : Ref sig .tc := ⟨.hbm, 51, rfl⟩
abbrev main_c_2 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_3 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_4 : Ref sig .tc := ⟨.hbm, 75, rfl⟩
abbrev main_v51 : Ref sig .tc := ⟨.hbm, 76, rfl⟩
abbrev main_v52 : Ref sig .tc := ⟨.hbm, 77, rfl⟩
abbrev main_c_5 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_6 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_7 : Ref sig .tc := ⟨.hbm, 100, rfl⟩
abbrev main_v73 : Ref sig .tc := ⟨.hbm, 101, rfl⟩
abbrev main_v74 : Ref sig .tc := ⟨.hbm, 102, rfl⟩
abbrev main_c_8 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_9 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_call0_cst : Ref sig .tc := ⟨.hbm, 119, rfl⟩
abbrev main_call0_v0 : Ref sig .tc := ⟨.hbm, 120, rfl⟩
abbrev main_v89 : Ref sig .tc := ⟨.hbm, 121, rfl⟩
abbrev main_call1_cst : Ref sig .tc := ⟨.hbm, 122, rfl⟩
abbrev main_call1_v0 : Ref sig .tc := ⟨.hbm, 123, rfl⟩
abbrev main_v90 : Ref sig .tc := ⟨.hbm, 124, rfl⟩
abbrev main_call2_cst : Ref sig .tc := ⟨.hbm, 125, rfl⟩
abbrev main_call2_v0 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_10 : Ref sig .tc := ⟨.hbm, 134, rfl⟩
abbrev main_v98 : Ref sig .tc := ⟨.hbm, 135, rfl⟩
abbrev main_v99 : Ref sig .tc := ⟨.hbm, 136, rfl⟩
abbrev main_c_11 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_12 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_c_13 : Ref sig .tc := ⟨.hbm, 159, rfl⟩
abbrev main_v120 : Ref sig .tc := ⟨.hbm, 160, rfl⟩
abbrev main_v121 : Ref sig .tc := ⟨.hbm, 161, rfl⟩
abbrev main_c_14 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_15 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_call3_cst : Ref sig .tc := ⟨.hbm, 181, rfl⟩
abbrev main_call3_v0 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩

abbrev nD : Nat := 1
abbrev τ : Topo := Topo.v7x

variable {F : FTy → Type} [FloatOps F]

class Facts₀ : Prop where
  slices_S2x1x64_S1x1x64_0_0_0 : S2x1x64.Slices ![0, 0, 0] S1x1x64
  shapeCasts_S1x1x64_S1x64 : S1x1x64.ShapeCasts S1x64
  slices_S2x85x64_S1x85x64_0_0_0 : S2x85x64.Slices ![0, 0, 0] S1x85x64
  shapeCasts_S1x85x64_S85x64 : S1x85x64.ShapeCasts S85x64
  slices_S2x64_S1x64_0_0 : S2x64.Slices ![0, 0] S1x64
  shapeCasts_S1x64_S64 : S1x64.ShapeCasts S64
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  slices_S2x1x64_S1x1x64_1_0_0 : S2x1x64.Slices ![1, 0, 0] S1x1x64
  slices_S2x85x64_S1x85x64_1_0_0 : S2x85x64.Slices ![1, 0, 0] S1x85x64
  slices_S2x64_S1x64_1_0 : S2x64.Slices ![1, 0] S1x64
  bcast_S_S50000x85 : S_.BroadcastsInDim S50000x85 (![] : Fin 0 → Fin S50000x85.rank)
  bcast_S1x64_S50000x64_0_1 : S1x64.BroadcastsInDim S50000x64 (![0, 1] : Fin 2 → Fin S50000x64.rank)
  bcast_S_S10000x85 : S_.BroadcastsInDim S10000x85 (![] : Fin 0 → Fin S10000x85.rank)
  bcast_S1x64_S10000x64_0_1 : S1x64.BroadcastsInDim S10000x64 (![0, 1] : Fin 2 → Fin S10000x64.rank)
  bcast_S_S500000x64 : S_.BroadcastsInDim S500000x64 (![] : Fin 0 → Fin S500000x64.rank)
  bcast_S_S50000x64 : S_.BroadcastsInDim S50000x64 (![] : Fin 0 → Fin S50000x64.rank)
  bcast_S_S10000x64 : S_.BroadcastsInDim S10000x64 (![] : Fin 0 → Fin S10000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  slices_S4x64x64_S1x64x64_1_0_0 : S4x64x64.Slices ![1, 0, 0] S1x64x64
  slices_S4x64_S1x64_1_0 : S4x64.Slices ![1, 0] S1x64
  bcast_S500000x64_S500000x1x64_0_2 : S500000x64.BroadcastsInDim S500000x1x64 (![0, 2] : Fin 2 → Fin S500000x1x64.rank)
  concatenates_S500000x1x64_S500000x1x64_S500000x2x64_d1 : Shape.Concatenates [S500000x1x64, S500000x1x64] S500000x2x64 1
  bcast_S_S500000x2x64 : S_.BroadcastsInDim S500000x2x64 (![] : Fin 0 → Fin S500000x2x64.rank)
  shapeCasts_S500000x2x64_S500000x128 : S500000x2x64.ShapeCasts S500000x128
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  gather_S50000x1_S500000x1_S500000x1_1_0_n_n_0_1_11_wf : GatherDims.WF S50000x1 S500000x1 S500000x1 [1] [0] [] [0] [] 1 ![1, 1]
  scatter_S500000x1_S500000x1_S500000x1_1_0_0_1_wf : ScatterDims.WF S500000x1 S500000x1 S500000x1 [1] [0] [0] 1
  dot_S500000x1_S1x64_S500000x64_1_0_0_1_n_n_wf : DotDims.WF S500000x1 S1x64 S500000x64 [1] [0] [0] [1] [] []
  dot_S500000x85_S85x64_S500000x64_1_0_0_1_n_n_wf : DotDims.WF S500000x85 S85x64 S500000x64 [1] [0] [0] [1] [] []
  gather_S10000x1_S500000x1_S500000x1_1_0_n_n_0_1_11_wf : GatherDims.WF S10000x1 S500000x1 S500000x1 [1] [0] [] [0] [] 1 ![1, 1]
  gather_S500000x85_S500000x1_S500000x85_1_0_n_n_0_1_185_wf : GatherDims.WF S500000x85 S500000x1 S500000x85 [1] [0] [] [0] [] 1 ![1, 85]
  scatter_S50000x85_S500000x1_S500000x85_1_0_0_1_wf : ScatterDims.WF S50000x85 S500000x1 S500000x85 [1] [0] [0] 1
  dot_S50000x85_S85x64_S50000x64_1_0_0_1_n_n_wf : DotDims.WF S50000x85 S85x64 S50000x64 [1] [0] [0] [1] [] []
  dot_S50000x1_S1x64_S50000x64_1_0_0_1_n_n_wf : DotDims.WF S50000x1 S1x64 S50000x64 [1] [0] [0] [1] [] []
  scatter_S10000x85_S500000x1_S500000x85_1_0_0_1_wf : ScatterDims.WF S10000x85 S500000x1 S500000x85 [1] [0] [0] 1
  dot_S10000x85_S85x64_S10000x64_1_0_0_1_n_n_wf : DotDims.WF S10000x85 S85x64 S10000x64 [1] [0] [0] [1] [] []
  dot_S10000x1_S1x64_S10000x64_1_0_0_1_n_n_wf : DotDims.WF S10000x1 S1x64 S10000x64 [1] [0] [0] [1] [] []
  gather_S50000x64_S500000x1_S500000x64_1_0_n_n_0_1_164_wf : GatherDims.WF S50000x64 S500000x1 S500000x64 [1] [0] [] [0] [] 1 ![1, 64]
  scatter_S500000x64_S500000x1_S500000x64_1_0_0_1_wf : ScatterDims.WF S500000x64 S500000x1 S500000x64 [1] [0] [0] 1
  dot_S500000x64_S64x64_S500000x64_1_0_0_1_n_n_wf : DotDims.WF S500000x64 S64x64 S500000x64 [1] [0] [0] [1] [] []
  gather_S10000x64_S500000x1_S500000x64_1_0_n_n_0_1_164_wf : GatherDims.WF S10000x64 S500000x1 S500000x64 [1] [0] [] [0] [] 1 ![1, 64]
  dot_S500000x128_S128x2_S500000x2_1_0_0_1_n_n_wf : DotDims.WF S500000x128 S128x2 S500000x2 [1] [0] [0] [1] [] []

variable [Facts₀]

def gather_S50000x1_S500000x1_S500000x1_1_0_n_n_0_1_11 : GatherDims S50000x1 S500000x1 S500000x1 where
  offsetDims := [1]
  collapsedSliceDims := [0]
  operandBatchingDims := []
  startIndicesBatchingDims := []
  startIndexMap := [0]
  indexVectorDim := 1
  sliceSizes := ![1, 1]
  wf := gather_S50000x1_S500000x1_S500000x1_1_0_n_n_0_1_11_wf
def scatter_S500000x1_S500000x1_S500000x1_1_0_0_1 : ScatterDims S500000x1 S500000x1 S500000x1 where
  updateWindowDims := [1]
  insertedWindowDims := [0]
  scatterDimsToOperandDims := [0]
  indexVectorDim := 1
  wf := scatter_S500000x1_S500000x1_S500000x1_1_0_0_1_wf
def dot_S500000x1_S1x64_S500000x64_1_0_0_1_n_n : DotDims S500000x1 S1x64 S500000x64 where
  lhsContracting := [1]
  rhsContracting := [0]
  lhsNonContracting := [0]
  rhsNonContracting := [1]
  lhsBatch := []
  rhsBatch := []
  wf := dot_S500000x1_S1x64_S500000x64_1_0_0_1_n_n_wf
def dot_S500000x85_S85x64_S500000x64_1_0_0_1_n_n : DotDims S500000x85 S85x64 S500000x64 where
  lhsContracting := [1]
  rhsContracting := [0]
  lhsNonContracting := [0]
  rhsNonContracting := [1]
  lhsBatch := []
  rhsBatch := []
  wf := dot_S500000x85_S85x64_S500000x64_1_0_0_1_n_n_wf
def gather_S10000x1_S500000x1_S500000x1_1_0_n_n_0_1_11 : GatherDims S10000x1 S500000x1 S500000x1 where
  offsetDims := [1]
  collapsedSliceDims := [0]
  operandBatchingDims := []
  startIndicesBatchingDims := []
  startIndexMap := [0]
  indexVectorDim := 1
  sliceSizes := ![1, 1]
  wf := gather_S10000x1_S500000x1_S500000x1_1_0_n_n_0_1_11_wf
def gather_S500000x85_S500000x1_S500000x85_1_0_n_n_0_1_185 : GatherDims S500000x85 S500000x1 S500000x85 where
  offsetDims := [1]
  collapsedSliceDims := [0]
  operandBatchingDims := []
  startIndicesBatchingDims := []
  startIndexMap := [0]
  indexVectorDim := 1
  sliceSizes := ![1, 85]
  wf := gather_S500000x85_S500000x1_S500000x85_1_0_n_n_0_1_185_wf
def scatter_S50000x85_S500000x1_S500000x85_1_0_0_1 : ScatterDims S50000x85 S500000x1 S500000x85 where
  updateWindowDims := [1]
  insertedWindowDims := [0]
  scatterDimsToOperandDims := [0]
  indexVectorDim := 1
  wf := scatter_S50000x85_S500000x1_S500000x85_1_0_0_1_wf
def dot_S50000x85_S85x64_S50000x64_1_0_0_1_n_n : DotDims S50000x85 S85x64 S50000x64 where
  lhsContracting := [1]
  rhsContracting := [0]
  lhsNonContracting := [0]
  rhsNonContracting := [1]
  lhsBatch := []
  rhsBatch := []
  wf := dot_S50000x85_S85x64_S50000x64_1_0_0_1_n_n_wf
def dot_S50000x1_S1x64_S50000x64_1_0_0_1_n_n : DotDims S50000x1 S1x64 S50000x64 where
  lhsContracting := [1]
  rhsContracting := [0]
  lhsNonContracting := [0]
  rhsNonContracting := [1]
  lhsBatch := []
  rhsBatch := []
  wf := dot_S50000x1_S1x64_S50000x64_1_0_0_1_n_n_wf
def scatter_S10000x85_S500000x1_S500000x85_1_0_0_1 : ScatterDims S10000x85 S500000x1 S500000x85 where
  updateWindowDims := [1]
  insertedWindowDims := [0]
  scatterDimsToOperandDims := [0]
  indexVectorDim := 1
  wf := scatter_S10000x85_S500000x1_S500000x85_1_0_0_1_wf
def dot_S10000x85_S85x64_S10000x64_1_0_0_1_n_n : DotDims S10000x85 S85x64 S10000x64 where
  lhsContracting := [1]
  rhsContracting := [0]
  lhsNonContracting := [0]
  rhsNonContracting := [1]
  lhsBatch := []
  rhsBatch := []
  wf := dot_S10000x85_S85x64_S10000x64_1_0_0_1_n_n_wf
def dot_S10000x1_S1x64_S10000x64_1_0_0_1_n_n : DotDims S10000x1 S1x64 S10000x64 where
  lhsContracting := [1]
  rhsContracting := [0]
  lhsNonContracting := [0]
  rhsNonContracting := [1]
  lhsBatch := []
  rhsBatch := []
  wf := dot_S10000x1_S1x64_S10000x64_1_0_0_1_n_n_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def scatter_S500000x64_S500000x1_S500000x64_1_0_0_1 : ScatterDims S500000x64 S500000x1 S500000x64 where
  updateWindowDims := [1]
  insertedWindowDims := [0]
  scatterDimsToOperandDims := [0]
  indexVectorDim := 1
  wf := scatter_S500000x64_S500000x1_S500000x64_1_0_0_1_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def gather_S10000x64_S500000x1_S500000x64_1_0_n_n_0_1_164 : GatherDims S10000x64 S500000x1 S500000x64 where
  offsetDims := [1]
  collapsedSliceDims := [0]
  operandBatchingDims := []
  startIndicesBatchingDims := []
  startIndexMap := [0]
  indexVectorDim := 1
  sliceSizes := ![1, 64]
  wf := gather_S10000x64_S500000x1_S500000x64_1_0_n_n_0_1_164_wf
def dot_S500000x128_S128x2_S500000x2_1_0_0_1_n_n : DotDims S500000x128 S128x2 S500000x2 where
  lhsContracting := [1]
  rhsContracting := [0]
  lhsNonContracting := [0]
  rhsNonContracting := [1]
  lhsBatch := []
  rhsBatch := []
  wf := dot_S500000x128_S128x2_S500000x2_1_0_0_1_n_n_wf

class Facts : Prop extends Facts₀ where

variable [Facts]
-- ==== Proof.KernelRun.lean ====
/-
  The idealized kernel program's run with EVERY buffer named: from any launch memory every weakly fair execution of the
  program ends, nothing faulting, and each unscoped buffer of a core then holds what the fold of the program's host
  stretches and kernel regions leaves there (the valuation reached after the last region).  The frame statement keeps of
  this only the argument buffers; a value statement needs the result buffer too, so the run is re-posted here with the
  whole valuation, and `result` reads off the result buffer and the eighteen arguments.
-/
import proofs.«179584_j5403068858514_2_alg».proof.Proof.Gen.KernelIdeal.Frame
import proofs.«179584_j5403068858514_2_alg».proof.Proof.Gen.KernelIdeal.Launch
import proofs.«179584_j5403068858514_2_alg».proof.Proof.Gen.KernelIdeal.Skeleton
import proofs.«179584_j5403068858514_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Sage.KRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The result buffer ends at the last boundary's contents, and the argument buffers end as launched. -/
theorem result : θ_run defs (onTc (τ := τ) (main (F := F))) ⟨m, fun _ => 0, ρ⟩ (fun r => ∀ c : Dev nD,
      r.2.mem ((c.tc : Thread nD τ).loc main_v109) = W6 m ρ c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨h c _ (mem_uc main_v109 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c),
     (h c _ (mem_uc main_arg15 (by decide))).trans (W6_main_arg15 m ρ c),
     (h c _ (mem_uc main_arg16 (by decide))).trans (W6_main_arg16 m ρ c),
     (h c _ (mem_uc main_arg17 (by decide))).trans (W6_main_arg17 m ρ c)⟩)
    (run_all m ρ)

end Cert.Sage.KRun

end
-- ==== Proof.Finite.lean ====
/-
  Every entry of the transaction feature array and of the first-layer weight array is a real number, from the precondition.

  The precondition is a conjunction, one conjunct per float argument, of "every entry has absolute value below +∞".  On the extended
  reals the absolute value is `max x (-x)`, which is `⊤` at both infinities; so an entry with `max x (-x) < ⊤` is a real.
-/
import proofs.«179584_j5403068858514_2_alg».proof.Defs
import proofs.«179584_j5403068858514_2_alg».proof.Proof.Gen.Pre_finite_inputs
import Idealize.ShloMosaic.Lib.ReduceAll
import Idealize.ShloMosaic.Lib.ValueIdx
import Idealize.ShloMosaic.PureOps.Ideal.Laws

noncomputable section

namespace Cert.Sage.Finite

open Idealize.ShloMosaic Idealize.ShloMosaic.ValueIdx Idealize.SL.Sem

/-- The shape of a single number has one index. -/
instance : Subsingleton Cert.Pre_finite_inputs.S_.Idx := ⟨fun a b => funext fun d => d.elim0⟩

/-- The word `0x7F800000` denotes `+∞`. -/
theorem inf_word : Ideal.ofBits .f32 0x7F800000#32 = (⊤ : EReal) := by simp [Ideal.ofBits, Ideal.ieee]

/-- An extended real whose absolute value compares below `+∞` is a real: at `⊤` and at `⊥` the absolute value is `⊤`. -/
theorem real_of_abs_lt_inf (x : EReal) (h : Ideal.cmp .olt (max x (-x)) (Ideal.ofBits .f32 0x7F800000#32) = 1#1) :
    ∃ r : ℝ, x = (r : EReal) := by
  rw [inf_word] at h
  have hlt : max x (-x) < ⊤ := by
    by_contra hn
    simp [Ideal.cmp, hn] at h
  induction x using EReal.rec with
  | bot => simp at hlt
  | coe r => exact ⟨r, rfl⟩
  | top => simp at hlt

/-- "All entries have absolute value below `+∞`" (an `and` over the whole array that comes out 1) gives a real at every index. -/
theorem all_real {s : Shape} {axes : List (Fin s.rank)} (A : FVec Ideal s .f32)
    (hb : Cert.Pre_finite_inputs.S_.BroadcastsInDim s (![] : Fin 0 → Fin s.rank)) (hr : s.ReducesTo axes Cert.Pre_finite_inputs.S_)
    (hu : 0 < Cert.Pre_finite_inputs.S_.numel)
    (h : Host.reduce IntOp.andi (cmpf .olt (Host.absf A) (broadcastInDim s ![] hb (constant (F := Ideal) Cert.Pre_finite_inputs.S_ .f32 0x7F800000#32)))
      (constantI Cert.Pre_finite_inputs.S_ 1 1#1) hr hu ix0 = 1#1) (i : s.Idx) : ∃ r : ℝ, A i = (r : EReal) :=
  real_of_abs_lt_inf (A i) (Host.reduce_andi_all _ _ hr hu ix0 h i)

theorem and_left {c d : BitVec 1} (h : IntOp.andi c d = 1#1) : c = 1#1 := (IntOp.andi_eq_one.1 h).1
theorem and_right {c d : BitVec 1} (h : IntOp.andi c d = 1#1) : d = 1#1 := (IntOp.andi_eq_one.1 h).2

/-- Every entry of the transaction feature array is a real. -/
theorem features_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S500000x85.Idx) :
    ∃ r : ℝ, (m ((c.tc : Thread Cert.KernelIdeal.nD Cert.KernelIdeal.τ).loc Cert.KernelIdeal.main_arg2) : Cert.KernelIdeal.S500000x85.Idx → EReal) i = (r : EReal) := by
  have h0 := congrFun (h c) ix0
  -- the conjunction is nested to the left, one conjunct per argument in order: the third conjunct is under eleven others
  have h1 := and_left h0
  have h2 := and_left h1
  have h3 := and_left h2
  have h4 := and_left h3
  have h5 := and_left h4
  have h6 := and_left h5
  have h7 := and_left h6
  have h8 := and_left h7
  have h9 := and_left h8
  have h10 := and_left h9
  have h11 := and_left h10
  have h12 := and_right h11
  exact all_real _ _ _ _ h12 i

/-- Every entry of the first-layer weight array of the transaction side is a real. -/
theorem weights_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S2x85x64.Idx) :
    ∃ r : ℝ, (m ((c.tc : Thread Cert.KernelIdeal.nD Cert.KernelIdeal.τ).loc Cert.KernelIdeal.main_arg4) : Cert.KernelIdeal.S2x85x64.Idx → EReal) i = (r : EReal) := by
  have h0 := congrFun (h c) ix0
  -- the fifth conjunct is under nine others
  have h1 := and_left h0
  have h2 := and_left h1
  have h3 := and_left h2
  have h4 := and_left h3
  have h5 := and_left h4
  have h6 := and_left h5
  have h7 := and_left h6
  have h8 := and_left h7
  have h9 := and_left h8
  have h10 := and_right h9
  exact all_real _ _ _ _ h10 i

end Cert.Sage.Finite

end
-- ==== Proof.FoldHost.lean ====
/-
  The idealized kernel program's host stretches, read back to the launch contents.

  Between its three kernel regions the program runs plain array operations on the host: it aggregates neighbour features
  (a row gather followed by a scatter-add into zeros, per relation), cuts the per-relation weight matrices and bias rows
  out of the stacked parameter arrays, adds the two transaction-side weight matrices and biases, and transposes the
  read-out matrix.  The contents of a buffer at a boundary between stretches and regions is a fold over the program; each
  lemma here walks one buffer back through that fold and names what it holds as a function of the launch contents of the
  argument buffers.  Where the reference program applies the very same operations to its arguments, the value is named by
  the reference's own stage (its `val_…` function of the arguments): the two are one term, so the aggregation stages are
  never opened.  An argument buffer is written by no operation and by no region, so it holds its launch contents at every
  boundary.
-/
import proofs.«179584_j5403068858514_2_alg».proof.Proof.Gen.KernelIdeal.Frame
import proofs.«179584_j5403068858514_2_alg».proof.Proof.Gen.ReferenceIdeal.Read
import Idealize.ShloMosaic.Lib.StableHlo.Run

set_option maxRecDepth 16384

noncomputable section

namespace Cert.Sage.Fold

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg) (c : Dev nD)

/-! ## Argument buffers at the boundaries -/

theorem w1_arg0 : W1 m ρ c (Proc.devRef .tc main_arg0) = (m ((c : Thread nD τ).loc main_arg0)) := by
  show StableHlo.after hostOps0 (W0 m ρ c) (Proc.devRef .tc main_arg0) = _
  after_results_simp <;> rfl

theorem w1_arg1 : W1 m ρ c (Proc.devRef .tc main_arg1) = (m ((c : Thread nD τ).loc main_arg1)) := by
  show StableHlo.after hostOps0 (W0 m ρ c) (Proc.devRef .tc main_arg1) = _
  after_results_simp <;> rfl

theorem w1_arg2 : W1 m ρ c (Proc.devRef .tc main_arg2) = (m ((c : Thread nD τ).loc main_arg2)) := by
  show StableHlo.after hostOps0 (W0 m ρ c) (Proc.devRef .tc main_arg2) = _
  after_results_simp <;> rfl

theorem w1_arg3 : W1 m ρ c (Proc.devRef .tc main_arg3) = (m ((c : Thread nD τ).loc main_arg3)) := by
  show StableHlo.after hostOps0 (W0 m ρ c) (Proc.devRef .tc main_arg3) = _
  after_results_simp <;> rfl

theorem w1_arg4 : W1 m ρ c (Proc.devRef .tc main_arg4) = (m ((c : Thread nD τ).loc main_arg4)) := by
  show StableHlo.after hostOps0 (W0 m ρ c) (Proc.devRef .tc main_arg4) = _
  after_results_simp <;> rfl

theorem w1_arg5 : W1 m ρ c (Proc.devRef .tc main_arg5) = (m ((c : Thread nD τ).loc main_arg5)) := by
  show StableHlo.after hostOps0 (W0 m ρ c) (Proc.devRef .tc main_arg5) = _
  after_results_simp <;> rfl

theorem w1_arg9 : W1 m ρ c (Proc.devRef .tc main_arg9) = (m ((c : Thread nD τ).loc main_arg9)) := by
  show StableHlo.after hostOps0 (W0 m ρ c) (Proc.devRef .tc main_arg9) = _
  after_results_simp <;> rfl

theorem w1_arg10 : W1 m ρ c (Proc.devRef .tc main_arg10) = (m ((c : Thread nD τ).loc main_arg10)) := by
  show StableHlo.after hostOps0 (W0 m ρ c) (Proc.devRef .tc main_arg10) = _
  after_results_simp <;> rfl

theorem w1_arg11 : W1 m ρ c (Proc.devRef .tc main_arg11) = (m ((c : Thread nD τ).loc main_arg11)) := by
  show StableHlo.after hostOps0 (W0 m ρ c) (Proc.devRef .tc main_arg11) = _
  after_results_simp <;> rfl

theorem w1_arg12 : W1 m ρ c (Proc.devRef .tc main_arg12) = (m ((c : Thread nD τ).loc main_arg12)) := by
  show StableHlo.after hostOps0 (W0 m ρ c) (Proc.devRef .tc main_arg12) = _
  after_results_simp <;> rfl

theorem w1_arg13 : W1 m ρ c (Proc.devRef .tc main_arg13) = (m ((c : Thread nD τ).loc main_arg13)) := by
  show StableHlo.after hostOps0 (W0 m ρ c) (Proc.devRef .tc main_arg13) = _
  after_results_simp <;> rfl

theorem w1_arg14 : W1 m ρ c (Proc.devRef .tc main_arg14) = (m ((c : Thread nD τ).loc main_arg14)) := by
  show StableHlo.after hostOps0 (W0 m ρ c) (Proc.devRef .tc main_arg14) = _
  after_results_simp <;> rfl

theorem w1_arg15 : W1 m ρ c (Proc.devRef .tc main_arg15) = (m ((c : Thread nD τ).loc main_arg15)) := by
  show StableHlo.after hostOps0 (W0 m ρ c) (Proc.devRef .tc main_arg15) = _
  after_results_simp <;> rfl

theorem w1_arg16 : W1 m ρ c (Proc.devRef .tc main_arg16) = (m ((c : Thread nD τ).loc main_arg16)) := by
  show StableHlo.after hostOps0 (W0 m ρ c) (Proc.devRef .tc main_arg16) = _
  after_results_simp <;> rfl

theorem w1_arg17 : W1 m ρ c (Proc.devRef .tc main_arg17) = (m ((c : Thread nD τ).loc main_arg17)) := by
  show StableHlo.after hostOps0 (W0 m ρ c) (Proc.devRef .tc main_arg17) = _
  after_results_simp <;> rfl

theorem w2_arg1 : W2 m ρ c (Proc.devRef .tc main_arg1) = (m ((c : Thread nD τ).loc main_arg1)) :=
  (W2_of_ne m ρ c main_arg1 (by decide)).trans (w1_arg1 m ρ c)

theorem w3_arg1 : W3 m ρ c (Proc.devRef .tc main_arg1) = (m ((c : Thread nD τ).loc main_arg1)) := by
  show StableHlo.after hostOps1 (W2 m ρ c) (Proc.devRef .tc main_arg1) = _
  after_results_simp
  exact w2_arg1 m ρ c

theorem w2_arg2 : W2 m ρ c (Proc.devRef .tc main_arg2) = (m ((c : Thread nD τ).loc main_arg2)) :=
  (W2_of_ne m ρ c main_arg2 (by decide)).trans (w1_arg2 m ρ c)

theorem w3_arg2 : W3 m ρ c (Proc.devRef .tc main_arg2) = (m ((c : Thread nD τ).loc main_arg2)) := by
  show StableHlo.after hostOps1 (W2 m ρ c) (Proc.devRef .tc main_arg2) = _
  after_results_simp
  exact w2_arg2 m ρ c

theorem w2_arg3 : W2 m ρ c (Proc.devRef .tc main_arg3) = (m ((c : Thread nD τ).loc main_arg3)) :=
  (W2_of_ne m ρ c main_arg3 (by decide)).trans (w1_arg3 m ρ c)

theorem w3_arg3 : W3 m ρ c (Proc.devRef .tc main_arg3) = (m ((c : Thread nD τ).loc main_arg3)) := by
  show StableHlo.after hostOps1 (W2 m ρ c) (Proc.devRef .tc main_arg3) = _
  after_results_simp
  exact w2_arg3 m ρ c

theorem w2_arg4 : W2 m ρ c (Proc.devRef .tc main_arg4) = (m ((c : Thread nD τ).loc main_arg4)) :=
  (W2_of_ne m ρ c main_arg4 (by decide)).trans (w1_arg4 m ρ c)

theorem w3_arg4 : W3 m ρ c (Proc.devRef .tc main_arg4) = (m ((c : Thread nD τ).loc main_arg4)) := by
  show StableHlo.after hostOps1 (W2 m ρ c) (Proc.devRef .tc main_arg4) = _
  after_results_simp
  exact w2_arg4 m ρ c

theorem w2_arg5 : W2 m ρ c (Proc.devRef .tc main_arg5) = (m ((c : Thread nD τ).loc main_arg5)) :=
  (W2_of_ne m ρ c main_arg5 (by decide)).trans (w1_arg5 m ρ c)

theorem w3_arg5 : W3 m ρ c (Proc.devRef .tc main_arg5) = (m ((c : Thread nD τ).loc main_arg5)) := by
  show StableHlo.after hostOps1 (W2 m ρ c) (Proc.devRef .tc main_arg5) = _
  after_results_simp
  exact w2_arg5 m ρ c

theorem w2_arg9 : W2 m ρ c (Proc.devRef .tc main_arg9) = (m ((c : Thread nD τ).loc main_arg9)) :=
  (W2_of_ne m ρ c main_arg9 (by decide)).trans (w1_arg9 m ρ c)

theorem w3_arg9 : W3 m ρ c (Proc.devRef .tc main_arg9) = (m ((c : Thread nD τ).loc main_arg9)) := by
  show StableHlo.after hostOps1 (W2 m ρ c) (Proc.devRef .tc main_arg9) = _
  after_results_simp
  exact w2_arg9 m ρ c

theorem w2_arg10 : W2 m ρ c (Proc.devRef .tc main_arg10) = (m ((c : Thread nD τ).loc main_arg10)) :=
  (W2_of_ne m ρ c main_arg10 (by decide)).trans (w1_arg10 m ρ c)

theorem w3_arg10 : W3 m ρ c (Proc.devRef .tc main_arg10) = (m ((c : Thread nD τ).loc main_arg10)) := by
  show StableHlo.after hostOps1 (W2 m ρ c) (Proc.devRef .tc main_arg10) = _
  after_results_simp
  exact w2_arg10 m ρ c

theorem w2_arg11 : W2 m ρ c (Proc.devRef .tc main_arg11) = (m ((c : Thread nD τ).loc main_arg11)) :=
  (W2_of_ne m ρ c main_arg11 (by decide)).trans (w1_arg11 m ρ c)

theorem w3_arg11 : W3 m ρ c (Proc.devRef .tc main_arg11) = (m ((c : Thread nD τ).loc main_arg11)) := by
  show StableHlo.after hostOps1 (W2 m ρ c) (Proc.devRef .tc main_arg11) = _
  after_results_simp
  exact w2_arg11 m ρ c

theorem w2_arg12 : W2 m ρ c (Proc.devRef .tc main_arg12) = (m ((c : Thread nD τ).loc main_arg12)) :=
  (W2_of_ne m ρ c main_arg12 (by decide)).trans (w1_arg12 m ρ c)

theorem w3_arg12 : W3 m ρ c (Proc.devRef .tc main_arg12) = (m ((c : Thread nD τ).loc main_arg12)) := by
  show StableHlo.after hostOps1 (W2 m ρ c) (Proc.devRef .tc main_arg12) = _
  after_results_simp
  exact w2_arg12 m ρ c

theorem w2_arg13 : W2 m ρ c (Proc.devRef .tc main_arg13) = (m ((c : Thread nD τ).loc main_arg13)) :=
  (W2_of_ne m ρ c main_arg13 (by decide)).trans (w1_arg13 m ρ c)

theorem w3_arg13 : W3 m ρ c (Proc.devRef .tc main_arg13) = (m ((c : Thread nD τ).loc main_arg13)) := by
  show StableHlo.after hostOps1 (W2 m ρ c) (Proc.devRef .tc main_arg13) = _
  after_results_simp
  exact w2_arg13 m ρ c

theorem w2_arg14 : W2 m ρ c (Proc.devRef .tc main_arg14) = (m ((c : Thread nD τ).loc main_arg14)) :=
  (W2_of_ne m ρ c main_arg14 (by decide)).trans (w1_arg14 m ρ c)

theorem w3_arg14 : W3 m ρ c (Proc.devRef .tc main_arg14) = (m ((c : Thread nD τ).loc main_arg14)) := by
  show StableHlo.after hostOps1 (W2 m ρ c) (Proc.devRef .tc main_arg14) = _
  after_results_simp
  exact w2_arg14 m ρ c

theorem w2_arg15 : W2 m ρ c (Proc.devRef .tc main_arg15) = (m ((c : Thread nD τ).loc main_arg15)) :=
  (W2_of_ne m ρ c main_arg15 (by decide)).trans (w1_arg15 m ρ c)

theorem w3_arg15 : W3 m ρ c (Proc.devRef .tc main_arg15) = (m ((c : Thread nD τ).loc main_arg15)) := by
  show StableHlo.after hostOps1 (W2 m ρ c) (Proc.devRef .tc main_arg15) = _
  after_results_simp
  exact w2_arg15 m ρ c

theorem w2_arg16 : W2 m ρ c (Proc.devRef .tc main_arg16) = (m ((c : Thread nD τ).loc main_arg16)) :=
  (W2_of_ne m ρ c main_arg16 (by decide)).trans (w1_arg16 m ρ c)

theorem w3_arg16 : W3 m ρ c (Proc.devRef .tc main_arg16) = (m ((c : Thread nD τ).loc main_arg16)) := by
  show StableHlo.after hostOps1 (W2 m ρ c) (Proc.devRef .tc main_arg16) = _
  after_results_simp
  exact w2_arg16 m ρ c

theorem w2_arg17 : W2 m ρ c (Proc.devRef .tc main_arg17) = (m ((c : Thread nD τ).loc main_arg17)) :=
  (W2_of_ne m ρ c main_arg17 (by decide)).trans (w1_arg17 m ρ c)

theorem w3_arg17 : W3 m ρ c (Proc.devRef .tc main_arg17) = (m ((c : Thread nD τ).loc main_arg17)) := by
  show StableHlo.after hostOps1 (W2 m ρ c) (Proc.devRef .tc main_arg17) = _
  after_results_simp
  exact w2_arg17 m ρ c

theorem w4_arg2 : W4 m ρ c (Proc.devRef .tc main_arg2) = (m ((c : Thread nD τ).loc main_arg2)) :=
  (W4_of_ne m ρ c main_arg2 (by decide)).trans (w3_arg2 m ρ c)

theorem w4_arg3 : W4 m ρ c (Proc.devRef .tc main_arg3) = (m ((c : Thread nD τ).loc main_arg3)) :=
  (W4_of_ne m ρ c main_arg3 (by decide)).trans (w3_arg3 m ρ c)

theorem w4_arg4 : W4 m ρ c (Proc.devRef .tc main_arg4) = (m ((c : Thread nD τ).loc main_arg4)) :=
  (W4_of_ne m ρ c main_arg4 (by decide)).trans (w3_arg4 m ρ c)

theorem w4_arg5 : W4 m ρ c (Proc.devRef .tc main_arg5) = (m ((c : Thread nD τ).loc main_arg5)) :=
  (W4_of_ne m ρ c main_arg5 (by decide)).trans (w3_arg5 m ρ c)

theorem w4_arg9 : W4 m ρ c (Proc.devRef .tc main_arg9) = (m ((c : Thread nD τ).loc main_arg9)) :=
  (W4_of_ne m ρ c main_arg9 (by decide)).trans (w3_arg9 m ρ c)

theorem w4_arg10 : W4 m ρ c (Proc.devRef .tc main_arg10) = (m ((c : Thread nD τ).loc main_arg10)) :=
  (W4_of_ne m ρ c main_arg10 (by decide)).trans (w3_arg10 m ρ c)

theorem w4_arg11 : W4 m ρ c (Proc.devRef .tc main_arg11) = (m ((c : Thread nD τ).loc main_arg11)) :=
  (W4_of_ne m ρ c main_arg11 (by decide)).trans (w3_arg11 m ρ c)

theorem w4_arg12 : W4 m ρ c (Proc.devRef .tc main_arg12) = (m ((c : Thread nD τ).loc main_arg12)) :=
  (W4_of_ne m ρ c main_arg12 (by decide)).trans (w3_arg12 m ρ c)

theorem w4_arg13 : W4 m ρ c (Proc.devRef .tc main_arg13) = (m ((c : Thread nD τ).loc main_arg13)) :=
  (W4_of_ne m ρ c main_arg13 (by decide)).trans (w3_arg13 m ρ c)

theorem w4_arg14 : W4 m ρ c (Proc.devRef .tc main_arg14) = (m ((c : Thread nD τ).loc main_arg14)) :=
  (W4_of_ne m ρ c main_arg14 (by decide)).trans (w3_arg14 m ρ c)

theorem w4_arg15 : W4 m ρ c (Proc.devRef .tc main_arg15) = (m ((c : Thread nD τ).loc main_arg15)) :=
  (W4_of_ne m ρ c main_arg15 (by decide)).trans (w3_arg15 m ρ c)

theorem w4_arg16 : W4 m ρ c (Proc.devRef .tc main_arg16) = (m ((c : Thread nD τ).loc main_arg16)) :=
  (W4_of_ne m ρ c main_arg16 (by decide)).trans (w3_arg16 m ρ c)

theorem w4_arg17 : W4 m ρ c (Proc.devRef .tc main_arg17) = (m ((c : Thread nD τ).loc main_arg17)) :=
  (W4_of_ne m ρ c main_arg17 (by decide)).trans (w3_arg17 m ρ c)

/-! ## The first stretch: the four aggregations of raw features and the root-side parameters of the first node type -/

theorem w1_v9 : W1 m ρ c (Proc.devRef .tc main_v9) = val_main_v15 (F := Ideal) (m ((c : Thread nD τ).loc main_arg0)) (m ((c : Thread nD τ).loc main_arg14)) (m ((c : Thread nD τ).loc main_arg15)) := by
  show StableHlo.after hostOps0 (W0 m ρ c) (Proc.devRef .tc main_v9) = _
  after_results_simp <;> rfl

theorem w1_v19 : W1 m ρ c (Proc.devRef .tc main_v19) = val_main_v37 (F := Ideal) (m ((c : Thread nD τ).loc main_arg1)) (m ((c : Thread nD τ).loc main_arg16)) (m ((c : Thread nD τ).loc main_arg17)) := by
  show StableHlo.after hostOps0 (W0 m ρ c) (Proc.devRef .tc main_v19) = _
  after_results_simp <;> rfl

theorem w1_v29 : W1 m ρ c (Proc.devRef .tc main_v29) = val_main_v60 (F := Ideal) (m ((c : Thread nD τ).loc main_arg2)) (m ((c : Thread nD τ).loc main_arg14)) (m ((c : Thread nD τ).loc main_arg15)) := by
  show StableHlo.after hostOps0 (W0 m ρ c) (Proc.devRef .tc main_v29) = _
  after_results_simp <;> rfl

theorem w1_v39 : W1 m ρ c (Proc.devRef .tc main_v39) = val_main_v82 (F := Ideal) (m ((c : Thread nD τ).loc main_arg2)) (m ((c : Thread nD τ).loc main_arg16)) (m ((c : Thread nD τ).loc main_arg17)) := by
  show StableHlo.after hostOps0 (W0 m ρ c) (Proc.devRef .tc main_v39) = _
  after_results_simp <;> rfl

theorem w1_v41 : W1 m ρ c (Proc.devRef .tc main_v41) = val_main_v46 (F := Ideal) (m ((c : Thread nD τ).loc main_arg6)) := by
  show StableHlo.after hostOps0 (W0 m ρ c) (Proc.devRef .tc main_v41) = _
  after_results_simp <;> rfl

theorem w1_v43 : W1 m ρ c (Proc.devRef .tc main_v43) = val_main_v48 (F := Ideal) (m ((c : Thread nD τ).loc main_arg7)) := by
  show StableHlo.after hostOps0 (W0 m ρ c) (Proc.devRef .tc main_v43) = _
  after_results_simp <;> rfl

theorem w1_v46 : W1 m ρ c (Proc.devRef .tc main_v46) = shapeCast S1x64 (val_main_v50 (F := Ideal) (m ((c : Thread nD τ).loc main_arg8))) shapeCasts_S64_S1x64 := by
  show StableHlo.after hostOps0 (W0 m ρ c) (Proc.devRef .tc main_v46) = _
  after_results_simp <;> rfl

theorem w1_arg6 : W1 m ρ c (Proc.devRef .tc main_arg6) = (m ((c : Thread nD τ).loc main_arg6)) := by
  show StableHlo.after hostOps0 (W0 m ρ c) (Proc.devRef .tc main_arg6) = _
  after_results_simp <;> rfl

theorem w2_arg6 : W2 m ρ c (Proc.devRef .tc main_arg6) = (m ((c : Thread nD τ).loc main_arg6)) :=
  (W2_of_ne m ρ c main_arg6 (by decide)).trans (w1_arg6 m ρ c)

theorem w1_arg7 : W1 m ρ c (Proc.devRef .tc main_arg7) = (m ((c : Thread nD τ).loc main_arg7)) := by
  show StableHlo.after hostOps0 (W0 m ρ c) (Proc.devRef .tc main_arg7) = _
  after_results_simp <;> rfl

theorem w2_arg7 : W2 m ρ c (Proc.devRef .tc main_arg7) = (m ((c : Thread nD τ).loc main_arg7)) :=
  (W2_of_ne m ρ c main_arg7 (by decide)).trans (w1_arg7 m ρ c)

theorem w1_arg8 : W1 m ρ c (Proc.devRef .tc main_arg8) = (m ((c : Thread nD τ).loc main_arg8)) := by
  show StableHlo.after hostOps0 (W0 m ρ c) (Proc.devRef .tc main_arg8) = _
  after_results_simp <;> rfl

theorem w2_arg8 : W2 m ρ c (Proc.devRef .tc main_arg8) = (m ((c : Thread nD τ).loc main_arg8)) :=
  (W2_of_ne m ρ c main_arg8 (by decide)).trans (w1_arg8 m ρ c)

/-! ## The second stretch: the root-side parameters of the second node type; the aggregations pass through -/

theorem w2_v39 : W2 m ρ c (Proc.devRef .tc main_v39) = val_main_v82 (F := Ideal) (m ((c : Thread nD τ).loc main_arg2)) (m ((c : Thread nD τ).loc main_arg16)) (m ((c : Thread nD τ).loc main_arg17)) :=
  (W2_of_ne m ρ c main_v39 (by decide)).trans (w1_v39 m ρ c)

theorem w3_v39 : W3 m ρ c (Proc.devRef .tc main_v39) = val_main_v82 (F := Ideal) (m ((c : Thread nD τ).loc main_arg2)) (m ((c : Thread nD τ).loc main_arg16)) (m ((c : Thread nD τ).loc main_arg17)) := by
  show StableHlo.after hostOps1 (W2 m ρ c) (Proc.devRef .tc main_v39) = _
  after_results_simp
  exact w2_v39 m ρ c

theorem w3_v49 : W3 m ρ c (Proc.devRef .tc main_v49) = val_main_v68 (F := Ideal) (m ((c : Thread nD τ).loc main_arg6)) := by
  show StableHlo.after hostOps1 (W2 m ρ c) (Proc.devRef .tc main_v49) = _
  after_results_simp
  rw [w2_arg6 m ρ c]
  first | done | rfl

theorem w3_v51 : W3 m ρ c (Proc.devRef .tc main_v51) = val_main_v70 (F := Ideal) (m ((c : Thread nD τ).loc main_arg7)) := by
  show StableHlo.after hostOps1 (W2 m ρ c) (Proc.devRef .tc main_v51) = _
  after_results_simp
  rw [w2_arg7 m ρ c]
  first | done | rfl

theorem w3_v54 : W3 m ρ c (Proc.devRef .tc main_v54) = shapeCast S1x64 (val_main_v72 (F := Ideal) (m ((c : Thread nD τ).loc main_arg8))) shapeCasts_S64_S1x64 := by
  show StableHlo.after hostOps1 (W2 m ρ c) (Proc.devRef .tc main_v54) = _
  after_results_simp
  rw [w2_arg8 m ρ c]
  first | done | rfl

/-! ## The aggregated raw features reach the third region unchanged -/

theorem w4_v9 : W4 m ρ c (Proc.devRef .tc main_v9) = val_main_v15 (F := Ideal) (m ((c : Thread nD τ).loc main_arg0)) (m ((c : Thread nD τ).loc main_arg14)) (m ((c : Thread nD τ).loc main_arg15)) := by
  refine (W4_of_ne m ρ c main_v9 (by decide)).trans ?_
  show StableHlo.after hostOps1 (W2 m ρ c) (Proc.devRef .tc main_v9) = _
  after_results_simp
  exact (W2_of_ne m ρ c main_v9 (by decide)).trans (w1_v9 m ρ c)

theorem w4_v19 : W4 m ρ c (Proc.devRef .tc main_v19) = val_main_v37 (F := Ideal) (m ((c : Thread nD τ).loc main_arg1)) (m ((c : Thread nD τ).loc main_arg16)) (m ((c : Thread nD τ).loc main_arg17)) := by
  refine (W4_of_ne m ρ c main_v19 (by decide)).trans ?_
  show StableHlo.after hostOps1 (W2 m ρ c) (Proc.devRef .tc main_v19) = _
  after_results_simp
  exact (W2_of_ne m ρ c main_v19 (by decide)).trans (w1_v19 m ρ c)

theorem w5_v9 : W5 m ρ c (Proc.devRef .tc main_v9) = val_main_v15 (F := Ideal) (m ((c : Thread nD τ).loc main_arg0)) (m ((c : Thread nD τ).loc main_arg14)) (m ((c : Thread nD τ).loc main_arg15)) := by
  show StableHlo.after hostOps2 (W4 m ρ c) (Proc.devRef .tc main_v9) = _
  after_results_simp
  exact w4_v9 m ρ c

theorem w5_v19 : W5 m ρ c (Proc.devRef .tc main_v19) = val_main_v37 (F := Ideal) (m ((c : Thread nD τ).loc main_arg1)) (m ((c : Thread nD τ).loc main_arg16)) (m ((c : Thread nD τ).loc main_arg17)) := by
  show StableHlo.after hostOps2 (W4 m ρ c) (Proc.devRef .tc main_v19) = _
  after_results_simp
  exact w4_v19 m ρ c

theorem w5_arg2 : W5 m ρ c (Proc.devRef .tc main_arg2) = (m ((c : Thread nD τ).loc main_arg2)) := by
  show StableHlo.after hostOps2 (W4 m ρ c) (Proc.devRef .tc main_arg2) = _
  after_results_simp
  exact w4_arg2 m ρ c

/-- The first region's output reaches the third stretch unchanged. -/
theorem w4_v47 : W4 m ρ c (Proc.devRef .tc main_v47) = W2 m ρ c (Proc.devRef .tc main_v47) := by
  refine (W4_of_ne m ρ c main_v47 (by decide)).trans ?_
  show StableHlo.after hostOps1 (W2 m ρ c) (Proc.devRef .tc main_v47) = _
  after_results_simp

/-! ## The third stretch: the two aggregations of hidden layers and the transaction-side parameters -/

/-- The aggregated hidden layer of the first node type, given what the first region left. -/
theorem w5_v66 (hc : W2 m ρ c (Proc.devRef .tc main_v47) = val_main_v90 (F := Ideal) (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg14)) (m ((c : Thread nD τ).loc main_arg15))) :
    W5 m ρ c (Proc.devRef .tc main_v66) = val_main_v107 (F := Ideal) (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg14)) (m ((c : Thread nD τ).loc main_arg15)) := by
  show StableHlo.after hostOps2 (W4 m ρ c) (Proc.devRef .tc main_v66) = _
  after_results_simp
  rw [w4_arg14 m ρ c, w4_arg15 m ρ c, w4_v47 m ρ c, hc]
  first | done | rfl

/-- The aggregated hidden layer of the second node type, given what the second region left. -/
theorem w5_v77 (hm : W4 m ρ c (Proc.devRef .tc main_v55) = val_main_v91 (F := Ideal) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg16)) (m ((c : Thread nD τ).loc main_arg17))) :
    W5 m ρ c (Proc.devRef .tc main_v77) = val_main_v129 (F := Ideal) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg16)) (m ((c : Thread nD τ).loc main_arg17)) := by
  show StableHlo.after hostOps2 (W4 m ρ c) (Proc.devRef .tc main_v77) = _
  after_results_simp
  rw [w4_arg16 m ρ c, w4_arg17 m ρ c, hm]
  first | done | rfl

theorem w5_v91 : W5 m ρ c (Proc.devRef .tc main_v91) = val_main_v1 (F := Ideal) (m ((c : Thread nD τ).loc main_arg3)) := by
  show StableHlo.after hostOps2 (W4 m ρ c) (Proc.devRef .tc main_v91) = _
  after_results_simp
  rw [w4_arg3 m ρ c]
  first | done | rfl

theorem w5_v93 : W5 m ρ c (Proc.devRef .tc main_v93) = val_main_v23 (F := Ideal) (m ((c : Thread nD τ).loc main_arg3)) := by
  show StableHlo.after hostOps2 (W4 m ρ c) (Proc.devRef .tc main_v93) = _
  after_results_simp
  rw [w4_arg3 m ρ c]
  first | done | rfl

theorem w5_v82 : W5 m ρ c (Proc.devRef .tc main_v82) = addf (F := Ideal) (s := S85x64) (φ := .f32) (val_main_v3 (F := Ideal) (m ((c : Thread nD τ).loc main_arg4))) (val_main_v25 (F := Ideal) (m ((c : Thread nD τ).loc main_arg4))) := by
  show StableHlo.after hostOps2 (W4 m ρ c) (Proc.devRef .tc main_v82) = _
  after_results_simp
  rw [w4_arg4 m ρ c]
  first | done | rfl

theorem w5_v88 : W5 m ρ c (Proc.devRef .tc main_v88) = shapeCast S1x64 (addf (F := Ideal) (s := S64) (φ := .f32) (val_main_v5 (F := Ideal) (m ((c : Thread nD τ).loc main_arg5))) (val_main_v27 (F := Ideal) (m ((c : Thread nD τ).loc main_arg5)))) shapeCasts_S64_S1x64 := by
  show StableHlo.after hostOps2 (W4 m ρ c) (Proc.devRef .tc main_v88) = _
  after_results_simp
  rw [w4_arg5 m ρ c]
  first | done | rfl

theorem w5_v95 : W5 m ρ c (Proc.devRef .tc main_v95) = val_main_v93 (F := Ideal) (m ((c : Thread nD τ).loc main_arg9)) := by
  show StableHlo.after hostOps2 (W4 m ρ c) (Proc.devRef .tc main_v95) = _
  after_results_simp
  rw [w4_arg9 m ρ c]
  first | done | rfl

theorem w5_v97 : W5 m ρ c (Proc.devRef .tc main_v97) = val_main_v95 (F := Ideal) (m ((c : Thread nD τ).loc main_arg10)) := by
  show StableHlo.after hostOps2 (W4 m ρ c) (Proc.devRef .tc main_v97) = _
  after_results_simp
  rw [w4_arg10 m ρ c]
  first | done | rfl

theorem w5_v100 : W5 m ρ c (Proc.devRef .tc main_v100) = shapeCast S1x64 (val_main_v97 (F := Ideal) (m ((c : Thread nD τ).loc main_arg11))) shapeCasts_S64_S1x64 := by
  show StableHlo.after hostOps2 (W4 m ρ c) (Proc.devRef .tc main_v100) = _
  after_results_simp
  rw [w4_arg11 m ρ c]
  first | done | rfl

theorem w5_v102 : W5 m ρ c (Proc.devRef .tc main_v102) = val_main_v115 (F := Ideal) (m ((c : Thread nD τ).loc main_arg9)) := by
  show StableHlo.after hostOps2 (W4 m ρ c) (Proc.devRef .tc main_v102) = _
  after_results_simp
  rw [w4_arg9 m ρ c]
  first | done | rfl

theorem w5_v104 : W5 m ρ c (Proc.devRef .tc main_v104) = val_main_v117 (F := Ideal) (m ((c : Thread nD τ).loc main_arg10)) := by
  show StableHlo.after hostOps2 (W4 m ρ c) (Proc.devRef .tc main_v104) = _
  after_results_simp
  rw [w4_arg10 m ρ c]
  first | done | rfl

theorem w5_v107 : W5 m ρ c (Proc.devRef .tc main_v107) = shapeCast S1x64 (val_main_v119 (F := Ideal) (m ((c : Thread nD τ).loc main_arg11))) shapeCasts_S64_S1x64 := by
  show StableHlo.after hostOps2 (W4 m ρ c) (Proc.devRef .tc main_v107) = _
  after_results_simp
  rw [w4_arg11 m ρ c]
  first | done | rfl

theorem w5_v89 : W5 m ρ c (Proc.devRef .tc main_v89) = transpose S2x128 [1, 0] (m ((c : Thread nD τ).loc main_arg12)) transposes_S128x2_S2x128_1_0 := by
  show StableHlo.after hostOps2 (W4 m ρ c) (Proc.devRef .tc main_v89) = _
  after_results_simp
  rw [w4_arg12 m ρ c]
  first | done | rfl

theorem w5_v108 : W5 m ρ c (Proc.devRef .tc main_v108) = shapeCast S1x2 (m ((c : Thread nD τ).loc main_arg13)) shapeCasts_S2_S1x2 := by
  show StableHlo.after hostOps2 (W4 m ρ c) (Proc.devRef .tc main_v108) = _
  after_results_simp
  rw [w4_arg13 m ρ c]
  first | done | rfl

end Cert.Sage.Fold

end
-- ==== Proof.Spec.lean ====
/-
  The mathematics of a two-layer heterogeneous neighbour-aggregation network, one entry at a time, over the extended reals.

  A layer of this network takes, for a node, a row `u` of aggregated neighbour features and the node's own features, and
  returns `max (u · W + own · W' + b, 0)`.  The entry functions below name each such expression once, so that the two
  programs' results can be stated with the same terms:

  * `rootEntry`   : a root-side first-layer entry, `max ((Σₖ u k · W k j + x · w j) + b j, 0)` (the node's own feature is one number);
  * `htK`, `htR` : a transaction-side first-layer entry in two arrangements — with the two weight matrices and the two biases
                    added first (`htK`), and as the sum of two complete affine maps (`htR`); `htK_eq_htR` says they agree on
                    finite features and weights (distributivity of `·` over `+` is what needs finiteness);
  * `tEntry`      : a second-layer entry `max ((Σₖ a k · Wl k j + Σₖ h k · Wr k j) + b j, 0)`;
  * `cat`         : two 64-vectors laid side by side as one 128-vector;
  * `outEntry`    : the final affine read-out `Σₗ x l · w l + b`.
-/
import Mathlib.Data.EReal.Operations
import Mathlib.Algebra.BigOperators.Fin

noncomputable section

open scoped BigOperators

namespace Cert.Sage

/-- A root-side first-layer entry: aggregated row `u` through `W`, the node's own single feature `x` through the row `w`, bias, then the positive part. -/
def rootEntry (u : Fin 85 → EReal) (W : Fin 85 → Fin 64 → EReal) (x : EReal) (w b : Fin 64 → EReal) (j : Fin 64) : EReal :=
  max (((∑ k : Fin 85, u k * W k j) + x * w j) + b j) 0

/-- A transaction-side first-layer entry, the two relations' weight matrices and biases already added (`wc`, `bc`). -/
def htK (xt : Fin 85 → EReal) (a1 a2 : EReal) (ws0 ws1 : Fin 64 → EReal) (wc : Fin 85 → Fin 64 → EReal) (bc : Fin 64 → EReal)
    (j : Fin 64) : EReal :=
  max (((∑ k : Fin 85, xt k * wc k j) + (a1 * ws0 j + a2 * ws1 j)) + bc j) 0

/-- The same entry as the sum of the two relations' complete affine maps. -/
def htR (xt : Fin 85 → EReal) (a1 a2 : EReal) (ws0 ws1 : Fin 64 → EReal) (w0 w1 : Fin 85 → Fin 64 → EReal) (b0 b1 : Fin 64 → EReal)
    (j : Fin 64) : EReal :=
  max (((a1 * ws0 j + ∑ k : Fin 85, xt k * w0 k j) + b0 j) + ((a2 * ws1 j + ∑ k : Fin 85, xt k * w1 k j) + b1 j)) 0

/-- A second-layer entry: aggregated hidden row `a` through `wl`, the node's own hidden row `h` through `wr`, bias, positive part. -/
def tEntry (a h : Fin 64 → EReal) (wl wr : Fin 64 → Fin 64 → EReal) (b : Fin 64 → EReal) (j : Fin 64) : EReal :=
  max (((∑ k : Fin 64, a k * wl k j) + (∑ k : Fin 64, h k * wr k j)) + b j) 0

/-- Two 64-vectors side by side. -/
def cat (t1 t2 : Fin 64 → EReal) (l : Fin 128) : EReal :=
  if h : l.val < 64 then t1 ⟨l.val, h⟩ else t2 ⟨l.val - 64, by have := l.isLt; omega⟩

/-- The affine read-out of a 128-vector. -/
def outEntry (x w : Fin 128 → EReal) (b : EReal) : EReal := (∑ l : Fin 128, x l * w l) + b

end Cert.Sage

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«179584_j5403068858514_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«179584_j5403068858514_2_alg».proof.Proof.LibDenseRows
import proofs.«179584_j5403068858514_2_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.Root0.lean ====
/-
  The first kernel region as one whole-array function: the root-side hidden layer of the first node type.

  Each grid point takes 2000 rows of the aggregated features and of the nodes' own feature, and leaves
  `max ((Σₖ u k · W k j + x · w j) + b j, 0)` in the same 2000 rows of the output.  Here: that expression for one entry of a block
  (`block_apply`), what a grid point writes back as a block of the whole [50000, 64] array (`written`), every row is in the block
  of the point `row / 2000` (`row_covered`), so the output array after the region is that array (`final`).
-/
import proofs.«179584_j5403068858514_2_alg».proof.Proof.Gen.KernelIdeal.Frame
import proofs.«179584_j5403068858514_2_alg».proof.Proof.Spec
import proofs.«179584_j5403068858514_2_alg».proof.Proof.LibPlainLayers
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.Sage.Root0

open Idealize.ShloMosaic Idealize.ShloMosaic.TcCoe Idealize.ShloMosaic.ValueIdx Idealize.SL.Sem Cert.KernelIdeal Cert.KernelIdeal.Gen
open Idealize.ShloMosaic.Pipeline (Dat)

theorem zero_offsets : (![0, 0] : Fin 2 → Nat) = fun _ => 0 := funext fun a => by fin_cases a <;> rfl

/-- One entry of what the body computes from its five blocks: the product of the aggregated rows with the weight matrix, plus the
    own-feature column times the weight row, plus the bias row, then the positive part (the roundings to the narrow format are the
    identity on extended reals). -/
theorem block_apply (x0 : Vec Ideal S2000x85 .f32) (x2 : Vec Ideal S85x64 .f32) (x1 : Vec Ideal S2000x1 .f32)
    (x3 x4 : Vec Ideal S1x64 .f32) (p : Fin 2000) (j : Fin 64) :
    k0_pay1 (F := Ideal) x0 x2 x1 x3 x4 (ix2 p j)
      = Cert.Sage.rootEntry (fun k => x0 (ix2 p k)) (fun k j' => x2 (ix2 k j')) (x1 (ix2 p (0 : Fin 1)))
          (fun j' => x3 (ix2 (0 : Fin 1) j')) (fun j' => x4 (ix2 (0 : Fin 1) j')) j := by
  unfold k0_pay1 Cert.Sage.rootEntry
  simp only [shapeCast_self]
  refine congrArg₂ max (congrArg₂ (· + ·) (congrArg₂ (· + ·) ?_ (congrArg₂ (· * ·) ?_ ?_)) ?_) Ideal.ofBits_zero_f32
  · exact Cert.PlainLayers.plainMM_of_eq dot_S2000x85_S85x64_S2000x64_1_0_0_1_n_n rfl none _ _ p j
  · exact Cert.Columns.broadcastTo_a1_ab_apply _ broadcasts_S2000x1_S2000x64 p j
  · exact broadcastTo_1b_ab_apply _ broadcasts_S1x64_S2000x64 p j
  · exact broadcastTo_1b_ab_apply _ broadcasts_S1x64_S2000x64 p j

variable (V : (c : Dev nD) → (b : Ref sig .tc) → Buf (Elt Ideal) ((c : Thread nD τ).loc b))

/-- entry (p, j) of the root-side hidden layer of the first node type, from the arrays the region finds -/
def entry (c : Dev nD) (p : Fin 50000) (j : Fin 64) : EReal :=
  Cert.Sage.rootEntry (fun k => V c main_v29 (ix2 p k)) (fun k j' => V c main_v41 (ix2 k j')) (V c main_arg0 (ix2 p (0 : Fin 1)))
    (fun j' => V c main_v43 (ix2 (0 : Fin 1) j')) (fun j' => V c main_v46 (ix2 (0 : Fin 1) j')) j

/-- Where each window's block sits at grid point `t`: the three row-blocked windows (aggregated features, own feature, output) at
    block row `t`, the weight matrix and the two rows whole. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the block of grid point `t` is row `2000 t + p` of the whole array. -/
def rowOf (t : Fin cfg0.N) (p : Fin 2000) : Fin 50000 :=
  ⟨t.val * 2000 + p.val, by have h : t.val < 25 := lt_of_lt_of_eq t.isLt (N_0 : cfg0.N = 25); have := p.isLt; omega⟩

/-- The aggregated-feature block at point `t`, row `p`: row `2000 t + p` of its array. -/
theorem rows_read (c : Dev nD) (t : Fin cfg0.N) (p : Fin 2000) (k : Fin 85) :
    (iblk0 (F := Ideal) V c 0 t : Vec Ideal S2000x85 .f32) (ix2 p k) = (V c main_v29 : S50000x85.Idx → EReal) (ix2 (rowOf t p) k) := by
  obtain ⟨e0, e1, -⟩ := index_facts t
  unfold iblk0
  rw [View.read_apply]
  show (V c main_v29 : S50000x85.Idx → EReal) _ = _
  refine congrArg (V c main_v29 : S50000x85.Idx → EReal) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 85 + 1 * k.val = k.val; rw [e1]; omega

/-- The own-feature block at point `t`, row `p`: row `2000 t + p` of its one-column array. -/
theorem own_read (c : Dev nD) (t : Fin cfg0.N) (p : Fin 2000) :
    (iblk0 (F := Ideal) V c 1 t : Vec Ideal S2000x1 .f32) (ix2 p (0 : Fin 1)) = (V c main_arg0 : S50000x1.Idx → EReal) (ix2 (rowOf t p) (0 : Fin 1)) := by
  obtain ⟨-, -, e0, e1, -⟩ := index_facts t
  unfold iblk0
  rw [View.read_apply]
  show (V c main_arg0 : S50000x1.Idx → EReal) _ = _
  refine congrArg (V c main_arg0 : S50000x1.Idx → EReal) (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 1 + 1 * 0 = 0; rw [e1]

/-- The weight matrix is staged whole at every point. -/
theorem weights_read (c : Dev nD) (t : Fin cfg0.N) :
    (iblk0 (F := Ideal) V c 2 t : Vec Ideal S85x64 .f32) = (V c main_v41 : S85x64.Idx → EReal) := by
  obtain ⟨-, -, -, -, e0, e1, -⟩ := index_facts t
  funext y
  unfold iblk0
  rw [View.read_apply]
  show (V c main_v41 : S85x64.Idx → EReal) _ = _
  refine congrArg (V c main_v41 : S85x64.Idx → EReal) (funext fun a => Fin.ext ?_)
  match a with
  | ⟨0, _⟩ => show win0_2.index t (0 : Fin 2) * 85 + 1 * (y 0).val = (y 0).val; rw [e0]; omega
  | ⟨1, _⟩ => show win0_2.index t (1 : Fin 2) * 64 + 1 * (y 1).val = (y 1).val; rw [e1]; omega

/-- So is the weight row of the own feature, -/
theorem wrow_read (c : Dev nD) (t : Fin cfg0.N) :
    (iblk0 (F := Ideal) V c 3 t : Vec Ideal S1x64 .f32) = (V c main_v43 : S1x64.Idx → EReal) := by
  obtain ⟨-, -, -, -, -, -, e0, e1, -⟩ := index_facts t
  funext y
  unfold iblk0
  rw [View.read_apply]
  show (V c main_v43 : S1x64.Idx → EReal) _ = _
  refine congrArg (V c main_v43 : S1x64.Idx → EReal) (funext fun a => Fin.ext ?_)
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- and the bias row. -/
theorem bias_read (c : Dev nD) (t : Fin cfg0.N) :
    (iblk0 (F := Ideal) V c 4 t : Vec Ideal S1x64 .f32) = (V c main_v46 : S1x64.Idx → EReal) := by
  obtain ⟨-, -, -, -, -, -, -, -, e0, e1, -⟩ := index_facts t
  funext y
  unfold iblk0
  rw [View.read_apply]
  show (V c main_v46 : S1x64.Idx → EReal) _ = _
  refine congrArg (V c main_v46 : S1x64.Idx → EReal) (funext fun a => Fin.ext ?_)
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-- What the body computes at point `t`, at (p, j) of its block: the layer's entry at row `2000 t + p`. -/
theorem computed_entry (c : Dev nD) (t : Fin cfg0.N) (p : Fin 2000) (j : Fin 64) :
    k0_pay1 (F := Ideal) (iblk0 V c 0 t) (iblk0 V c 2 t) (iblk0 V c 1 t) (iblk0 V c 3 t) (iblk0 V c 4 t) (ix2 p j)
      = entry V c (rowOf t p) j := by
  refine (block_apply (iblk0 V c 0 t) (iblk0 V c 2 t) (iblk0 V c 1 t) (iblk0 V c 3 t) (iblk0 V c 4 t) p j).trans ?_
  have h0 : (fun k => (iblk0 (F := Ideal) V c 0 t : Vec Ideal S2000x85 .f32) (ix2 p k))
      = fun k => (V c main_v29 : S50000x85.Idx → EReal) (ix2 (rowOf t p) k) := funext fun k => rows_read V c t p k
  rw [h0, own_read V c t p, weights_read V c t, wrow_read V c t, bias_read V c t]
  rfl

/-- What point `t` writes back is its block of the whole array of entries. -/
theorem written (c : Dev nD) (t : Fin cfg0.N) :
    (dat0 (F := Ideal) V c).flushed 5 t
      = ((cfg0.win 5).blk t).view.read (Elt Ideal) (fun i : S50000x64.Idx => entry V c (i 0) (i 1)) := by
  show (cfg0.win 5).cut (grid0.coords t) ((dat0 V c).after 5 t) = _
  rw [after0_5]
  unfold out0_5
  rw [View.canon_unit_zero zero_offsets]
  simp only [View.ld_unit_zero (S := S2000x85) zero_offsets, View.ld_unit_zero (S := S85x64) zero_offsets,
    View.ld_unit_zero (S := S2000x1) zero_offsets, View.ld_unit_zero (S := S1x64) zero_offsets]
  obtain ⟨-, -, -, -, -, -, -, -, -, -, e0, e1⟩ := index_facts t
  funext y
  obtain ⟨p, j, rfl⟩ : ∃ (p : Fin 2000) (j : Fin 64), y = ix2 p j := ⟨y 0, y 1, eq_ix2 y⟩
  refine (computed_entry V c t p j).trans ?_
  refine congrArg₂ (entry V c) (Fin.ext ?_) (Fin.ext ?_)
  · show t.val * 2000 + p.val = win0_5.index t (0 : Fin 2) * 2000 + 1 * p.val; rw [e0]; omega
  · show j.val = win0_5.index t (1 : Fin 2) * 64 + 1 * j.val; rw [e1]; omega

/-- An index of the output array is in point `t`'s block iff each coordinate is in the block's range on its axis. -/
theorem mem_block (t : Fin cfg0.N) (i : S50000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v47).slice (win0_5.rect t)).set ↔ _
  rw [View.set_slice_whole, Rect.mem_set_unit]
  exact Iff.rfl

/-- Every row `r` is in the block of the point `r / 2000`. -/
theorem row_covered (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ : ∃ t : Fin cfg0.N, t.val = (i 0).val / 2000 := ⟨⟨(i 0).val / 2000, by rw [show cfg0.N = 25 from N_0]; omega⟩, rfl⟩
  obtain ⟨-, -, -, -, -, -, -, -, -, -, e0, e1⟩ := index_facts t
  refine ⟨t, flush0_5 t, ?_⟩
  rw [mem_block]
  intro a
  match a with
  | ⟨0, _⟩ =>
    show win0_5.index t (0 : Fin 2) * 2000 ≤ (i 0).val ∧ (i 0).val < win0_5.index t (0 : Fin 2) * 2000 + 2000
    rw [e0, ht]; omega
  | ⟨1, _⟩ =>
    show win0_5.index t (1 : Fin 2) * 64 ≤ (i 1).val ∧ (i 1).val < win0_5.index t (1 : Fin 2) * 64 + 64
    rw [e1]; omega

/-- The output array after the region: the hidden layer, entry by entry. -/
theorem final (c : Dev nD) : (dat0 (F := Ideal) V c).arrAt 5 cfg0.N = fun i : S50000x64.Idx => entry V c (i 0) (i 1) :=
  (dat0 V c).arrAt_eq_of_cover 5 _ (fun t _ => written V c t) row_covered

end Cert.Sage.Root0

end
-- ==== Proof.Root1.lean ====
/-
  The second kernel region as one whole-array function: the root-side hidden layer of the second node type.

  Each grid point takes 2000 rows of the aggregated features and of the nodes' own feature, and leaves
  `max ((Σₖ u k · W k j + x · w j) + b j, 0)` in the same 2000 rows of the output.  Here: that expression for one entry of a block
  (`block_apply`), what a grid point writes back as a block of the whole [10000, 64] array (`written`), every row is in the block
  of the point `row / 2000` (`row_covered`), so the output array after the region is that array (`final`).
-/
import proofs.«179584_j5403068858514_2_alg».proof.Proof.Gen.KernelIdeal.Frame
import proofs.«179584_j5403068858514_2_alg».proof.Proof.Spec
import proofs.«179584_j5403068858514_2_alg».proof.Proof.LibPlainLayers
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.Sage.Root1

open Idealize.ShloMosaic Idealize.ShloMosaic.TcCoe Idealize.ShloMosaic.ValueIdx Idealize.SL.Sem Cert.KernelIdeal Cert.KernelIdeal.Gen
open Idealize.ShloMosaic.Pipeline (Dat)

theorem zero_offsets : (![0, 0] : Fin 2 → Nat) = fun _ => 0 := funext fun a => by fin_cases a <;> rfl

/-- One entry of what the body computes from its five blocks: the product of the aggregated rows with the weight matrix, plus the
    own-feature column times the weight row, plus the bias row, then the positive part (the roundings to the narrow format are the
    identity on extended reals). -/
theorem block_apply (x0 : Vec Ideal S2000x85 .f32) (x2 : Vec Ideal S85x64 .f32) (x1 : Vec Ideal S2000x1 .f32)
    (x3 x4 : Vec Ideal S1x64 .f32) (p : Fin 2000) (j : Fin 64) :
    k1_pay1 (F := Ideal) x0 x2 x1 x3 x4 (ix2 p j)
      = Cert.Sage.rootEntry (fun k => x0 (ix2 p k)) (fun k j' => x2 (ix2 k j')) (x1 (ix2 p (0 : Fin 1)))
          (fun j' => x3 (ix2 (0 : Fin 1) j')) (fun j' => x4 (ix2 (0 : Fin 1) j')) j := by
  unfold k1_pay1 Cert.Sage.rootEntry
  simp only [shapeCast_self]
  refine congrArg₂ max (congrArg₂ (· + ·) (congrArg₂ (· + ·) ?_ (congrArg₂ (· * ·) ?_ ?_)) ?_) Ideal.ofBits_zero_f32
  · exact Cert.PlainLayers.plainMM_of_eq dot_S2000x85_S85x64_S2000x64_1_0_0_1_n_n rfl none _ _ p j
  · exact Cert.Columns.broadcastTo_a1_ab_apply _ broadcasts_S2000x1_S2000x64 p j
  · exact broadcastTo_1b_ab_apply _ broadcasts_S1x64_S2000x64 p j
  · exact broadcastTo_1b_ab_apply _ broadcasts_S1x64_S2000x64 p j

variable (V : (c : Dev nD) → (b : Ref sig .tc) → Buf (Elt Ideal) ((c : Thread nD τ).loc b))

/-- entry (p, j) of the root-side hidden layer of the second node type, from the arrays the region finds -/
def entry (c : Dev nD) (p : Fin 10000) (j : Fin 64) : EReal :=
  Cert.Sage.rootEntry (fun k => V c main_v39 (ix2 p k)) (fun k j' => V c main_v49 (ix2 k j')) (V c main_arg1 (ix2 p (0 : Fin 1)))
    (fun j' => V c main_v51 (ix2 (0 : Fin 1) j')) (fun j' => V c main_v54 (ix2 (0 : Fin 1) j')) j

/-- Where each window's block sits at grid point `t`: the three row-blocked windows (aggregated features, own feature, output) at
    block row `t`, the weight matrix and the two rows whole. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the block of grid point `t` is row `2000 t + p` of the whole array. -/
def rowOf (t : Fin cfg1.N) (p : Fin 2000) : Fin 10000 :=
  ⟨t.val * 2000 + p.val, by have h : t.val < 5 := lt_of_lt_of_eq t.isLt (N_1 : cfg1.N = 5); have := p.isLt; omega⟩

/-- The aggregated-feature block at point `t`, row `p`: row `2000 t + p` of its array. -/
theorem rows_read (c : Dev nD) (t : Fin cfg1.N) (p : Fin 2000) (k : Fin 85) :
    (iblk1 (F := Ideal) V c 0 t : Vec Ideal S2000x85 .f32) (ix2 p k) = (V c main_v39 : S10000x85.Idx → EReal) (ix2 (rowOf t p) k) := by
  obtain ⟨e0, e1, -⟩ := index_facts t
  unfold iblk1
  rw [View.read_apply]
  show (V c main_v39 : S10000x85.Idx → EReal) _ = _
  refine congrArg (V c main_v39 : S10000x85.Idx → EReal) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 85 + 1 * k.val = k.val; rw [e1]; omega

/-- The own-feature block at point `t`, row `p`: row `2000 t + p` of its one-column array. -/
theorem own_read (c : Dev nD) (t : Fin cfg1.N) (p : Fin 2000) :
    (iblk1 (F := Ideal) V c 1 t : Vec Ideal S2000x1 .f32) (ix2 p (0 : Fin 1)) = (V c main_arg1 : S10000x1.Idx → EReal) (ix2 (rowOf t p) (0 : Fin 1)) := by
  obtain ⟨-, -, e0, e1, -⟩ := index_facts t
  unfold iblk1
  rw [View.read_apply]
  show (V c main_arg1 : S10000x1.Idx → EReal) _ = _
  refine congrArg (V c main_arg1 : S10000x1.Idx → EReal) (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 1 + 1 * 0 = 0; rw [e1]

/-- The weight matrix is staged whole at every point. -/
theorem weights_read (c : Dev nD) (t : Fin cfg1.N) :
    (iblk1 (F := Ideal) V c 2 t : Vec Ideal S85x64 .f32) = (V c main_v49 : S85x64.Idx → EReal) := by
  obtain ⟨-, -, -, -, e0, e1, -⟩ := index_facts t
  funext y
  unfold iblk1
  rw [View.read_apply]
  show (V c main_v49 : S85x64.Idx → EReal) _ = _
  refine congrArg (V c main_v49 : S85x64.Idx → EReal) (funext fun a => Fin.ext ?_)
  match a with
  | ⟨0, _⟩ => show win1_2.index t (0 : Fin 2) * 85 + 1 * (y 0).val = (y 0).val; rw [e0]; omega
  | ⟨1, _⟩ => show win1_2.index t (1 : Fin 2) * 64 + 1 * (y 1).val = (y 1).val; rw [e1]; omega

/-- So is the weight row of the own feature, -/
theorem wrow_read (c : Dev nD) (t : Fin cfg1.N) :
    (iblk1 (F := Ideal) V c 3 t : Vec Ideal S1x64 .f32) = (V c main_v51 : S1x64.Idx → EReal) := by
  obtain ⟨-, -, -, -, -, -, e0, e1, -⟩ := index_facts t
  funext y
  unfold iblk1
  rw [View.read_apply]
  show (V c main_v51 : S1x64.Idx → EReal) _ = _
  refine congrArg (V c main_v51 : S1x64.Idx → EReal) (funext fun a => Fin.ext ?_)
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

/-- and the bias row. -/
theorem bias_read (c : Dev nD) (t : Fin cfg1.N) :
    (iblk1 (F := Ideal) V c 4 t : Vec Ideal S1x64 .f32) = (V c main_v54 : S1x64.Idx → EReal) := by
  obtain ⟨-, -, -, -, -, -, -, -, e0, e1, -⟩ := index_facts t
  funext y
  unfold iblk1
  rw [View.read_apply]
  show (V c main_v54 : S1x64.Idx → EReal) _ = _
  refine congrArg (V c main_v54 : S1x64.Idx → EReal) (funext fun a => Fin.ext ?_)
  match a with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega

/-- What the body computes at point `t`, at (p, j) of its block: the layer's entry at row `2000 t + p`. -/
theorem computed_entry (c : Dev nD) (t : Fin cfg1.N) (p : Fin 2000) (j : Fin 64) :
    k1_pay1 (F := Ideal) (iblk1 V c 0 t) (iblk1 V c 2 t) (iblk1 V c 1 t) (iblk1 V c 3 t) (iblk1 V c 4 t) (ix2 p j)
      = entry V c (rowOf t p) j := by
  refine (block_apply (iblk1 V c 0 t) (iblk1 V c 2 t) (iblk1 V c 1 t) (iblk1 V c 3 t) (iblk1 V c 4 t) p j).trans ?_
  have h0 : (fun k => (iblk1 (F := Ideal) V c 0 t : Vec Ideal S2000x85 .f32) (ix2 p k))
      = fun k => (V c main_v39 : S10000x85.Idx → EReal) (ix2 (rowOf t p) k) := funext fun k => rows_read V c t p k
  rw [h0, own_read V c t p, weights_read V c t, wrow_read V c t, bias_read V c t]
  rfl

/-- What point `t` writes back is its block of the whole array of entries. -/
theorem written (c : Dev nD) (t : Fin cfg1.N) :
    (dat1 (F := Ideal) V c).flushed 5 t
      = ((cfg1.win 5).blk t).view.read (Elt Ideal) (fun i : S10000x64.Idx => entry V c (i 0) (i 1)) := by
  show (cfg1.win 5).cut (grid1.coords t) ((dat1 V c).after 5 t) = _
  rw [after1_5]
  unfold out1_5
  rw [View.canon_unit_zero zero_offsets]
  simp only [View.ld_unit_zero (S := S2000x85) zero_offsets, View.ld_unit_zero (S := S85x64) zero_offsets,
    View.ld_unit_zero (S := S2000x1) zero_offsets, View.ld_unit_zero (S := S1x64) zero_offsets]
  obtain ⟨-, -, -, -, -, -, -, -, -, -, e0, e1⟩ := index_facts t
  funext y
  obtain ⟨p, j, rfl⟩ : ∃ (p : Fin 2000) (j : Fin 64), y = ix2 p j := ⟨y 0, y 1, eq_ix2 y⟩
  refine (computed_entry V c t p j).trans ?_
  refine congrArg₂ (entry V c) (Fin.ext ?_) (Fin.ext ?_)
  · show t.val * 2000 + p.val = win1_5.index t (0 : Fin 2) * 2000 + 1 * p.val; rw [e0]; omega
  · show j.val = win1_5.index t (1 : Fin 2) * 64 + 1 * j.val; rw [e1]; omega

/-- An index of the output array is in point `t`'s block iff each coordinate is in the block's range on its axis. -/
theorem mem_block (t : Fin cfg1.N) (i : S10000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v55).slice (win1_5.rect t)).set ↔ _
  rw [View.set_slice_whole, Rect.mem_set_unit]
  exact Iff.rfl

/-- Every row `r` is in the block of the point `r / 2000`. -/
theorem row_covered (i : S10000x64.Idx) :
    ∃ t : Fin cfg1.N, (cfg1.win 5).flush t = true ∧ i ∈ ((cfg1.win 5).blk t).view.set := by
  have hi0 : (i 0).val < 10000 := (i 0).isLt
  have hi1 : (i 1).val < 64 := (i 1).isLt
  obtain ⟨t, ht⟩ : ∃ t : Fin cfg1.N, t.val = (i 0).val / 2000 := ⟨⟨(i 0).val / 2000, by rw [show cfg1.N = 5 from N_1]; omega⟩, rfl⟩
  obtain ⟨-, -, -, -, -, -, -, -, -, -, e0, e1⟩ := index_facts t
  refine ⟨t, flush1_5 t, ?_⟩
  rw [mem_block]
  intro a
  match a with
  | ⟨0, _⟩ =>
    show win1_5.index t (0 : Fin 2) * 2000 ≤ (i 0).val ∧ (i 0).val < win1_5.index t (0 : Fin 2) * 2000 + 2000
    rw [e0, ht]; omega
  | ⟨1, _⟩ =>
    show win1_5.index t (1 : Fin 2) * 64 ≤ (i 1).val ∧ (i 1).val < win1_5.index t (1 : Fin 2) * 64 + 64
    rw [e1]; omega

/-- The output array after the region: the hidden layer, entry by entry. -/
theorem final (c : Dev nD) : (dat1 (F := Ideal) V c).arrAt 5 cfg1.N = fun i : S10000x64.Idx => entry V c (i 0) (i 1) :=
  (dat1 V c).arrAt_eq_of_cover 5 _ (fun t _ => written V c t) row_covered

end Cert.Sage.Root1

end
-- ==== Proof.FusedBody.lean ====
/-
  The fused kernel body, one entry at a time, over the extended reals.

  For a block of 4000 transaction rows the body computes the transaction-side first layer `h` (one matrix product of the
  features with the pre-added weights, two rank-one terms `a₁ ⊗ s₀ + a₂ ⊗ s₁`, bias, positive part), then the two second-layer
  outputs `t₁ = relu (A₅ · Wl₀ + h · Wr₀ + b₀)`, `t₂ = relu (A₆ · Wl₁ + h · Wr₁ + b₁)` side by side as one 128-wide row, and
  finally the two read-outs `Σₗ [t₁ t₂] l · w o l + c o`.  Changes of float format are the identity at this instance, a
  matrix product into a zero accumulator is the plain sum over the contracted index, a broadcast reads its operand's one
  row or one column, and a sum along the last axis is the plain sum.  Each lemma below reads one stored value at an entry
  `(p, ·)` in terms of the entries of row `p` of the loaded blocks, with the vocabulary of the specification module.
-/
import proofs.«179584_j5403068858514_2_alg».proof.Proof.Gen.KernelIdeal.Skeleton
import proofs.«179584_j5403068858514_2_alg».proof.Proof.Spec
import proofs.«179584_j5403068858514_2_alg».proof.Proof.LibPlainLayers
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Sage.FusedBody

open Idealize.ShloMosaic Idealize.ShloMosaic.ValueIdx Cert.KernelIdeal Cert.KernelIdeal.Gen

/-- The transaction-side first layer at (p, j). -/
theorem pay2_at (a1 a2 : Vec Ideal S4000x1 .f32) (xt : Vec Ideal S4000x85 .f32) (w : Vec Ideal S85x64 .f32)
    (s0 s1 b : Vec Ideal S1x64 .f32) (p : Fin 4000) (j : Fin 64) :
    k2_pay2 (F := Ideal) a1 a2 xt w s0 s1 b (ix2 p j)
      = Cert.Sage.htK (fun k => xt (ix2 p k)) (a1 (ix2 p (0 : Fin 1))) (a2 (ix2 p (0 : Fin 1)))
          (fun j' => s0 (ix2 (0 : Fin 1) j')) (fun j' => s1 (ix2 (0 : Fin 1) j')) (fun k j' => w (ix2 k j'))
          (fun j' => b (ix2 (0 : Fin 1) j')) j := by
  unfold k2_pay2 Cert.Sage.htK
  refine congrArg₂ max (congrArg₂ (· + ·) (congrArg₂ (· + ·) ?_ (congrArg₂ (· + ·) (congrArg₂ (· * ·) ?_ ?_)
    (congrArg₂ (· * ·) ?_ ?_))) ?_) Ideal.ofBits_zero_f32
  · refine (Cert.PlainLayers.plainMM_of_eq dot_S4000x85_S85x64_S4000x64_1_0_0_1_n_n rfl none _ _ p j).trans ?_
    exact Finset.sum_congr rfl fun k _ => congrArg (xt (ix2 p k) * ·) (congrFun (shapeCast_self w _) (ix2 k j))
  · exact (Cert.Columns.broadcastTo_a1_ab_apply _ _ p j).trans (congrFun (shapeCast_self a1 _) _)
  · exact (broadcastTo_1b_ab_apply _ _ p j).trans (congrFun (shapeCast_self s0 _) _)
  · exact (Cert.Columns.broadcastTo_a1_ab_apply _ _ p j).trans (congrFun (shapeCast_self a2 _) _)
  · exact (broadcastTo_1b_ab_apply _ _ p j).trans (congrFun (shapeCast_self s1 _) _)
  · exact (broadcastTo_1b_ab_apply _ _ p j).trans (congrFun (shapeCast_self b _) _)

/-- An aggregated block handed to the matrix unit is the block itself, entry by entry. -/
theorem pay3_at (a : Vec Ideal S4000x64 .f32) (i : S4000x64.Idx) : k2_pay3 (F := Ideal) a i = a i := by
  unfold k2_pay3; exact congrFun (shapeCast_self a _) i

theorem pay4_at (a : Vec Ideal S4000x64 .f32) (i : S4000x64.Idx) : k2_pay4 (F := Ideal) a i = a i := by
  unfold k2_pay4; exact congrFun (shapeCast_self a _) i

theorem pay5_at (w : Vec Ideal S64x64 .f32) (i : S64x64.Idx) : k2_pay5 (F := Ideal) w i = w i := by
  unfold k2_pay5; exact congrFun (shapeCast_self w _) i

/-- The two second-layer outputs side by side, at (p, l): entry `l` of `[t₁ t₂]`. -/
theorem pay6_at (h : FVec Ideal S4000x64 .bf16) (a5 a6 : FVec Ideal S4000x64 .bf16) (wl0 : FVec Ideal S64x64 .f32)
    (wr0 wl1 wr1 : Vec Ideal S64x64 .f32) (b0 b1 : Vec Ideal S1x64 .f32) (p : Fin 4000) (l : Fin 128) :
    k2_pay6 (F := Ideal) h a5 a6 wl0 wr0 wl1 wr1 b0 b1 (ix2 p l)
      = Cert.Sage.cat
          (Cert.Sage.tEntry (fun k => a5 (ix2 p k)) (fun k => h (ix2 p k)) (fun k j' => wl0 (ix2 k j')) (fun k j' => wr0 (ix2 k j'))
            (fun j' => b0 (ix2 (0 : Fin 1) j')))
          (Cert.Sage.tEntry (fun k => a6 (ix2 p k)) (fun k => h (ix2 p k)) (fun k j' => wl1 (ix2 k j')) (fun k j' => wr1 (ix2 k j'))
            (fun j' => b1 (ix2 (0 : Fin 1) j'))) l := by
  unfold k2_pay6 Cert.Sage.cat
  by_cases hl : l.val < 64
  · rw [dif_pos hl]
    refine (concatenate_pair_apply_left (t := S4000x128) (s₁ := S4000x64) (s₂ := S4000x64) (1 : Fin 2) _ _ concatenates_S4000x64_S4000x64_S4000x128_d1 (ix2 p l) rfl
      (ix2 p (⟨l.val, hl⟩ : Fin 64)) (fun b => by match b with | ⟨0, _⟩ => rfl | ⟨1, _⟩ => rfl)).trans ?_
    unfold Cert.Sage.tEntry
    refine congrArg₂ max (congrArg₂ (· + ·) (congrArg₂ (· + ·) ?_ ?_) ?_) Ideal.ofBits_zero_f32
    · exact Cert.PlainLayers.plainMM_of_eq dot_S4000x64_S64x64_S4000x64_1_0_0_1_n_n rfl none _ _ p _
    · refine (Cert.PlainLayers.plainMM_of_eq dot_S4000x64_S64x64_S4000x64_1_0_0_1_n_n rfl none _ _ p _).trans ?_
      exact Finset.sum_congr rfl fun k _ => congrArg (h (ix2 p k) * ·) (congrFun (shapeCast_self wr0 _) _)
    · exact (broadcastTo_1b_ab_apply _ _ p _).trans (congrFun (shapeCast_self b0 _) _)
  · rw [dif_neg hl]
    have hl2 : l.val < 128 := l.isLt
    refine (concatenate_pair_apply_right (t := S4000x128) (s₁ := S4000x64) (s₂ := S4000x64) (1 : Fin 2) _ _ concatenates_S4000x64_S4000x64_S4000x128_d1 (ix2 p l) rfl rfl
      (ix2 p (⟨l.val - 64, by omega⟩ : Fin 64)) (fun b hb => by
        match b with
        | ⟨0, _⟩ => rfl
        | ⟨1, _⟩ => exact absurd rfl hb) (by show (l.val - 64) + 64 = l.val; omega)).trans ?_
    unfold Cert.Sage.tEntry
    refine congrArg₂ max (congrArg₂ (· + ·) (congrArg₂ (· + ·) ?_ ?_) ?_) Ideal.ofBits_zero_f32
    · refine (Cert.PlainLayers.plainMM_of_eq dot_S4000x64_S64x64_S4000x64_1_0_0_1_n_n rfl none _ _ p _).trans ?_
      exact Finset.sum_congr rfl fun k _ => congrArg (a6 (ix2 p k) * ·) (congrFun (shapeCast_self wl1 _) _)
    · refine (Cert.PlainLayers.plainMM_of_eq dot_S4000x64_S64x64_S4000x64_1_0_0_1_n_n rfl none _ _ p _).trans ?_
      exact Finset.sum_congr rfl fun k _ => congrArg (h (ix2 p k) * ·) (congrFun (shapeCast_self wr1 _) _)
    · exact (broadcastTo_1b_ab_apply _ _ p _).trans (congrFun (shapeCast_self b1 _) _)

/-- The first read-out before its bias, at (p, ·): row 0 of the read-out weights against the 128-wide row. -/
theorem pay8_at (h a5 a6 : FVec Ideal S4000x64 .bf16) (wl0 : FVec Ideal S64x64 .f32) (wr0 wl1 wr1 : Vec Ideal S64x64 .f32)
    (b0 b1 : Vec Ideal S1x64 .f32) (wo : Vec Ideal S2x128 .f32) (p : Fin 4000) (u : Fin 1) :
    k2_pay8 (F := Ideal) h a5 a6 wl0 wr0 wl1 wr1 b0 b1 wo (ix2 p u)
      = ∑ l : Fin 128, k2_pay6 (F := Ideal) h a5 a6 wl0 wr0 wl1 wr1 b0 b1 (ix2 p l) * wo (ix2 (0 : Fin 2) l) := by
  unfold k2_pay8 k2_pay7
  refine (Cert.DenseRows.shapeCast_a_a1_apply _ _ p u).trans ?_
  refine (Cert.DenseRows.rowSum_apply _ _ reduces_S4000x128_S4000 (.inl rfl) rfl p).trans ?_
  refine Finset.sum_congr rfl fun l _ => congrArg (_ * ·) ?_
  refine (broadcastTo_1b_ab_apply _ _ p l).trans ?_
  refine (slice2_axis0_apply 0 _ slices_S2x128_o0_0_S1x128 (0 : Fin 1) l (0 : Fin 2) rfl).trans ?_
  exact congrFun (shapeCast_self wo _) _

/-- The second read-out before its bias, at p: row 1 of the read-out weights against the 128-wide row. -/
theorem pay9_at (h a5 a6 : FVec Ideal S4000x64 .bf16) (wl0 : FVec Ideal S64x64 .f32) (wr0 wl1 wr1 : Vec Ideal S64x64 .f32)
    (b0 b1 : Vec Ideal S1x64 .f32) (wo : Vec Ideal S2x128 .f32) (p : Fin 4000) :
    k2_pay9 (F := Ideal) h a5 a6 wl0 wr0 wl1 wr1 b0 b1 wo (ix1 p)
      = ∑ l : Fin 128, k2_pay6 (F := Ideal) h a5 a6 wl0 wr0 wl1 wr1 b0 b1 (ix2 p l) * wo (ix2 (1 : Fin 2) l) := by
  unfold k2_pay9 k2_pay7
  refine (Cert.DenseRows.rowSum_apply _ _ reduces_S4000x128_S4000 (.inl rfl) rfl p).trans ?_
  refine Finset.sum_congr rfl fun l _ => congrArg (_ * ·) ?_
  refine (broadcastTo_1b_ab_apply _ _ p l).trans ?_
  refine (slice2_axis0_apply 1 _ slices_S2x128_o1_0_S1x128 (0 : Fin 1) l (1 : Fin 2) rfl).trans ?_
  exact congrFun (shapeCast_self wo _) _

/-- The stored value at (p, o): read-out `o` plus its bias. -/
theorem pay1_at (r0 : FVec Ideal S4000x1 .f32) (r1 : FVec Ideal S4000 .f32) (c : Vec Ideal S1x2 .f32) (p : Fin 4000) (o : Fin 2) :
    k2_pay1 (F := Ideal) r0 r1 c (ix2 p o)
      = (if o.val = 0 then r0 (ix2 p (0 : Fin 1)) else r1 (ix1 p)) + c (ix2 (0 : Fin 1) o) := by
  unfold k2_pay1
  refine congrArg₂ (· + ·) ?_ ((broadcastTo_1b_ab_apply _ _ p o).trans (congrFun (shapeCast_self c _) _))
  by_cases ho : o.val = 0
  · rw [if_pos ho]
    exact concatenate_pair_apply_left (t := S4000x2) (s₁ := S4000x1) (s₂ := S4000x1) (1 : Fin 2) _ _ concatenates_S4000x1_S4000x1_S4000x2_d1 (ix2 p o) rfl
      (ix2 p (0 : Fin 1)) (fun b => by match b with | ⟨0, _⟩ => rfl | ⟨1, _⟩ => exact ho.symm)
  · rw [if_neg ho]
    have ho1 : o.val = 1 := by have := o.isLt; omega
    refine (concatenate_pair_apply_right (t := S4000x2) (s₁ := S4000x1) (s₂ := S4000x1) (1 : Fin 2) _ _ concatenates_S4000x1_S4000x1_S4000x2_d1 (ix2 p o) rfl rfl
      (ix2 p (0 : Fin 1)) (fun b hb => by
        match b with
        | ⟨0, _⟩ => rfl
        | ⟨1, _⟩ => exact absurd rfl hb) (by show 0 + 1 = o.val; omega)).trans ?_
    exact Cert.DenseRows.shapeCast_a_a1_apply _ _ p 0

/-- The whole body at (p, o), in the specification's vocabulary. -/
theorem body_at (a1 a2 : Vec Ideal S4000x1 .f32) (xt : Vec Ideal S4000x85 .f32) (a5 a6 : Vec Ideal S4000x64 .f32)
    (s0 s1 : Vec Ideal S1x64 .f32) (wc : Vec Ideal S85x64 .f32) (bc : Vec Ideal S1x64 .f32)
    (wl0 wr0 : Vec Ideal S64x64 .f32) (b0 : Vec Ideal S1x64 .f32) (wl1 wr1 : Vec Ideal S64x64 .f32) (b1 : Vec Ideal S1x64 .f32)
    (wo : Vec Ideal S2x128 .f32) (co : Vec Ideal S1x2 .f32) (p : Fin 4000) (o : Fin 2) :
    k2_pay1 (F := Ideal)
        (k2_pay8 (k2_pay2 a1 a2 xt wc s0 s1 bc) (k2_pay3 a5) (k2_pay4 a6) (k2_pay5 wl0) wr0 wl1 wr1 b0 b1 wo)
        (k2_pay9 (k2_pay2 a1 a2 xt wc s0 s1 bc) (k2_pay3 a5) (k2_pay4 a6) (k2_pay5 wl0) wr0 wl1 wr1 b0 b1 wo) co (ix2 p o)
      = Cert.Sage.outEntry
          (Cert.Sage.cat
            (Cert.Sage.tEntry (fun k => a5 (ix2 p k))
              (Cert.Sage.htK (fun k => xt (ix2 p k)) (a1 (ix2 p (0 : Fin 1))) (a2 (ix2 p (0 : Fin 1)))
                (fun j' => s0 (ix2 (0 : Fin 1) j')) (fun j' => s1 (ix2 (0 : Fin 1) j')) (fun k j' => wc (ix2 k j'))
                (fun j' => bc (ix2 (0 : Fin 1) j')))
              (fun k j' => wl0 (ix2 k j')) (fun k j' => wr0 (ix2 k j')) (fun j' => b0 (ix2 (0 : Fin 1) j')))
            (Cert.Sage.tEntry (fun k => a6 (ix2 p k))
              (Cert.Sage.htK (fun k => xt (ix2 p k)) (a1 (ix2 p (0 : Fin 1))) (a2 (ix2 p (0 : Fin 1)))
                (fun j' => s0 (ix2 (0 : Fin 1) j')) (fun j' => s1 (ix2 (0 : Fin 1) j')) (fun k j' => wc (ix2 k j'))
                (fun j' => bc (ix2 (0 : Fin 1) j')))
              (fun k j' => wl1 (ix2 k j')) (fun k j' => wr1 (ix2 k j')) (fun j' => b1 (ix2 (0 : Fin 1) j'))))
          (fun l => wo (ix2 o l)) (co (ix2 (0 : Fin 1) o)) := by
  rw [pay1_at]
  unfold Cert.Sage.outEntry
  refine congrArg (· + co (ix2 (0 : Fin 1) o)) ?_
  have hrow : ∀ l : Fin 128,
      k2_pay6 (F := Ideal) (k2_pay2 a1 a2 xt wc s0 s1 bc) (k2_pay3 a5) (k2_pay4 a6) (k2_pay5 wl0) wr0 wl1 wr1 b0 b1 (ix2 p l)
        = Cert.Sage.cat
            (Cert.Sage.tEntry (fun k => a5 (ix2 p k))
              (Cert.Sage.htK (fun k => xt (ix2 p k)) (a1 (ix2 p (0 : Fin 1))) (a2 (ix2 p (0 : Fin 1)))
                (fun j' => s0 (ix2 (0 : Fin 1) j')) (fun j' => s1 (ix2 (0 : Fin 1) j')) (fun k j' => wc (ix2 k j'))
                (fun j' => bc (ix2 (0 : Fin 1) j')))
              (fun k j' => wl0 (ix2 k j')) (fun k j' => wr0 (ix2 k j')) (fun j' => b0 (ix2 (0 : Fin 1) j')))
            (Cert.Sage.tEntry (fun k => a6 (ix2 p k))
              (Cert.Sage.htK (fun k => xt (ix2 p k)) (a1 (ix2 p (0 : Fin 1))) (a2 (ix2 p (0 : Fin 1)))
                (fun j' => s0 (ix2 (0 : Fin 1) j')) (fun j' => s1 (ix2 (0 : Fin 1) j')) (fun k j' => wc (ix2 k j'))
                (fun j' => bc (ix2 (0 : Fin 1) j')))
              (fun k j' => wl1 (ix2 k j')) (fun k j' => wr1 (ix2 k j')) (fun j' => b1 (ix2 (0 : Fin 1) j'))) l := by
    intro l
    rw [pay6_at]
    simp only [pay2_at, pay3_at, pay4_at, pay5_at]
  by_cases ho : o.val = 0
  · have ho' : o = (0 : Fin 2) := Fin.ext ho
    subst ho'
    rw [if_pos ho, pay8_at]
    exact Finset.sum_congr rfl fun l _ => congrArg (· * wo (ix2 (0 : Fin 2) l)) (hrow l)
  · have ho' : o = (1 : Fin 2) := Fin.ext (by have := o.isLt; omega)
    subst ho'
    rw [if_neg ho, pay9_at]
    exact Finset.sum_congr rfl fun l _ => congrArg (· * wo (ix2 (1 : Fin 2) l)) (hrow l)

end Cert.Sage.FusedBody

end
-- ==== Proof.Fused.lean ====
/-
  The third kernel region as one whole-array function: the transaction side of the network, from the aggregated features to the
  two read-outs.

  Each grid point takes 4000 rows of the two aggregated raw features, of the transactions' own features and of the two aggregated
  hidden layers, with every weight matrix and bias row whole, and leaves in the same 4000 rows of the [500000, 2] output the
  read-outs of the two second-layer outputs laid side by side.  Here: where each window's block sits at a grid point (decided once
  over the 125 points), each block read as rows of its array, what a grid point writes back as a block of the whole array of
  entries, every row is in the block of the point `row / 4000`, so the output array after the region is that array.
-/
import proofs.«179584_j5403068858514_2_alg».proof.Proof.Gen.KernelIdeal.Frame
import proofs.«179584_j5403068858514_2_alg».proof.Proof.Spec
import proofs.«179584_j5403068858514_2_alg».proof.Proof.FusedBody
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.Sage.Fused

open Idealize.ShloMosaic Idealize.ShloMosaic.TcCoe Idealize.ShloMosaic.ValueIdx Idealize.SL.Sem Cert.KernelIdeal Cert.KernelIdeal.Gen
open Idealize.ShloMosaic.Pipeline (Dat)

theorem zero_offsets : (![0, 0] : Fin 2 → Nat) = fun _ => 0 := funext fun a => by fin_cases a <;> rfl

variable (V : (c : Dev nD) → (b : Ref sig .tc) → Buf (Elt Ideal) ((c : Thread nD τ).loc b))

/-- The transaction-side first layer at (p, ·), from the arrays the region finds. -/
def hidden (c : Dev nD) (p : Fin 500000) : Fin 64 → EReal :=
  Cert.Sage.htK (fun k => V c main_arg2 (ix2 p k)) (V c main_v9 (ix2 p (0 : Fin 1))) (V c main_v19 (ix2 p (0 : Fin 1)))
    (fun j' => V c main_v91 (ix2 (0 : Fin 1) j')) (fun j' => V c main_v93 (ix2 (0 : Fin 1) j')) (fun k j' => V c main_v82 (ix2 k j'))
    (fun j' => V c main_v88 (ix2 (0 : Fin 1) j'))

/-- Entry (p, o) of the network's output, from the arrays the region finds. -/
def entry (c : Dev nD) (p : Fin 500000) (o : Fin 2) : EReal :=
  Cert.Sage.outEntry
    (Cert.Sage.cat
      (Cert.Sage.tEntry (fun k => V c main_v66 (ix2 p k)) (hidden V c p) (fun k j' => V c main_v95 (ix2 k j'))
        (fun k j' => V c main_v97 (ix2 k j')) (fun j' => V c main_v100 (ix2 (0 : Fin 1) j')))
      (Cert.Sage.tEntry (fun k => V c main_v77 (ix2 p k)) (hidden V c p) (fun k j' => V c main_v102 (ix2 k j'))
        (fun k j' => V c main_v104 (ix2 k j')) (fun j' => V c main_v107 (ix2 (0 : Fin 1) j'))))
    (fun l => V c main_v89 (ix2 o l)) (V c main_v108 (ix2 (0 : Fin 1) o))

/-- Where each window's block sits at grid point `t`: the six row-blocked windows (the five row inputs and the output) at block
    row `t`, every parameter window whole. -/
theorem index_facts : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = t.val
    ∧ win2_3.index t (1 : Fin 2) = 0
    ∧ win2_4.index t (0 : Fin 2) = t.val
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = 0
    ∧ win2_10.index t (1 : Fin 2) = 0
    ∧ win2_11.index t (0 : Fin 2) = 0
    ∧ win2_11.index t (1 : Fin 2) = 0
    ∧ win2_12.index t (0 : Fin 2) = 0
    ∧ win2_12.index t (1 : Fin 2) = 0
    ∧ win2_13.index t (0 : Fin 2) = 0
    ∧ win2_13.index t (1 : Fin 2) = 0
    ∧ win2_14.index t (0 : Fin 2) = 0
    ∧ win2_14.index t (1 : Fin 2) = 0
    ∧ win2_15.index t (0 : Fin 2) = 0
    ∧ win2_15.index t (1 : Fin 2) = 0
    ∧ win2_16.index t (0 : Fin 2) = 0
    ∧ win2_16.index t (1 : Fin 2) = 0
    ∧ win2_17.index t (0 : Fin 2) = t.val
    ∧ win2_17.index t (1 : Fin 2) = 0 :=
  (by decide +kernel : ∀ t : Fin grid2.N, _)

/-- Row `p` of the block of grid point `t` is row `4000 t + p` of the whole array. -/
def rowOf (t : Fin cfg2.N) (p : Fin 4000) : Fin 500000 :=
  ⟨t.val * 4000 + p.val, by have h : t.val < 125 := lt_of_lt_of_eq t.isLt (N_2 : cfg2.N = 125); have := p.isLt; omega⟩

/-- Row-blocked input window 0 at point `t`, row `p`: row `4000 t + p` of its array. -/
theorem read0 (c : Dev nD) (t : Fin cfg2.N) (p : Fin 4000) (k : Fin 1) :
    (iblk2 (F := Ideal) V c 0 t : Vec Ideal S4000x1 .f32) (ix2 p k) = (V c main_v9 : S500000x1.Idx → EReal) (ix2 (rowOf t p) k) := by
  obtain ⟨e0, e1, -, -, -, -, -, -, -, -, -, -, -, -, -, -, -, -, -, -, -, -, -, -, -, -, -, -, -, -, -, -, -, -, -, -⟩ := index_facts t
  unfold iblk2
  rw [View.read_apply]
  show (V c main_v9 : S500000x1.Idx → EReal) _ = _
  refine congrArg (V c main_v9 : S500000x1.Idx → EReal) (funext fun a => Fin.ext ?_)
  match a with
  | ⟨0, _⟩ => show win2_0.index t (0 : Fin 2) * 4000 + 1 * p.val = t.val * 4000 + p.val; rw [e0]; omega
  | ⟨1, _⟩ => show win2_0.index t (1 : Fin 2) * 1 + 1 * k.val = k.val; rw [e1]; omega

/-- Row-blocked input window 1 at point `t`, row `p`: row `4000 t + p` of its array. -/
theorem read1 (c : Dev nD) (t : Fin cfg2.N) (p : Fin 4000) (k : Fin 1) :
    (iblk2 (F := Ideal) V c 1 t : Vec Ideal S4000x1 .f32) (ix2 p k) = (V c main_v19 : S500000x1.Idx → EReal) (ix2 (rowOf t p) k) := by
  obtain ⟨-, -, e0, e1, -, -, -, -, -, -, -, -, -, -, -, -, -, -, -, -, -, -, -, -, -, -, -, -, -, -, -, -, -, -, -, -⟩ := index_facts t
  unfold iblk2
  rw [View.read_apply]
  show (V c main_v19 : S500000x1.Idx → EReal) _ = _
  refine congrArg (V c main_v19 : S500000x1.Idx → EReal) (funext fun a => Fin.ext ?_)
  match a with
  | ⟨0, _⟩ => show win2_1.index t (0 : Fin 2) * 4000 + 1 * p.val = t.val * 4000 + p.val; rw [e0]; omega
  | ⟨1, _⟩ => show win2_1.index t (1 : Fin 2) * 1 + 1 * k.val = k.val; rw [e1]; omega

/-- Row-blocked input window 2 at point `t`, row `p`: row `4000 t + p` of its array. -/
theorem read2 (c : Dev nD) (t : Fin cfg2.N) (p : Fin 4000) (k : Fin 85) :
    (iblk2 (F := Ideal) V c 2 t : Vec Ideal S4000x85 .f32) (ix2 p k) = (V c main_arg2 : S500000x85.Idx → EReal) (ix2 (rowOf t p) k) := by
  obtain ⟨-, -, -, -, e0, e1, -, -, -, -, -, -, -, -, -, -, -, -, -, -, -, -, -, -, -, -, -, -, -, -, -, -, -, -, -, -⟩ := index_facts t
  unfold iblk2
  rw [View.read_apply]
  show (V c main_arg2 : S500000x85.Idx → EReal) _ = _
  refine congrArg (V c main_arg2 : S500000x85.Idx → EReal) (funext fun a => Fin.ext ?_)
  match a with
  | ⟨0, _⟩ => show win2_2.index t (0 : Fin 2) * 4000 + 1 * p.val = t.val * 4000 + p.val; rw [e0]; omega
  | ⟨1, _⟩ => show win2_2.index t (1 : Fin 2) * 85 + 1 * k.val = k.val; rw [e1]; omega

/-- Row-blocked input window 3 at point `t`, row `p`: row `4000 t + p` of its array. -/
theorem read3 (c : Dev nD) (t : Fin cfg2.N) (p : Fin 4000) (k : Fin 64) :
    (iblk2 (F := Ideal) V c 3 t : Vec Ideal S4000x64 .f32) (ix2 p k) = (V c main_v66 : S500000x64.Idx → EReal) (ix2 (rowOf t p) k) := by
  obtain ⟨-, -, -, -, -, -, e0, e1, -, -, -, -, -, -, -, -, -, -, -, -, -, -, -, -, -, -, -, -, -, -, -, -, -, -, -, -⟩ := index_facts t
  unfold iblk2
  rw [View.read_apply]
  show (V c main_v66 : S500000x64.Idx → EReal) _ = _
  refine congrArg (V c main_v66 : S500000x64.Idx → EReal) (funext fun a => Fin.ext ?_)
  match a with
  | ⟨0, _⟩ => show win2_3.index t (0 : Fin 2) * 4000 + 1 * p.val = t.val * 4000 + p.val; rw [e0]; omega
  | ⟨1, _⟩ => show win2_3.index t (1 : Fin 2) * 64 + 1 * k.val = k.val; rw [e1]; omega

/-- Row-blocked input window 4 at point `t`, row `p`: row `4000 t + p` of its array. -/
theorem read4 (c : Dev nD) (t : Fin cfg2.N) (p : Fin 4000) (k : Fin 64) :
    (iblk2 (F := Ideal) V c 4 t : Vec Ideal S4000x64 .f32) (ix2 p k) = (V c main_v77 : S500000x64.Idx → EReal) (ix2 (rowOf t p) k) := by
  obtain ⟨-, -, -, -, -, -, -, -, e0, e1, -, -, -, -, -, -, -, -, -, -, -, -, -, -, -, -, -, -, -, -, -, -, -, -, -, -⟩ := index_facts t
  unfold iblk2
  rw [View.read_apply]
  show (V c main_v77 : S500000x64.Idx → EReal) _ = _
  refine congrArg (V c main_v77 : S500000x64.Idx → EReal) (funext fun a => Fin.ext ?_)
  match a with
  | ⟨0, _⟩ => show win2_4.index t (0 : Fin 2) * 4000 + 1 * p.val = t.val * 4000 + p.val; rw [e0]; omega
  | ⟨1, _⟩ => show win2_4.index t (1 : Fin 2) * 64 + 1 * k.val = k.val; rw [e1]; omega

/-- Parameter window 5 is staged whole at every point. -/
theorem read5 (c : Dev nD) (t : Fin cfg2.N) :
    (iblk2 (F := Ideal) V c 5 t : Vec Ideal S1x64 .f32) = (V c main_v91 : S1x64.Idx → EReal) := by
  obtain ⟨-, -, -, -, -, -, -, -, -, -, e0, e1, -, -, -, -, -, -, -, -, -, -, -, -, -, -, -, -, -, -, -, -, -, -, -, -⟩ := index_facts t
  funext y
  unfold iblk2
  rw [View.read_apply]
  show (V c main_v91 : S1x64.Idx → EReal) _ = _
  refine congrArg (V c main_v91 : S1x64.Idx → EReal) (funext fun a => Fin.ext ?_)
  match a with
  | ⟨0, _⟩ => show win2_5.index t (0 : Fin 2) * 1 + 1 * (y 0).val = (y 0).val; rw [e0]; omega
  | ⟨1, _⟩ => show win2_5.index t (1 : Fin 2) * 64 + 1 * (y 1).val = (y 1).val; rw [e1]; omega

/-- Parameter window 6 is staged whole at every point. -/
theorem read6 (c : Dev nD) (t : Fin cfg2.N) :
    (iblk2 (F := Ideal) V c 6 t : Vec Ideal S1x64 .f32) = (V c main_v93 : S1x64.Idx → EReal) := by
  obtain ⟨-, -, -, -, -, -, -, -, -, -, -, -, e0, e1, -, -, -, -, -, -, -, -, -, -, -, -, -, -, -, -, -, -, -, -, -, -⟩ := index_facts t
  funext y
  unfold iblk2
  rw [View.read_apply]
  show (V c main_v93 : S1x64.Idx → EReal) _ = _
  refine congrArg (V c main_v93 : S1x64.Idx → EReal) (funext fun a => Fin.ext ?_)
  match a with
  | ⟨0, _⟩ => show win2_6.index t (0 : Fin 2) * 1 + 1 * (y 0).val = (y 0).val; rw [e0]; omega
  | ⟨1, _⟩ => show win2_6.index t (1 : Fin 2) * 64 + 1 * (y 1).val = (y 1).val; rw [e1]; omega

/-- Parameter window 7 is staged whole at every point. -/
theorem read7 (c : Dev nD) (t : Fin cfg2.N) :
    (iblk2 (F := Ideal) V c 7 t : Vec Ideal S85x64 .f32) = (V c main_v82 : S85x64.Idx → EReal) := by
  obtain ⟨-, -, -, -, -, -, -, -, -, -, -, -, -, -, e0, e1, -, -, -, -, -, -, -, -, -, -, -, -, -, -, -, -, -, -, -, -⟩ := index_facts t
  funext y
  unfold iblk2
  rw [View.read_apply]
  show (V c main_v82 : S85x64.Idx → EReal) _ = _
  refine congrArg (V c main_v82 : S85x64.Idx → EReal) (funext fun a => Fin.ext ?_)
  match a with
  | ⟨0, _⟩ => show win2_7.index t (0 : Fin 2) * 85 + 1 * (y 0).val = (y 0).val; rw [e0]; omega
  | ⟨1, _⟩ => show win2_7.index t (1 : Fin 2) * 64 + 1 * (y 1).val = (y 1).val; rw [e1]; omega

/-- Parameter window 8 is staged whole at every point. -/
theorem read8 (c : Dev nD) (t : Fin cfg2.N) :
    (iblk2 (F := Ideal) V c 8 t : Vec Ideal S1x64 .f32) = (V c main_v88 : S1x64.Idx → EReal) := by
  obtain ⟨-, -, -, -, -, -, -, -, -, -, -, -, -, -, -, -, e0, e1, -, -, -, -, -, -, -, -, -, -, -, -, -, -, -, -, -, -⟩ := index_facts t
  funext y
  unfold iblk2
  rw [View.read_apply]
  show (V c main_v88 : S1x64.Idx → EReal) _ = _
  refine congrArg (V c main_v88 : S1x64.Idx → EReal) (funext fun a => Fin.ext ?_)
  match a with
  | ⟨0, _⟩ => show win2_8.index t (0 : Fin 2) * 1 + 1 * (y 0).val = (y 0).val; rw [e0]; omega
  | ⟨1, _⟩ => show win2_8.index t (1 : Fin 2) * 64 + 1 * (y 1).val = (y 1).val; rw [e1]; omega

/-- Parameter window 9 is staged whole at every point. -/
theorem read9 (c : Dev nD) (t : Fin cfg2.N) :
    (iblk2 (F := Ideal) V c 9 t : Vec Ideal S64x64 .f32) = (V c main_v95 : S64x64.Idx → EReal) := by
  obtain ⟨-, -, -, -, -, -, -, -, -, -, -, -, -, -, -, -, -, -, e0, e1, -, -, -, -, -, -, -, -, -, -, -, -, -, -, -, -⟩ := index_facts t
  funext y
  unfold iblk2
  rw [View.read_apply]
  show (V c main_v95 : S64x64.Idx → EReal) _ = _
  refine congrArg (V c main_v95 : S64x64.Idx → EReal) (funext fun a => Fin.ext ?_)
  match a with
  | ⟨0, _⟩ => show win2_9.index t (0 : Fin 2) * 64 + 1 * (y 0).val = (y 0).val; rw [e0]; omega
  | ⟨1, _⟩ => show win2_9.index t (1 : Fin 2) * 64 + 1 * (y 1).val = (y 1).val; rw [e1]; omega

/-- Parameter window 10 is staged whole at every point. -/
theorem read10 (c : Dev nD) (t : Fin cfg2.N) :
    (iblk2 (F := Ideal) V c 10 t : Vec Ideal S64x64 .f32) = (V c main_v97 : S64x64.Idx → EReal) := by
  obtain ⟨-, -, -, -, -, -, -, -, -, -, -, -, -, -, -, -, -, -, -, -, e0, e1, -, -, -, -, -, -, -, -, -, -, -, -, -, -⟩ := index_facts t
  funext y
  unfold iblk2
  rw [View.read_apply]
  show (V c main_v97 : S64x64.Idx → EReal) _ = _
  refine congrArg (V c main_v97 : S64x64.Idx → EReal) (funext fun a => Fin.ext ?_)
  match a with
  | ⟨0, _⟩ => show win2_10.index t (0 : Fin 2) * 64 + 1 * (y 0).val = (y 0).val; rw [e0]; omega
  | ⟨1, _⟩ => show win2_10.index t (1 : Fin 2) * 64 + 1 * (y 1).val = (y 1).val; rw [e1]; omega

/-- Parameter window 11 is staged whole at every point. -/
theorem read11 (c : Dev nD) (t : Fin cfg2.N) :
    (iblk2 (F := Ideal) V c 11 t : Vec Ideal S1x64 .f32) = (V c main_v100 : S1x64.Idx → EReal) := by
  obtain ⟨-, -, -, -, -, -, -, -, -, -, -, -, -, -, -, -, -, -, -, -, -, -, e0, e1, -, -, -, -, -, -, -, -, -, -, -, -⟩ := index_facts t
  funext y
  unfold iblk2
  rw [View.read_apply]
  show (V c main_v100 : S1x64.Idx → EReal) _ = _
  refine congrArg (V c main_v100 : S1x64.Idx → EReal) (funext fun a => Fin.ext ?_)
  match a with
  | ⟨0, _⟩ => show win2_11.index t (0 : Fin 2) * 1 + 1 * (y 0).val = (y 0).val; rw [e0]; omega
  | ⟨1, _⟩ => show win2_11.index t (1 : Fin 2) * 64 + 1 * (y 1).val = (y 1).val; rw [e1]; omega

/-- Parameter window 12 is staged whole at every point. -/
theorem read12 (c : Dev nD) (t : Fin cfg2.N) :
    (iblk2 (F := Ideal) V c 12 t : Vec Ideal S64x64 .f32) = (V c main_v102 : S64x64.Idx → EReal) := by
  obtain ⟨-, -, -, -, -, -, -, -, -, -, -, -, -, -, -, -, -, -, -, -, -, -, -, -, e0, e1, -, -, -, -, -, -, -, -, -, -⟩ := index_facts t
  funext y
  unfold iblk2
  rw [View.read_apply]
  show (V c main_v102 : S64x64.Idx → EReal) _ = _
  refine congrArg (V c main_v102 : S64x64.Idx → EReal) (funext fun a => Fin.ext ?_)
  match a with
  | ⟨0, _⟩ => show win2_12.index t (0 : Fin 2) * 64 + 1 * (y 0).val = (y 0).val; rw [e0]; omega
  | ⟨1, _⟩ => show win2_12.index t (1 : Fin 2) * 64 + 1 * (y 1).val = (y 1).val; rw [e1]; omega

/-- Parameter window 13 is staged whole at every point. -/
theorem read13 (c : Dev nD) (t : Fin cfg2.N) :
    (iblk2 (F := Ideal) V c 13 t : Vec Ideal S64x64 .f32) = (V c main_v104 : S64x64.Idx → EReal) := by
  obtain ⟨-, -, -, -, -, -, -, -, -, -, -, -, -, -, -, -, -, -, -, -, -, -, -, -, -, -, e0, e1, -, -, -, -, -, -, -, -⟩ := index_facts t
  funext y
  unfold iblk2
  rw [View.read_apply]
  show (V c main_v104 : S64x64.Idx → EReal) _ = _
  refine congrArg (V c main_v104 : S64x64.Idx → EReal) (funext fun a => Fin.ext ?_)
  match a with
  | ⟨0, _⟩ => show win2_13.index t (0 : Fin 2) * 64 + 1 * (y 0).val = (y 0).val; rw [e0]; omega
  | ⟨1, _⟩ => show win2_13.index t (1 : Fin 2) * 64 + 1 * (y 1).val = (y 1).val; rw [e1]; omega

/-- Parameter window 14 is staged whole at every point. -/
theorem read14 (c : Dev nD) (t : Fin cfg2.N) :
    (iblk2 (F := Ideal) V c 14 t : Vec Ideal S1x64 .f32) = (V c main_v107 : S1x64.Idx → EReal) := by
  obtain ⟨-, -, -, -, -, -, -, -, -, -, -, -, -, -, -, -, -, -, -, -, -, -, -, -, -, -, -, -, e0, e1, -, -, -, -, -, -⟩ := index_facts t
  funext y
  unfold iblk2
  rw [View.read_apply]
  show (V c main_v107 : S1x64.Idx → EReal) _ = _
  refine congrArg (V c main_v107 : S1x64.Idx → EReal) (funext fun a => Fin.ext ?_)
  match a with
  | ⟨0, _⟩ => show win2_14.index t (0 : Fin 2) * 1 + 1 * (y 0).val = (y 0).val; rw [e0]; omega
  | ⟨1, _⟩ => show win2_14.index t (1 : Fin 2) * 64 + 1 * (y 1).val = (y 1).val; rw [e1]; omega

/-- Parameter window 15 is staged whole at every point. -/
theorem read15 (c : Dev nD) (t : Fin cfg2.N) :
    (iblk2 (F := Ideal) V c 15 t : Vec Ideal S2x128 .f32) = (V c main_v89 : S2x128.Idx → EReal) := by
  obtain ⟨-, -, -, -, -, -, -, -, -, -, -, -, -, -, -, -, -, -, -, -, -, -, -, -, -, -, -, -, -, -, e0, e1, -, -, -, -⟩ := index_facts t
  funext y
  unfold iblk2
  rw [View.read_apply]
  show (V c main_v89 : S2x128.Idx → EReal) _ = _
  refine congrArg (V c main_v89 : S2x128.Idx → EReal) (funext fun a => Fin.ext ?_)
  match a with
  | ⟨0, _⟩ => show win2_15.index t (0 : Fin 2) * 2 + 1 * (y 0).val = (y 0).val; rw [e0]; omega
  | ⟨1, _⟩ => show win2_15.index t (1 : Fin 2) * 128 + 1 * (y 1).val = (y 1).val; rw [e1]; omega

/-- Parameter window 16 is staged whole at every point. -/
theorem read16 (c : Dev nD) (t : Fin cfg2.N) :
    (iblk2 (F := Ideal) V c 16 t : Vec Ideal S1x2 .f32) = (V c main_v108 : S1x2.Idx → EReal) := by
  obtain ⟨-, -, -, -, -, -, -, -, -, -, -, -, -, -, -, -, -, -, -, -, -, -, -, -, -, -, -, -, -, -, -, -, e0, e1, -, -⟩ := index_facts t
  funext y
  unfold iblk2
  rw [View.read_apply]
  show (V c main_v108 : S1x2.Idx → EReal) _ = _
  refine congrArg (V c main_v108 : S1x2.Idx → EReal) (funext fun a => Fin.ext ?_)
  match a with
  | ⟨0, _⟩ => show win2_16.index t (0 : Fin 2) * 1 + 1 * (y 0).val = (y 0).val; rw [e0]; omega
  | ⟨1, _⟩ => show win2_16.index t (1 : Fin 2) * 2 + 1 * (y 1).val = (y 1).val; rw [e1]; omega

/-- What the body computes at point `t`, at (p, o) of its block: the output's entry at row `4000 t + p`. -/
theorem computed_entry (c : Dev nD) (t : Fin cfg2.N) (p : Fin 4000) (o : Fin 2) :
    k2_pay1 (F := Ideal)
        (k2_pay8 (k2_pay2 (iblk2 V c 0 t) (iblk2 V c 1 t) (iblk2 V c 2 t) (iblk2 V c 7 t) (iblk2 V c 5 t) (iblk2 V c 6 t) (iblk2 V c 8 t)) (k2_pay3 (iblk2 V c 3 t)) (k2_pay4 (iblk2 V c 4 t)) (k2_pay5 (iblk2 V c 9 t)) (iblk2 V c 10 t) (iblk2 V c 12 t) (iblk2 V c 13 t) (iblk2 V c 11 t) (iblk2 V c 14 t) (iblk2 V c 15 t))
        (k2_pay9 (k2_pay2 (iblk2 V c 0 t) (iblk2 V c 1 t) (iblk2 V c 2 t) (iblk2 V c 7 t) (iblk2 V c 5 t) (iblk2 V c 6 t) (iblk2 V c 8 t)) (k2_pay3 (iblk2 V c 3 t)) (k2_pay4 (iblk2 V c 4 t)) (k2_pay5 (iblk2 V c 9 t)) (iblk2 V c 10 t) (iblk2 V c 12 t) (iblk2 V c 13 t) (iblk2 V c 11 t) (iblk2 V c 14 t) (iblk2 V c 15 t))
        (iblk2 V c 16 t) (ix2 p o)
      = entry V c (rowOf t p) o := by
  refine (Cert.Sage.FusedBody.body_at (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) p o).trans ?_
  have h0 : (iblk2 (F := Ideal) V c 0 t : Vec Ideal S4000x1 .f32) (ix2 p (0 : Fin 1)) = (V c main_v9 : S500000x1.Idx → EReal) (ix2 (rowOf t p) (0 : Fin 1)) := read0 V c t p 0
  have h1 : (iblk2 (F := Ideal) V c 1 t : Vec Ideal S4000x1 .f32) (ix2 p (0 : Fin 1)) = (V c main_v19 : S500000x1.Idx → EReal) (ix2 (rowOf t p) (0 : Fin 1)) := read1 V c t p 0
  have h2 : (fun k => (iblk2 (F := Ideal) V c 2 t : Vec Ideal S4000x85 .f32) (ix2 p k))
      = fun k => (V c main_arg2 : S500000x85.Idx → EReal) (ix2 (rowOf t p) k) := funext fun k => read2 V c t p k
  have h3 : (fun k => (iblk2 (F := Ideal) V c 3 t : Vec Ideal S4000x64 .f32) (ix2 p k))
      = fun k => (V c main_v66 : S500000x64.Idx → EReal) (ix2 (rowOf t p) k) := funext fun k => read3 V c t p k
  have h4 : (fun k => (iblk2 (F := Ideal) V c 4 t : Vec Ideal S4000x64 .f32) (ix2 p k))
      = fun k => (V c main_v77 : S500000x64.Idx → EReal) (ix2 (rowOf t p) k) := funext fun k => read4 V c t p k
  rw [h0, h1, h2, h3, h4, read5 V c t, read6 V c t, read7 V c t, read8 V c t, read9 V c t, read10 V c t, read11 V c t, read12 V c t, read13 V c t, read14 V c t, read15 V c t, read16 V c t]
  rfl

/-- What point `t` writes back is its block of the whole array of entries. -/
theorem written (c : Dev nD) (t : Fin cfg2.N) :
    (dat2 (F := Ideal) V c).flushed 17 t
      = ((cfg2.win 17).blk t).view.read (Elt Ideal) (fun i : S500000x2.Idx => entry V c (i 0) (i 1)) := by
  show (cfg2.win 17).cut (grid2.coords t) ((dat2 V c).after 17 t) = _
  rw [after2_17]
  unfold out2_17
  rw [View.canon_unit_zero zero_offsets]
  simp only [View.ld_unit_zero (S := S4000x1) zero_offsets, View.ld_unit_zero (S := S4000x85) zero_offsets,
    View.ld_unit_zero (S := S4000x64) zero_offsets, View.ld_unit_zero (S := S85x64) zero_offsets,
    View.ld_unit_zero (S := S1x64) zero_offsets, View.ld_unit_zero (S := S64x64) zero_offsets,
    View.ld_unit_zero (S := S2x128) zero_offsets, View.ld_unit_zero (S := S1x2) zero_offsets]
  obtain ⟨-, -, -, -, -, -, -, -, -, -, -, -, -, -, -, -, -, -, -, -, -, -, -, -, -, -, -, -, -, -, -, -, -, -, e0, e1⟩ := index_facts t
  funext y
  obtain ⟨p, o, rfl⟩ : ∃ (p : Fin 4000) (o : Fin 2), y = ix2 p o := ⟨y 0, y 1, eq_ix2 y⟩
  refine (computed_entry V c t p o).trans ?_
  refine congrArg₂ (entry V c) (Fin.ext ?_) (Fin.ext ?_)
  · show t.val * 4000 + p.val = win2_17.index t (0 : Fin 2) * 4000 + 1 * p.val; rw [e0]; omega
  · show o.val = win2_17.index t (1 : Fin 2) * 2 + 1 * o.val; rw [e1]; omega

/-- An index of the output array is in point `t`'s block iff each coordinate is in the block's range on its axis. -/
theorem mem_block (t : Fin cfg2.N) (i : S500000x2.Idx) :
    i ∈ ((cfg2.win 17).blk t).view.set ↔ ∀ a : Fin 2, win2_17.index t a * S4000x2.size a ≤ (i a).val ∧ (i a).val < win2_17.index t a * S4000x2.size a + S4000x2.size a := by
  show i ∈ ((View.whole main_v109).slice (win2_17.rect t)).set ↔ _
  rw [View.set_slice_whole, Rect.mem_set_unit]
  exact Iff.rfl

/-- Every row `r` is in the block of the point `r / 4000`. -/
theorem row_covered (i : S500000x2.Idx) :
    ∃ t : Fin cfg2.N, (cfg2.win 17).flush t = true ∧ i ∈ ((cfg2.win 17).blk t).view.set := by
  have hi0 : (i 0).val < 500000 := (i 0).isLt
  have hi1 : (i 1).val < 2 := (i 1).isLt
  obtain ⟨t, ht⟩ : ∃ t : Fin cfg2.N, t.val = (i 0).val / 4000 := ⟨⟨(i 0).val / 4000, by rw [show cfg2.N = 125 from N_2]; omega⟩, rfl⟩
  obtain ⟨-, -, -, -, -, -, -, -, -, -, -, -, -, -, -, -, -, -, -, -, -, -, -, -, -, -, -, -, -, -, -, -, -, -, e0, e1⟩ := index_facts t
  refine ⟨t, flush2_17 t, ?_⟩
  rw [mem_block]
  intro a
  match a with
  | ⟨0, _⟩ =>
    show win2_17.index t (0 : Fin 2) * 4000 ≤ (i 0).val ∧ (i 0).val < win2_17.index t (0 : Fin 2) * 4000 + 4000
    rw [e0, ht]; omega
  | ⟨1, _⟩ =>
    show win2_17.index t (1 : Fin 2) * 2 ≤ (i 1).val ∧ (i 1).val < win2_17.index t (1 : Fin 2) * 2 + 2
    rw [e1]; omega

/-- The output array after the region: the network's output, entry by entry. -/
theorem final (c : Dev nD) : (dat2 (F := Ideal) V c).arrAt 17 cfg2.N = fun i : S500000x2.Idx => entry V c (i 0) (i 1) :=
  (dat2 V c).arrAt_eq_of_cover 17 _ (fun t _ => written V c t) row_covered

end Cert.Sage.Fused

end
-- ==== Proof.RefRead.lean ====
/-
  The reference network read at one entry.

  The reference is a two-layer heterogeneous neighbour-aggregation network.  Its neighbour sums (a gather followed by a
  scatter-add) are kept as opaque arrays; everything else is an affine map, a positive part, or a change of layout, and is read
  here at a single index over the extended reals:

  * `slice_vN`  : the parameters of one relation — a unit slice of a stacked parameter followed by a reshape — are the stacked
                   parameter at `(r, ·, ·)`;
  * `bias_vN`   : a bias row broadcast over the nodes is the bias at the column;
  * `hc_entry`, `hm_entry` : the two root-side first-layer outputs at `(p, j)` are `Cert.Sage.rootEntry`;
  * `ht_entry`  : the transaction-side first-layer output at `(p, j)` is `Cert.Sage.htR`, the sum of the two relations' affine maps;
  * `out_entry` : the network's output at `(p, o)` is the affine read-out `Cert.Sage.outEntry` of the two second-layer rows
                   `Cert.Sage.tEntry` laid side by side (`Cert.Sage.cat`).

  A contraction over an axis of extent one is its single term; regrouping uses no distributivity, so nothing here needs a
  finiteness hypothesis.
-/
import proofs.«179584_j5403068858514_2_alg».proof.Proof.Gen.ReferenceIdeal.Read
import proofs.«179584_j5403068858514_2_alg».proof.Proof.Spec

noncomputable section

open scoped BigOperators

namespace Cert.Sage.Ref

open Cert.ReferenceIdeal Cert.ReferenceIdeal.Read Idealize.ShloMosaic Idealize.ShloMosaic.ValueIdx

variable (x0 : (⟨S50000x1, .f32⟩ : BufTy).Contents (Elt Ideal)) (x1 : (⟨S10000x1, .f32⟩ : BufTy).Contents (Elt Ideal))
  (x2 : (⟨S500000x85, .f32⟩ : BufTy).Contents (Elt Ideal)) (x3 : (⟨S2x1x64, .f32⟩ : BufTy).Contents (Elt Ideal))
  (x4 : (⟨S2x85x64, .f32⟩ : BufTy).Contents (Elt Ideal)) (x5 : (⟨S2x64, .f32⟩ : BufTy).Contents (Elt Ideal))
  (x6 : (⟨S2x85x64, .f32⟩ : BufTy).Contents (Elt Ideal)) (x7 : (⟨S2x1x64, .f32⟩ : BufTy).Contents (Elt Ideal))
  (x8 : (⟨S2x64, .f32⟩ : BufTy).Contents (Elt Ideal)) (x9 x10 : (⟨S4x64x64, .f32⟩ : BufTy).Contents (Elt Ideal))
  (x11 : (⟨S4x64, .f32⟩ : BufTy).Contents (Elt Ideal)) (x12 : (⟨S128x2, .f32⟩ : BufTy).Contents (Elt Ideal))
  (x13 : (⟨S2, .f32⟩ : BufTy).Contents (Elt Ideal)) (x14 x15 x16 x17 : (⟨S500000, .i32⟩ : BufTy).Contents (Elt Ideal))

/-! ## The weights and biases of one relation: a slice of the stacked parameter, reshaped

Each `[R, a, b]` (or `[R, b]`) parameter stacks one matrix (or row) per relation; the reference selects relation `r` by a
unit slice along the leading axis and drops that axis by a reshape.  Read at an entry this is the stacked parameter at
`(r, ·, ·)`: the reshape's row-major index arithmetic `(k * 64 + j) / 64 % a = k`, `(k * 64 + j) % 64 = j` is all there is. -/

/-- The transaction side's own-feature row of relation 0. -/
theorem slice_v1 (j : Fin 64) : val_main_v1 (F := Ideal) x3 (ix2 (0 : Fin 1) j) = x3 (ix3 (0 : Fin 2) (0 : Fin 1) j) := by
  rw [val_main_v1_apply, val_main_v0_apply]
  refine congrArg x3 (funext fun a => Fin.ext ?_)
  have hj := j.isLt
  match a with
  | ⟨0, _⟩ => rfl
  | ⟨1, _⟩ => rfl
  | ⟨2, _⟩ => show (0 * 64 + j.val) % 64 = j.val; omega

/-- The transaction side's own-feature row of relation 1. -/
theorem slice_v23 (j : Fin 64) : val_main_v23 (F := Ideal) x3 (ix2 (0 : Fin 1) j) = x3 (ix3 (1 : Fin 2) (0 : Fin 1) j) := by
  rw [val_main_v23_apply, val_main_v22_apply]
  refine congrArg x3 (funext fun a => Fin.ext ?_)
  have hj := j.isLt
  match a with
  | ⟨0, _⟩ => rfl
  | ⟨1, _⟩ => rfl
  | ⟨2, _⟩ => show (0 * 64 + j.val) % 64 = j.val; omega

/-- The root side's own-feature row of relation 0. -/
theorem slice_v48 (j : Fin 64) : val_main_v48 (F := Ideal) x7 (ix2 (0 : Fin 1) j) = x7 (ix3 (0 : Fin 2) (0 : Fin 1) j) := by
  rw [val_main_v48_apply, val_main_v47_apply]
  refine congrArg x7 (funext fun a => Fin.ext ?_)
  have hj := j.isLt
  match a with
  | ⟨0, _⟩ => rfl
  | ⟨1, _⟩ => rfl
  | ⟨2, _⟩ => show (0 * 64 + j.val) % 64 = j.val; omega

/-- The root side's own-feature row of relation 1. -/
theorem slice_v70 (j : Fin 64) : val_main_v70 (F := Ideal) x7 (ix2 (0 : Fin 1) j) = x7 (ix3 (1 : Fin 2) (0 : Fin 1) j) := by
  rw [val_main_v70_apply, val_main_v69_apply]
  refine congrArg x7 (funext fun a => Fin.ext ?_)
  have hj := j.isLt
  match a with
  | ⟨0, _⟩ => rfl
  | ⟨1, _⟩ => rfl
  | ⟨2, _⟩ => show (0 * 64 + j.val) % 64 = j.val; omega

/-- The transaction side's `[85,64]` matrix of relation 0. -/
theorem slice_v3 (k : Fin 85) (j : Fin 64) : val_main_v3 (F := Ideal) x4 (ix2 k j) = x4 (ix3 (0 : Fin 2) k j) := by
  rw [val_main_v3_apply, val_main_v2_apply]
  refine congrArg x4 (funext fun a => Fin.ext ?_)
  have hk := k.isLt; have hj := j.isLt
  match a with
  | ⟨0, _⟩ => rfl
  | ⟨1, _⟩ => show (k.val * 64 + j.val) / 64 % 85 = k.val; omega
  | ⟨2, _⟩ => show (k.val * 64 + j.val) % 64 = j.val; omega

/-- The transaction side's `[85,64]` matrix of relation 1. -/
theorem slice_v25 (k : Fin 85) (j : Fin 64) : val_main_v25 (F := Ideal) x4 (ix2 k j) = x4 (ix3 (1 : Fin 2) k j) := by
  rw [val_main_v25_apply, val_main_v24_apply]
  refine congrArg x4 (funext fun a => Fin.ext ?_)
  have hk := k.isLt; have hj := j.isLt
  match a with
  | ⟨0, _⟩ => rfl
  | ⟨1, _⟩ => show (k.val * 64 + j.val) / 64 % 85 = k.val; omega
  | ⟨2, _⟩ => show (k.val * 64 + j.val) % 64 = j.val; omega

/-- The root side's `[85,64]` matrix of relation 0. -/
theorem slice_v46 (k : Fin 85) (j : Fin 64) : val_main_v46 (F := Ideal) x6 (ix2 k j) = x6 (ix3 (0 : Fin 2) k j) := by
  rw [val_main_v46_apply, val_main_v45_apply]
  refine congrArg x6 (funext fun a => Fin.ext ?_)
  have hk := k.isLt; have hj := j.isLt
  match a with
  | ⟨0, _⟩ => rfl
  | ⟨1, _⟩ => show (k.val * 64 + j.val) / 64 % 85 = k.val; omega
  | ⟨2, _⟩ => show (k.val * 64 + j.val) % 64 = j.val; omega

/-- The root side's `[85,64]` matrix of relation 1. -/
theorem slice_v68 (k : Fin 85) (j : Fin 64) : val_main_v68 (F := Ideal) x6 (ix2 k j) = x6 (ix3 (1 : Fin 2) k j) := by
  rw [val_main_v68_apply, val_main_v67_apply]
  refine congrArg x6 (funext fun a => Fin.ext ?_)
  have hk := k.isLt; have hj := j.isLt
  match a with
  | ⟨0, _⟩ => rfl
  | ⟨1, _⟩ => show (k.val * 64 + j.val) / 64 % 85 = k.val; omega
  | ⟨2, _⟩ => show (k.val * 64 + j.val) % 64 = j.val; omega

/-- The second layer's aggregated-row matrix of relation 0. -/
theorem slice_v93 (k j : Fin 64) : val_main_v93 (F := Ideal) x9 (ix2 k j) = x9 (ix3 (0 : Fin 4) k j) := by
  rw [val_main_v93_apply, val_main_v92_apply]
  refine congrArg x9 (funext fun a => Fin.ext ?_)
  have hk := k.isLt; have hj := j.isLt
  match a with
  | ⟨0, _⟩ => rfl
  | ⟨1, _⟩ => show (k.val * 64 + j.val) / 64 % 64 = k.val; omega
  | ⟨2, _⟩ => show (k.val * 64 + j.val) % 64 = j.val; omega

/-- The second layer's own-row matrix of relation 0. -/
theorem slice_v95 (k j : Fin 64) : val_main_v95 (F := Ideal) x10 (ix2 k j) = x10 (ix3 (0 : Fin 4) k j) := by
  rw [val_main_v95_apply, val_main_v94_apply]
  refine congrArg x10 (funext fun a => Fin.ext ?_)
  have hk := k.isLt; have hj := j.isLt
  match a with
  | ⟨0, _⟩ => rfl
  | ⟨1, _⟩ => show (k.val * 64 + j.val) / 64 % 64 = k.val; omega
  | ⟨2, _⟩ => show (k.val * 64 + j.val) % 64 = j.val; omega

/-- The second layer's aggregated-row matrix of relation 1. -/
theorem slice_v115 (k j : Fin 64) : val_main_v115 (F := Ideal) x9 (ix2 k j) = x9 (ix3 (1 : Fin 4) k j) := by
  rw [val_main_v115_apply, val_main_v114_apply]
  refine congrArg x9 (funext fun a => Fin.ext ?_)
  have hk := k.isLt; have hj := j.isLt
  match a with
  | ⟨0, _⟩ => rfl
  | ⟨1, _⟩ => show (k.val * 64 + j.val) / 64 % 64 = k.val; omega
  | ⟨2, _⟩ => show (k.val * 64 + j.val) % 64 = j.val; omega

/-- The second layer's own-row matrix of relation 1. -/
theorem slice_v117 (k j : Fin 64) : val_main_v117 (F := Ideal) x10 (ix2 k j) = x10 (ix3 (1 : Fin 4) k j) := by
  rw [val_main_v117_apply, val_main_v116_apply]
  refine congrArg x10 (funext fun a => Fin.ext ?_)
  have hk := k.isLt; have hj := j.isLt
  match a with
  | ⟨0, _⟩ => rfl
  | ⟨1, _⟩ => show (k.val * 64 + j.val) / 64 % 64 = k.val; omega
  | ⟨2, _⟩ => show (k.val * 64 + j.val) % 64 = j.val; omega

/-- The transaction side's bias of relation 0. -/
theorem slice_v5 (j : Fin 64) : val_main_v5 (F := Ideal) x5 (ix1 j) = x5 (ix2 (0 : Fin 2) j) := by
  rw [val_main_v5_apply, val_main_v4_apply]
  refine congrArg x5 (funext fun a => Fin.ext ?_)
  have hj := j.isLt
  match a with
  | ⟨0, _⟩ => rfl
  | ⟨1, _⟩ => show j.val % 64 = j.val; omega

/-- The transaction side's bias of relation 1. -/
theorem slice_v27 (j : Fin 64) : val_main_v27 (F := Ideal) x5 (ix1 j) = x5 (ix2 (1 : Fin 2) j) := by
  rw [val_main_v27_apply, val_main_v26_apply]
  refine congrArg x5 (funext fun a => Fin.ext ?_)
  have hj := j.isLt
  match a with
  | ⟨0, _⟩ => rfl
  | ⟨1, _⟩ => show j.val % 64 = j.val; omega

/-- The root side's bias of relation 0. -/
theorem slice_v50 (j : Fin 64) : val_main_v50 (F := Ideal) x8 (ix1 j) = x8 (ix2 (0 : Fin 2) j) := by
  rw [val_main_v50_apply, val_main_v49_apply]
  refine congrArg x8 (funext fun a => Fin.ext ?_)
  have hj := j.isLt
  match a with
  | ⟨0, _⟩ => rfl
  | ⟨1, _⟩ => show j.val % 64 = j.val; omega

/-- The root side's bias of relation 1. -/
theorem slice_v72 (j : Fin 64) : val_main_v72 (F := Ideal) x8 (ix1 j) = x8 (ix2 (1 : Fin 2) j) := by
  rw [val_main_v72_apply, val_main_v71_apply]
  refine congrArg x8 (funext fun a => Fin.ext ?_)
  have hj := j.isLt
  match a with
  | ⟨0, _⟩ => rfl
  | ⟨1, _⟩ => show j.val % 64 = j.val; omega

/-- The second layer's bias of relation 0. -/
theorem slice_v97 (j : Fin 64) : val_main_v97 (F := Ideal) x11 (ix1 j) = x11 (ix2 (0 : Fin 4) j) := by
  rw [val_main_v97_apply, val_main_v96_apply]
  refine congrArg x11 (funext fun a => Fin.ext ?_)
  have hj := j.isLt
  match a with
  | ⟨0, _⟩ => rfl
  | ⟨1, _⟩ => show j.val % 64 = j.val; omega

/-- The second layer's bias of relation 1. -/
theorem slice_v119 (j : Fin 64) : val_main_v119 (F := Ideal) x11 (ix1 j) = x11 (ix2 (1 : Fin 4) j) := by
  rw [val_main_v119_apply, val_main_v118_apply]
  refine congrArg x11 (funext fun a => Fin.ext ?_)
  have hj := j.isLt
  match a with
  | ⟨0, _⟩ => rfl
  | ⟨1, _⟩ => show j.val % 64 = j.val; omega

/-! ## A bias row broadcast over the nodes -/

/-- Relation 0's transaction-side bias at any node. -/
theorem bias_v20 (p : Fin 500000) (j : Fin 64) : val_main_v20 (F := Ideal) x5 (ix2 p j) = x5 (ix2 (0 : Fin 2) j) := by
  rw [val_main_v20_apply, val_main_v19_apply,
    show idx_main_v19 (idx_main_v20 (ix2 p j)) = ix1 j from funext fun a => by match a with | ⟨0, _⟩ => rfl]
  exact slice_v5 x5 j

/-- Relation 1's transaction-side bias at any node. -/
theorem bias_v42 (p : Fin 500000) (j : Fin 64) : val_main_v42 (F := Ideal) x5 (ix2 p j) = x5 (ix2 (1 : Fin 2) j) := by
  rw [val_main_v42_apply, val_main_v41_apply,
    show idx_main_v41 (idx_main_v42 (ix2 p j)) = ix1 j from funext fun a => by match a with | ⟨0, _⟩ => rfl]
  exact slice_v27 x5 j

/-- Relation 0's root-side bias at any node. -/
theorem bias_v65 (p : Fin 50000) (j : Fin 64) : val_main_v65 (F := Ideal) x8 (ix2 p j) = x8 (ix2 (0 : Fin 2) j) := by
  rw [val_main_v65_apply, val_main_v64_apply,
    show idx_main_v64 (idx_main_v65 (ix2 p j)) = ix1 j from funext fun a => by match a with | ⟨0, _⟩ => rfl]
  exact slice_v50 x8 j

/-- Relation 1's root-side bias at any node. -/
theorem bias_v87 (p : Fin 10000) (j : Fin 64) : val_main_v87 (F := Ideal) x8 (ix2 p j) = x8 (ix2 (1 : Fin 2) j) := by
  rw [val_main_v87_apply, val_main_v86_apply,
    show idx_main_v86 (idx_main_v87 (ix2 p j)) = ix1 j from funext fun a => by match a with | ⟨0, _⟩ => rfl]
  exact slice_v72 x8 j

/-- Relation 0's second-layer bias at any node. -/
theorem bias_v112 (p : Fin 500000) (j : Fin 64) : val_main_v112 (F := Ideal) x11 (ix2 p j) = x11 (ix2 (0 : Fin 4) j) := by
  rw [val_main_v112_apply, val_main_v111_apply,
    show idx_main_v111 (idx_main_v112 (ix2 p j)) = ix1 j from funext fun a => by match a with | ⟨0, _⟩ => rfl]
  exact slice_v97 x11 j

/-- Relation 1's second-layer bias at any node. -/
theorem bias_v134 (p : Fin 500000) (j : Fin 64) : val_main_v134 (F := Ideal) x11 (ix2 p j) = x11 (ix2 (1 : Fin 4) j) := by
  rw [val_main_v134_apply, val_main_v133_apply,
    show idx_main_v133 (idx_main_v134 (ix2 p j)) = ix1 j from funext fun a => by match a with | ⟨0, _⟩ => rfl]
  exact slice_v119 x11 j

/-- The read-out's bias at any node. -/
theorem bias_v143 (p : Fin 500000) (o : Fin 2) : val_main_v143 (F := Ideal) x13 (ix2 p o) = x13 (ix1 o) := by
  rw [val_main_v143_apply, val_main_v142_apply]
  exact congrArg x13 (funext fun a => by match a with | ⟨0, _⟩ => rfl)

/-! ## The first layer at an entry

A `dot_general` of an `[n,K]` by a `[K,64]` operand at `(p, j)` is `Σₖ l (p,k) · r (k,j)`; with `K = 1` the sum is its
single term.  The positive part is the maximum with the constant `0`. -/

theorem hc_entry (p : Fin 50000) (j : Fin 64) :
    val_main_v90 (F := Ideal) x0 x2 x6 x7 x8 x14 x15 (ix2 p j)
      = Cert.Sage.rootEntry (fun k => val_main_v60 (F := Ideal) x2 x14 x15 (ix2 p k)) (fun k j' => x6 (ix3 (0 : Fin 2) k j'))
          (x0 (ix2 p (0 : Fin 1))) (fun j' => x7 (ix3 (0 : Fin 2) (0 : Fin 1) j')) (fun j' => x8 (ix2 (0 : Fin 2) j')) j := by
  have el : ∀ k : Fin 85, lidx_main_v61 (ix2 p j) k = ix2 p k := fun k =>
    funext fun a => by match a with | ⟨0, _⟩ => rfl | ⟨1, _⟩ => rfl
  have er : ∀ k : Fin 85, ridx_main_v61 (ix2 p j) k = ix2 k j := fun k =>
    funext fun a => by match a with | ⟨0, _⟩ => rfl | ⟨1, _⟩ => rfl
  have el1 : ∀ k : Fin 1, lidx_main_v62 (ix2 p j) k = ix2 p (0 : Fin 1) := fun k =>
    funext fun a => by match a with | ⟨0, _⟩ => rfl | ⟨1, _⟩ => exact Fin.ext (by have := k.isLt; show k.val = 0; omega)
  have er1 : ∀ k : Fin 1, ridx_main_v62 (ix2 p j) k = ix2 (0 : Fin 1) j := fun k =>
    funext fun a => by match a with | ⟨0, _⟩ => exact Fin.ext (by have := k.isLt; show k.val = 0; omega) | ⟨1, _⟩ => rfl
  rw [val_main_v90_apply, val_main_v66_apply, val_main_v63_apply, val_main_v61_apply, val_main_v62_apply,
    val_main_call1_v0_apply, val_main_call1_cst_apply, bias_v65]
  simp only [el, er, el1, er1, slice_v46, slice_v48, Fin.sum_univ_one, Ideal.maximumf_def, Ideal.addf_def, Ideal.ofBits_def,
    Ideal.ofBits_zero_f32, Cert.Sage.rootEntry]

theorem ht_entry (p : Fin 500000) (j : Fin 64) :
    val_main_v89 (F := Ideal) x0 x1 x2 x3 x4 x5 x14 x15 x16 x17 (ix2 p j)
      = Cert.Sage.htR (fun k => x2 (ix2 p k)) (val_main_v15 (F := Ideal) x0 x14 x15 (ix2 p (0 : Fin 1)))
          (val_main_v37 (F := Ideal) x1 x16 x17 (ix2 p (0 : Fin 1)))
          (fun j' => x3 (ix3 (0 : Fin 2) (0 : Fin 1) j')) (fun j' => x3 (ix3 (1 : Fin 2) (0 : Fin 1) j'))
          (fun k j' => x4 (ix3 (0 : Fin 2) k j')) (fun k j' => x4 (ix3 (1 : Fin 2) k j'))
          (fun j' => x5 (ix2 (0 : Fin 2) j')) (fun j' => x5 (ix2 (1 : Fin 2) j')) j := by
  have el0 : ∀ k : Fin 1, lidx_main_v16 (ix2 p j) k = ix2 p (0 : Fin 1) := fun k =>
    funext fun a => by match a with | ⟨0, _⟩ => rfl | ⟨1, _⟩ => exact Fin.ext (by have := k.isLt; show k.val = 0; omega)
  have er0 : ∀ k : Fin 1, ridx_main_v16 (ix2 p j) k = ix2 (0 : Fin 1) j := fun k =>
    funext fun a => by match a with | ⟨0, _⟩ => exact Fin.ext (by have := k.isLt; show k.val = 0; omega) | ⟨1, _⟩ => rfl
  have el1 : ∀ k : Fin 85, lidx_main_v17 (ix2 p j) k = ix2 p k := fun k =>
    funext fun a => by match a with | ⟨0, _⟩ => rfl | ⟨1, _⟩ => rfl
  have er1 : ∀ k : Fin 85, ridx_main_v17 (ix2 p j) k = ix2 k j := fun k =>
    funext fun a => by match a with | ⟨0, _⟩ => rfl | ⟨1, _⟩ => rfl
  have el2 : ∀ k : Fin 1, lidx_main_v38 (ix2 p j) k = ix2 p (0 : Fin 1) := fun k =>
    funext fun a => by match a with | ⟨0, _⟩ => rfl | ⟨1, _⟩ => exact Fin.ext (by have := k.isLt; show k.val = 0; omega)
  have er2 : ∀ k : Fin 1, ridx_main_v38 (ix2 p j) k = ix2 (0 : Fin 1) j := fun k =>
    funext fun a => by match a with | ⟨0, _⟩ => exact Fin.ext (by have := k.isLt; show k.val = 0; omega) | ⟨1, _⟩ => rfl
  have el3 : ∀ k : Fin 85, lidx_main_v39 (ix2 p j) k = ix2 p k := fun k =>
    funext fun a => by match a with | ⟨0, _⟩ => rfl | ⟨1, _⟩ => rfl
  have er3 : ∀ k : Fin 85, ridx_main_v39 (ix2 p j) k = ix2 k j := fun k =>
    funext fun a => by match a with | ⟨0, _⟩ => rfl | ⟨1, _⟩ => rfl
  rw [val_main_v89_apply, val_main_v44_apply, val_main_v21_apply, val_main_v18_apply, val_main_v16_apply, val_main_v17_apply,
    val_main_v43_apply, val_main_v40_apply, val_main_v38_apply, val_main_v39_apply,
    val_main_call0_v0_apply, val_main_call0_cst_apply, bias_v20, bias_v42]
  simp only [el0, er0, el1, er1, el2, er2, el3, er3, slice_v1, slice_v3, slice_v23, slice_v25, Fin.sum_univ_one,
    Ideal.maximumf_def, Ideal.addf_def, Ideal.ofBits_def, Ideal.ofBits_zero_f32, Cert.Sage.htR]

/-! ## The second layer and the read-out at an entry

The two relations' second-layer rows are laid side by side by a concatenation of their `[n,1,64]` broadcasts along the
middle axis and a reshape to `[n,128]`: column `l` of the result is column `l` of the first row when `l < 64` and column
`l - 64` of the second otherwise (`(p * 128 + l) / 64 % 2` is `0` or `1` accordingly, `(p * 128 + l) % 64` the column). -/

/-- Relation 0's second-layer row before the positive part. -/
theorem t1_pre (p : Fin 500000) (c : Fin 64) :
    val_main_v113 (F := Ideal) x0 x1 x2 x3 x4 x5 x6 x7 x8 x9 x10 x11 x14 x15 x16 x17 (ix2 p c)
      = ((∑ k : Fin 64, val_main_v107 (F := Ideal) x0 x2 x6 x7 x8 x14 x15 (ix2 p k) * x9 (ix3 (0 : Fin 4) k c))
          + (∑ k : Fin 64, val_main_v89 (F := Ideal) x0 x1 x2 x3 x4 x5 x14 x15 x16 x17 (ix2 p k) * x10 (ix3 (0 : Fin 4) k c)))
        + x11 (ix2 (0 : Fin 4) c) := by
  have el0 : ∀ k : Fin 64, lidx_main_v108 (ix2 p c) k = ix2 p k := fun k =>
    funext fun a => by match a with | ⟨0, _⟩ => rfl | ⟨1, _⟩ => rfl
  have er0 : ∀ k : Fin 64, ridx_main_v108 (ix2 p c) k = ix2 k c := fun k =>
    funext fun a => by match a with | ⟨0, _⟩ => rfl | ⟨1, _⟩ => rfl
  have el1 : ∀ k : Fin 64, lidx_main_v109 (ix2 p c) k = ix2 p k := fun k =>
    funext fun a => by match a with | ⟨0, _⟩ => rfl | ⟨1, _⟩ => rfl
  have er1 : ∀ k : Fin 64, ridx_main_v109 (ix2 p c) k = ix2 k c := fun k =>
    funext fun a => by match a with | ⟨0, _⟩ => rfl | ⟨1, _⟩ => rfl
  rw [val_main_v113_apply, val_main_v110_apply, val_main_v108_apply, val_main_v109_apply, bias_v112]
  simp only [el0, er0, el1, er1, slice_v93, slice_v95, Ideal.addf_def]

/-- Relation 1's second-layer row before the positive part. -/
theorem t2_pre (p : Fin 500000) (c : Fin 64) :
    val_main_v135 (F := Ideal) x0 x1 x2 x3 x4 x5 x6 x7 x8 x9 x10 x11 x14 x15 x16 x17 (ix2 p c)
      = ((∑ k : Fin 64, val_main_v129 (F := Ideal) x1 x2 x6 x7 x8 x16 x17 (ix2 p k) * x9 (ix3 (1 : Fin 4) k c))
          + (∑ k : Fin 64, val_main_v89 (F := Ideal) x0 x1 x2 x3 x4 x5 x14 x15 x16 x17 (ix2 p k) * x10 (ix3 (1 : Fin 4) k c)))
        + x11 (ix2 (1 : Fin 4) c) := by
  have el0 : ∀ k : Fin 64, lidx_main_v130 (ix2 p c) k = ix2 p k := fun k =>
    funext fun a => by match a with | ⟨0, _⟩ => rfl | ⟨1, _⟩ => rfl
  have er0 : ∀ k : Fin 64, ridx_main_v130 (ix2 p c) k = ix2 k c := fun k =>
    funext fun a => by match a with | ⟨0, _⟩ => rfl | ⟨1, _⟩ => rfl
  have el1 : ∀ k : Fin 64, lidx_main_v131 (ix2 p c) k = ix2 p k := fun k =>
    funext fun a => by match a with | ⟨0, _⟩ => rfl | ⟨1, _⟩ => rfl
  have er1 : ∀ k : Fin 64, ridx_main_v131 (ix2 p c) k = ix2 k c := fun k =>
    funext fun a => by match a with | ⟨0, _⟩ => rfl | ⟨1, _⟩ => rfl
  rw [val_main_v135_apply, val_main_v132_apply, val_main_v130_apply, val_main_v131_apply, bias_v134]
  simp only [el0, er0, el1, er1, slice_v115, slice_v117, Ideal.addf_def]

/-- The concatenated rows at a column of the first half: relation 0's row. -/
theorem cat_lo (p : Fin 500000) (l : Fin 128) (h : l.val < 64) :
    val_main_v138 (F := Ideal) x0 x1 x2 x3 x4 x5 x6 x7 x8 x9 x10 x11 x14 x15 x16 x17 (idx_main_v140 (ix2 p l))
      = val_main_v113 (F := Ideal) x0 x1 x2 x3 x4 x5 x6 x7 x8 x9 x10 x11 x14 x15 x16 x17 (ix2 p (⟨l.val, h⟩ : Fin 64)) := by
  have hp := p.isLt
  unfold val_main_v138
  refine (concatenate_pair_apply_left (t := S500000x2x64) (s₁ := S500000x1x64) (s₂ := S500000x1x64) _ _ _ _ (idx_main_v140 (ix2 p l))
    (show S500000x1x64.rank = S500000x2x64.rank from rfl) (ix3 p (0 : Fin 1) (⟨l.val, h⟩ : Fin 64)) ?_).trans ?_
  · intro b
    match b with
    | ⟨0, _⟩ => show p.val = (p.val * 128 + l.val) / 128; omega
    | ⟨1, _⟩ => show 0 = (p.val * 128 + l.val) / 64 % 2; omega
    | ⟨2, _⟩ => show l.val = (p.val * 128 + l.val) % 64; omega
  · rw [val_main_v136_apply]
    exact congrArg _ (funext fun a => by match a with | ⟨0, _⟩ => rfl | ⟨1, _⟩ => rfl)

/-- The concatenated rows at a column of the second half: relation 1's row. -/
theorem cat_hi (p : Fin 500000) (l : Fin 128) (h : ¬ l.val < 64) :
    val_main_v138 (F := Ideal) x0 x1 x2 x3 x4 x5 x6 x7 x8 x9 x10 x11 x14 x15 x16 x17 (idx_main_v140 (ix2 p l))
      = val_main_v135 (F := Ideal) x0 x1 x2 x3 x4 x5 x6 x7 x8 x9 x10 x11 x14 x15 x16 x17
          (ix2 p (⟨l.val - 64, by have := l.isLt; omega⟩ : Fin 64)) := by
  have hp := p.isLt; have hl := l.isLt
  unfold val_main_v138
  refine (concatenate_pair_apply_right (t := S500000x2x64) (s₁ := S500000x1x64) (s₂ := S500000x1x64) _ _ _ _ (idx_main_v140 (ix2 p l))
    (show S500000x1x64.rank = S500000x2x64.rank from rfl) (show S500000x1x64.rank = S500000x2x64.rank from rfl)
    (ix3 p (0 : Fin 1) (⟨l.val - 64, by omega⟩ : Fin 64)) ?_ ?_).trans ?_
  · intro b hb
    match b, hb with
    | ⟨0, _⟩, _ => show p.val = (p.val * 128 + l.val) / 128; omega
    | ⟨1, _⟩, hb => exact absurd rfl hb
    | ⟨2, _⟩, _ => show l.val - 64 = (p.val * 128 + l.val) % 64; omega
  · show 0 + 1 = (p.val * 128 + l.val) / 64 % 2; omega
  · rw [val_main_v137_apply]
    exact congrArg _ (funext fun a => by match a with | ⟨0, _⟩ => rfl | ⟨1, _⟩ => rfl)

theorem out_entry (p : Fin 500000) (o : Fin 2) :
    val_main_v144 (F := Ideal) x0 x1 x2 x3 x4 x5 x6 x7 x8 x9 x10 x11 x12 x13 x14 x15 x16 x17 (ix2 p o)
      = Cert.Sage.outEntry
          (Cert.Sage.cat
            (Cert.Sage.tEntry (fun k => val_main_v107 (F := Ideal) x0 x2 x6 x7 x8 x14 x15 (ix2 p k))
              (fun k => val_main_v89 (F := Ideal) x0 x1 x2 x3 x4 x5 x14 x15 x16 x17 (ix2 p k))
              (fun k j' => x9 (ix3 (0 : Fin 4) k j')) (fun k j' => x10 (ix3 (0 : Fin 4) k j')) (fun j' => x11 (ix2 (0 : Fin 4) j')))
            (Cert.Sage.tEntry (fun k => val_main_v129 (F := Ideal) x1 x2 x6 x7 x8 x16 x17 (ix2 p k))
              (fun k => val_main_v89 (F := Ideal) x0 x1 x2 x3 x4 x5 x14 x15 x16 x17 (ix2 p k))
              (fun k j' => x9 (ix3 (1 : Fin 4) k j')) (fun k j' => x10 (ix3 (1 : Fin 4) k j')) (fun j' => x11 (ix2 (1 : Fin 4) j'))))
          (fun l => x12 (ix2 l o)) (x13 (ix1 o)) := by
  have el : ∀ l : Fin 128, lidx_main_v141 (ix2 p o) l = ix2 p l := fun l =>
    funext fun a => by match a with | ⟨0, _⟩ => rfl | ⟨1, _⟩ => rfl
  have er : ∀ l : Fin 128, ridx_main_v141 (ix2 p o) l = ix2 l o := fun l =>
    funext fun a => by match a with | ⟨0, _⟩ => rfl | ⟨1, _⟩ => rfl
  rw [val_main_v144_apply, val_main_v141_apply, bias_v143, Ideal.addf_def]
  unfold Cert.Sage.outEntry
  refine congrArg (· + x13 (ix1 o)) (Finset.sum_congr rfl fun l _ => ?_)
  rw [el, er]
  refine congrArg (· * x12 (ix2 l o)) ?_
  rw [val_main_v140_apply, val_main_v139_apply, val_main_call3_v0_apply, val_main_call3_cst_apply, Ideal.maximumf_def,
    Ideal.ofBits_def, Ideal.ofBits_zero_f32]
  unfold Cert.Sage.cat Cert.Sage.tEntry
  by_cases h : l.val < 64
  · rw [dif_pos h, cat_lo x0 x1 x2 x3 x4 x5 x6 x7 x8 x9 x10 x11 x14 x15 x16 x17 p l h, t1_pre]
  · rw [dif_neg h, cat_hi x0 x1 x2 x3 x4 x5 x6 x7 x8 x9 x10 x11 x14 x15 x16 x17 p l h, t2_pre]

theorem hm_entry (p : Fin 10000) (j : Fin 64) :
    val_main_v91 (F := Ideal) x1 x2 x6 x7 x8 x16 x17 (ix2 p j)
      = Cert.Sage.rootEntry (fun k => val_main_v82 (F := Ideal) x2 x16 x17 (ix2 p k)) (fun k j' => x6 (ix3 (1 : Fin 2) k j'))
          (x1 (ix2 p (0 : Fin 1))) (fun j' => x7 (ix3 (1 : Fin 2) (0 : Fin 1) j')) (fun j' => x8 (ix2 (1 : Fin 2) j')) j := by
  have el : ∀ k : Fin 85, lidx_main_v83 (ix2 p j) k = ix2 p k := fun k =>
    funext fun a => by match a with | ⟨0, _⟩ => rfl | ⟨1, _⟩ => rfl
  have er : ∀ k : Fin 85, ridx_main_v83 (ix2 p j) k = ix2 k j := fun k =>
    funext fun a => by match a with | ⟨0, _⟩ => rfl | ⟨1, _⟩ => rfl
  have el1 : ∀ k : Fin 1, lidx_main_v84 (ix2 p j) k = ix2 p (0 : Fin 1) := fun k =>
    funext fun a => by match a with | ⟨0, _⟩ => rfl | ⟨1, _⟩ => exact Fin.ext (by have := k.isLt; show k.val = 0; omega)
  have er1 : ∀ k : Fin 1, ridx_main_v84 (ix2 p j) k = ix2 (0 : Fin 1) j := fun k =>
    funext fun a => by match a with | ⟨0, _⟩ => exact Fin.ext (by have := k.isLt; show k.val = 0; omega) | ⟨1, _⟩ => rfl
  rw [val_main_v91_apply, val_main_v88_apply, val_main_v85_apply, val_main_v83_apply, val_main_v84_apply,
    val_main_call2_v0_apply, val_main_call2_cst_apply, bias_v87]
  simp only [el, er, el1, er1, slice_v68, slice_v70, Fin.sum_univ_one, Ideal.maximumf_def, Ideal.addf_def, Ideal.ofBits_def,
    Ideal.ofBits_zero_f32, Cert.Sage.rootEntry]

end Cert.Sage.Ref
-- ==== Proof.Algebra.lean ====
/-
  The one algebraic law that joins the two arrangements of the transaction-side first layer.

  For a fixed node and output channel, the kernel-side arrangement multiplies each feature by the SUM of the two relations'
  weights, the reference-side arrangement adds the two relations' products.  On the extended reals `x · (u + v) = x · u + x · v`
  holds when the three numbers are finite (it can fail at the infinities), so the law is stated for finite features and
  weights; regrouping the remaining additions needs nothing, `+` being commutative and associative on the extended reals.
-/
import proofs.«179584_j5403068858514_2_alg».proof.Proof.Spec
import Mathlib.Tactic.Abel
import Mathlib.Tactic.Ring

noncomputable section

open scoped BigOperators

namespace Cert.Sage

/-- Distributivity at finite numbers. -/
theorem mul_add_of_real (x u v : EReal) (hx : ∃ r : ℝ, x = r) (hu : ∃ r : ℝ, u = r) (hv : ∃ r : ℝ, v = r) :
    x * (u + v) = x * u + x * v := by
  obtain ⟨a, rfl⟩ := hx; obtain ⟨b, rfl⟩ := hu; obtain ⟨c, rfl⟩ := hv
  rw [← EReal.coe_add, ← EReal.coe_mul, ← EReal.coe_mul, ← EReal.coe_mul, ← EReal.coe_add, mul_add]

/-- The two arrangements of the transaction-side first-layer entry agree at finite features and weights. -/
theorem htK_eq_htR (xt : Fin 85 → EReal) (a1 a2 : EReal) (ws0 ws1 : Fin 64 → EReal) (w0 w1 : Fin 85 → Fin 64 → EReal)
    (b0 b1 : Fin 64 → EReal) (j : Fin 64)
    (hx : ∀ k, ∃ r : ℝ, xt k = r) (h0 : ∀ k, ∃ r : ℝ, w0 k j = r) (h1 : ∀ k, ∃ r : ℝ, w1 k j = r) :
    htK xt a1 a2 ws0 ws1 (fun k j' => w0 k j' + w1 k j') (fun j' => b0 j' + b1 j') j = htR xt a1 a2 ws0 ws1 w0 w1 b0 b1 j := by
  unfold htK htR
  have hs : (∑ k : Fin 85, xt k * (w0 k j + w1 k j)) = (∑ k : Fin 85, xt k * w0 k j) + ∑ k : Fin 85, xt k * w1 k j := by
    rw [← Finset.sum_add_distrib]
    exact Finset.sum_congr rfl fun k _ => mul_add_of_real _ _ _ (hx k) (h0 k) (h1 k)
  rw [hs]
  refine congrArg (max · 0) ?_
  abel_nf

end Cert.Sage

end
-- ==== Proof.Assemble.lean ====
/-
  The two programs compute one function of the arguments.

  The idealized kernel program's result buffer, walked back through its three kernel regions and the host stretches between
  them, is entry by entry the specification's read-out of the two second-layer outputs; the reference's result, read one
  operation at a time, is the same expression with the transaction-side first layer arranged as the sum of two affine maps.
  Every aggregation (a row gather followed by a scatter-add) is the SAME term on both sides and is never opened: the hidden
  layers it is applied to are shown equal as whole arrays first.  The one law that is used beyond regrouping sums is
  distributivity over the transaction features and the transaction-side weights, which are finite by the precondition.
-/
import proofs.«179584_j5403068858514_2_alg».proof.Defs
import proofs.«179584_j5403068858514_2_alg».proof.Proof.FoldHost
import proofs.«179584_j5403068858514_2_alg».proof.Proof.Root0
import proofs.«179584_j5403068858514_2_alg».proof.Proof.Root1
import proofs.«179584_j5403068858514_2_alg».proof.Proof.Fused
import proofs.«179584_j5403068858514_2_alg».proof.Proof.RefRead
import proofs.«179584_j5403068858514_2_alg».proof.Proof.Algebra
import proofs.«179584_j5403068858514_2_alg».proof.Proof.KernelRun
import proofs.«179584_j5403068858514_2_alg».proof.Proof.Finite
import proofs.«179584_j5403068858514_2_alg».proof.Proof.Gen.ReferenceIdeal.Run
import Idealize.ShloMosaic.Lib.ValueIdx
import Idealize.ShloMosaic.Lib.ValueLayout

set_option maxRecDepth 16384

noncomputable section

open scoped BigOperators

namespace Cert.Sage.Assemble

open Idealize.ShloMosaic Idealize.ShloMosaic.TcCoe Idealize.SL.Sem Idealize.ShloMosaic.ValueIdx
open Cert.KernelIdeal Cert.KernelIdeal.Gen
open Cert.ReferenceIdeal.Read
open Cert.Sage.Fold

variable (m : (ℓ : Loc nD τ sig) → Buf (Elt Ideal) ℓ) (ρ : Dev nD → PrngReg) (c : Dev nD)

/-- The first region leaves the reference's root-side hidden layer of the first node type. -/
theorem hcK : W2 m ρ c (Proc.devRef .tc main_v47) = val_main_v90 (F := Ideal) (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg14)) (m ((c : Thread nD τ).loc main_arg15)) := by
  refine (W2_arr m ρ c 5).trans ((Cert.Sage.Root0.final (V1 m ρ) c).trans (funext fun i => ?_))
  obtain ⟨p, j, rfl⟩ : ∃ (p : Fin 50000) (j : Fin 64), i = ix2 p j := ⟨i 0, i 1, eq_ix2 i⟩
  rw [Cert.Sage.Ref.hc_entry]
  show Cert.Sage.Root0.entry (V1 m ρ) c p j = _
  unfold Cert.Sage.Root0.entry
  have e29 : V1 m ρ c main_v29 = val_main_v60 (F := Ideal) (m ((c : Thread nD τ).loc main_arg2)) (m ((c : Thread nD τ).loc main_arg14)) (m ((c : Thread nD τ).loc main_arg15)) := w1_v29 m ρ c
  have e41 : V1 m ρ c main_v41 = val_main_v46 (F := Ideal) (m ((c : Thread nD τ).loc main_arg6)) := w1_v41 m ρ c
  have e0 : V1 m ρ c main_arg0 = (m ((c : Thread nD τ).loc main_arg0)) := w1_arg0 m ρ c
  have e43 : V1 m ρ c main_v43 = val_main_v48 (F := Ideal) (m ((c : Thread nD τ).loc main_arg7)) := w1_v43 m ρ c
  have e46 : V1 m ρ c main_v46 = shapeCast S1x64 (val_main_v50 (F := Ideal) (m ((c : Thread nD τ).loc main_arg8))) shapeCasts_S64_S1x64 := w1_v46 m ρ c
  rw [e29, e41, e0, e43, e46]
  simp only [Cert.Sage.Ref.slice_v46, Cert.Sage.Ref.slice_v48, shapeCast_a_1a_apply, Cert.Sage.Ref.slice_v50]

/-- The second region leaves the reference's root-side hidden layer of the second node type. -/
theorem hmK : W4 m ρ c (Proc.devRef .tc main_v55) = val_main_v91 (F := Ideal) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg16)) (m ((c : Thread nD τ).loc main_arg17)) := by
  refine (W4_arr m ρ c 5).trans ((Cert.Sage.Root1.final (V3 m ρ) c).trans (funext fun i => ?_))
  obtain ⟨p, j, rfl⟩ : ∃ (p : Fin 10000) (j : Fin 64), i = ix2 p j := ⟨i 0, i 1, eq_ix2 i⟩
  rw [Cert.Sage.Ref.hm_entry]
  show Cert.Sage.Root1.entry (V3 m ρ) c p j = _
  unfold Cert.Sage.Root1.entry
  have e39 : V3 m ρ c main_v39 = val_main_v82 (F := Ideal) (m ((c : Thread nD τ).loc main_arg2)) (m ((c : Thread nD τ).loc main_arg16)) (m ((c : Thread nD τ).loc main_arg17)) := w3_v39 m ρ c
  have e49 : V3 m ρ c main_v49 = val_main_v68 (F := Ideal) (m ((c : Thread nD τ).loc main_arg6)) := w3_v49 m ρ c
  have e1 : V3 m ρ c main_arg1 = (m ((c : Thread nD τ).loc main_arg1)) := w3_arg1 m ρ c
  have e51 : V3 m ρ c main_v51 = val_main_v70 (F := Ideal) (m ((c : Thread nD τ).loc main_arg7)) := w3_v51 m ρ c
  have e54 : V3 m ρ c main_v54 = shapeCast S1x64 (val_main_v72 (F := Ideal) (m ((c : Thread nD τ).loc main_arg8))) shapeCasts_S64_S1x64 := w3_v54 m ρ c
  rw [e39, e49, e1, e51, e54]
  simp only [Cert.Sage.Ref.slice_v68, Cert.Sage.Ref.slice_v70, shapeCast_a_1a_apply, Cert.Sage.Ref.slice_v72]

/-- The result buffer holds the reference's result, at finite transaction features and transaction-side weights. -/
theorem result_eq (hx : ∀ i, ∃ r : ℝ, ((m ((c : Thread nD τ).loc main_arg2)) : S500000x85.Idx → EReal) i = (r : EReal))
    (hw : ∀ i, ∃ r : ℝ, ((m ((c : Thread nD τ).loc main_arg4)) : S2x85x64.Idx → EReal) i = (r : EReal)) :
    W6 m ρ c (Proc.devRef .tc main_v109)
      = val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W6_arr m ρ c 17).trans ((Cert.Sage.Fused.final (V5 m ρ) c).trans (funext fun i => ?_))
  obtain ⟨p, o, rfl⟩ : ∃ (p : Fin 500000) (o : Fin 2), i = ix2 p o := ⟨i 0, i 1, eq_ix2 i⟩
  rw [Cert.Sage.Ref.out_entry]
  show Cert.Sage.Fused.entry (V5 m ρ) c p o = _
  unfold Cert.Sage.Fused.entry Cert.Sage.Fused.hidden
  have e9 : V5 m ρ c main_v9 = val_main_v15 (F := Ideal) (m ((c : Thread nD τ).loc main_arg0)) (m ((c : Thread nD τ).loc main_arg14)) (m ((c : Thread nD τ).loc main_arg15)) := w5_v9 m ρ c
  have e19 : V5 m ρ c main_v19 = val_main_v37 (F := Ideal) (m ((c : Thread nD τ).loc main_arg1)) (m ((c : Thread nD τ).loc main_arg16)) (m ((c : Thread nD τ).loc main_arg17)) := w5_v19 m ρ c
  have e2 : V5 m ρ c main_arg2 = (m ((c : Thread nD τ).loc main_arg2)) := w5_arg2 m ρ c
  have e66 : V5 m ρ c main_v66 = val_main_v107 (F := Ideal) (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg14)) (m ((c : Thread nD τ).loc main_arg15)) := w5_v66 m ρ c (hcK m ρ c)
  have e77 : V5 m ρ c main_v77 = val_main_v129 (F := Ideal) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg16)) (m ((c : Thread nD τ).loc main_arg17)) := w5_v77 m ρ c (hmK m ρ c)
  have e91 := w5_v91 m ρ c
  have e93 := w5_v93 m ρ c
  have e82 := w5_v82 m ρ c
  have e88 := w5_v88 m ρ c
  have e95 := w5_v95 m ρ c
  have e97 := w5_v97 m ρ c
  have e100 := w5_v100 m ρ c
  have e102 := w5_v102 m ρ c
  have e104 := w5_v104 m ρ c
  have e107 := w5_v107 m ρ c
  have e89 := w5_v89 m ρ c
  have e108 := w5_v108 m ρ c
  rw [e9, e19, e2, e66, e77, show V5 m ρ c main_v91 = _ from e91, show V5 m ρ c main_v93 = _ from e93,
    show V5 m ρ c main_v82 = _ from e82, show V5 m ρ c main_v88 = _ from e88, show V5 m ρ c main_v95 = _ from e95,
    show V5 m ρ c main_v97 = _ from e97, show V5 m ρ c main_v100 = _ from e100, show V5 m ρ c main_v102 = _ from e102,
    show V5 m ρ c main_v104 = _ from e104, show V5 m ρ c main_v107 = _ from e107, show V5 m ρ c main_v89 = _ from e89,
    show V5 m ρ c main_v108 = _ from e108]
  simp only [Cert.Sage.Ref.slice_v1, Cert.Sage.Ref.slice_v23, addf_apply, Cert.Sage.Ref.slice_v3, Cert.Sage.Ref.slice_v25,
    shapeCast_a_1a_apply, Cert.Sage.Ref.slice_v5, Cert.Sage.Ref.slice_v27, Cert.Sage.Ref.slice_v93, Cert.Sage.Ref.slice_v95,
    Cert.Sage.Ref.slice_v97, Cert.Sage.Ref.slice_v115, Cert.Sage.Ref.slice_v117, Cert.Sage.Ref.slice_v119, transpose_ix2_apply]
  have e12 : ∀ l : Fin 128, transpose S2x128 [1, 0] (m ((c : Thread nD τ).loc main_arg12)) transposes_S128x2_S2x128_1_0 (ix2 o l)
      = ((m ((c : Thread nD τ).loc main_arg12)) : S128x2.Idx → EReal) (ix2 l o) := fun l => transpose_ix2_apply (a := 128) (b := 2) _ _ o l
  simp only [e12]
  have hht : (fun k => val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg14)) (m ((c : Thread nD τ).loc main_arg15)) (m ((c : Thread nD τ).loc main_arg16)) (m ((c : Thread nD τ).loc main_arg17)) (ix2 p k))
      = Cert.Sage.htK (fun k => (m ((c : Thread nD τ).loc main_arg2)) (ix2 p k)) (val_main_v15 (F := Ideal) (m ((c : Thread nD τ).loc main_arg0)) (m ((c : Thread nD τ).loc main_arg14)) (m ((c : Thread nD τ).loc main_arg15)) (ix2 p (0 : Fin 1)))
          (val_main_v37 (F := Ideal) (m ((c : Thread nD τ).loc main_arg1)) (m ((c : Thread nD τ).loc main_arg16)) (m ((c : Thread nD τ).loc main_arg17)) (ix2 p (0 : Fin 1)))
          (fun j' => (m ((c : Thread nD τ).loc main_arg3)) (ix3 (0 : Fin 2) (0 : Fin 1) j')) (fun j' => (m ((c : Thread nD τ).loc main_arg3)) (ix3 (1 : Fin 2) (0 : Fin 1) j'))
          (fun k j' => @HAdd.hAdd EReal EReal EReal instHAdd ((m ((c : Thread nD τ).loc main_arg4)) (ix3 (0 : Fin 2) k j')) ((m ((c : Thread nD τ).loc main_arg4)) (ix3 (1 : Fin 2) k j')))
          (fun j' => @HAdd.hAdd EReal EReal EReal instHAdd ((m ((c : Thread nD τ).loc main_arg5)) (ix2 (0 : Fin 2) j')) ((m ((c : Thread nD τ).loc main_arg5)) (ix2 (1 : Fin 2) j'))) := by
    funext j
    rw [Cert.Sage.Ref.ht_entry]
    exact (Cert.Sage.htK_eq_htR _ _ _ _ _ _ _ _ _ j (fun k => hx _) (fun k => hw _) (fun k => hw _)).symm
  rw [hht]

end Cert.Sage.Assemble

end
-- ==== Proof.lean ====
/-
  A two-layer heterogeneous neighbour-aggregation network: the kernel program against its plain-array reference.

  Both programs aggregate neighbour features by a row gather followed by a scatter-add (four times on raw features, twice on
  the root-side hidden layers), apply `relu (agg · W + own · W' + b)` layers, lay the two second-layer outputs side by side and
  read them out through a [128, 2] matrix.  The kernel program runs the dense layers in three kernel regions (the two
  root-side first layers; the transaction-side first layer fused with the second layer and the read-out) and everything else
  on the host.

  * The three frames: the kernel programs' are the generated frame certificates; the reference's is its generated run with
    the result forgotten.
  * `preserves`: the idealization rewrote nothing.
  * `algebraic`: the kernel program's result buffer is, entry by entry, the specification's read-out (the regions as
    whole-array functions, the host stretches read back to the arguments), the reference's result is the same expression
    with the transaction-side first layer arranged as a sum of two affine maps, and the two arrangements agree at finite
    features and weights (distributivity), which the precondition provides.
-/
import proofs.«179584_j5403068858514_2_alg».proof.Defs
import proofs.«179584_j5403068858514_2_alg».proof.Proof.Gen.Kernel
import proofs.«179584_j5403068858514_2_alg».proof.Proof.Gen.Kernel.Frame
import proofs.«179584_j5403068858514_2_alg».proof.Proof.Gen.KernelIdeal
import proofs.«179584_j5403068858514_2_alg».proof.Proof.Gen.KernelIdeal.Frame
import proofs.«179584_j5403068858514_2_alg».proof.Proof.Gen.ReferenceIdeal
import proofs.«179584_j5403068858514_2_alg».proof.Proof.Gen.Pre_finite_inputs
import proofs.«179584_j5403068858514_2_alg».proof.Proof.Gen.ReferenceIdeal.Run
import proofs.«179584_j5403068858514_2_alg».proof.Proof.Gen.ReferenceIdeal.Read
import proofs.«179584_j5403068858514_2_alg».proof.Proof.KernelRun
import proofs.«179584_j5403068858514_2_alg».proof.Proof.Finite
import proofs.«179584_j5403068858514_2_alg».proof.Proof.Assemble
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments the two programs end with equal results: the kernel program's run names its result
    buffer's contents, the reference's run names its result's term, and the two are one function of the arguments. -/
theorem algebraic : Cert.algebraic_KernelIdeal_ReferenceIdeal := by
  intro m ρ m' ρ' hpre hagree
  refine ⟨fun c => Cert.KernelIdeal.Gen.W6 m ρ c (Proc.devRef .tc Cert.KernelIdeal.main_v109), Cert.Sage.KRun.result m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, a7, a8, a9, a10, a11, a12, a13, a14, a15, a16, a17⟩ := hagree c
  rw [(h c).1, Cert.ReferenceIdeal.Read.val_main_v144_eq, a0, a1, a2, a3, a4, a5, a6, a7, a8, a9, a10, a11, a12, a13, a14, a15,
    a16, a17]
  exact (Cert.Sage.Assemble.result_eq m ρ c (Cert.Sage.Finite.features_real m hpre c)
    (Cert.Sage.Finite.weights_real m hpre c)).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
